-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S1x1 : Shape := ⟨2, ![1, 1]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S_ : Shape := ⟨0, ![]⟩
abbrev S1024x512 : Shape := ⟨2, ![1024, 512]⟩
abbrev S1024 : Shape := ⟨1, ![1024]⟩
abbrev S1024x1 : Shape := ⟨2, ![1024, 1]⟩

abbrev nBuf : Space → Nat
  | .hbm => 22
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S1x1, .f32⟩
  | .local _ .vmem, ⟨4, _⟩ => ⟨S512x512, .bf16⟩
  | .local _ .vmem, ⟨5, _⟩ => ⟨S512x512, .bf16⟩
  | .local _ .vmem, ⟨6, _⟩ => ⟨S8192x512, .bf16⟩
  | .local _ .vmem, ⟨7, _⟩ => ⟨S1x1, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12

abbrev nD : Nat := 1
abbrev τ : Topo := Topo.v7x

variable {F : FTy → Type} [FloatOps F]

abbrev grid0 : Pipeline.Grid := ⟨1, ![16], ![false]⟩

def k0_mult1 : BitVec 32 :=
  let c0_i32_3 : BitVec 32 := 0#32
  let c512_i32_4 : BitVec 32 := 512#32
  let v14 : BitVec 32 := Scalar.muli c0_i32_3 c512_i32_4
  v14
def k0_off1 (c0_i32_3 : BitVec 32) : Fin 2 → Nat :=
  let c512_i32_4 : BitVec 32 := 512#32
  let v14 : BitVec 32 := Scalar.muli c0_i32_3 c512_i32_4
  let v15 : BitVec 32 := v14
  let v16 : Index := Scalar.indexCast v15
  let c0_5 : Index := 0#32
  ![v16.toNat, 0]
def k0_mult2 : BitVec 32 :=
  let c1_i32 : BitVec 32 := 1#32
  let c512_i32_14 : BitVec 32 := 512#32
  let v49 : BitVec 32 := Scalar.muli c1_i32 c512_i32_14
  v49
def k0_mult3 : BitVec 32 :=
  let c2_i32 : BitVec 32 := 2#32
  let c512_i32_24 : BitVec 32 := 512#32
  let v84 : BitVec 32 := Scalar.muli c2_i32 c512_i32_24
  v84
def k0_mult4 : BitVec 32 :=
  let c3_i32 : BitVec 32 := 3#32
  let c512_i32_34 : BitVec 32 := 512#32
  let v119 : BitVec 32 := Scalar.muli c3_i32 c512_i32_34
  v119
def k0_mult5 : BitVec 32 :=
  let c4_i32 : BitVec 32 := 4#32
  let c512_i32_44 : BitVec 32 := 512#32
  let v154 : BitVec 32 := Scalar.muli c4_i32 c512_i32_44
  v154
def k0_mult6 : BitVec 32 :=
  let c5_i32 : BitVec 32 := 5#32
  let c512_i32_54 : BitVec 32 := 512#32
  let v189 : BitVec 32 := Scalar.muli c5_i32 c512_i32_54
  v189
def k0_mult7 : BitVec 32 :=
  let c6_i32 : BitVec 32 := 6#32
  let c512_i32_64 : BitVec 32 := 512#32
  let v224 : BitVec 32 := Scalar.muli c6_i32 c512_i32_64
  v224
def k0_mult8 : BitVec 32 :=
  let c7_i32 : BitVec 32 := 7#32
  let c512_i32_74 : BitVec 32 := 512#32
  let v259 : BitVec 32 := Scalar.muli c7_i32 c512_i32_74
  v259
def k0_mult9 : BitVec 32 :=
  let c8_i32 : BitVec 32 := 8#32
  let c512_i32_84 : BitVec 32 := 512#32
  let v294 : BitVec 32 := Scalar.muli c8_i32 c512_i32_84
  v294
def k0_mult10 : BitVec 32 :=
  let c9_i32 : BitVec 32 := 9#32
  let c512_i32_94 : BitVec 32 := 512#32
  let v329 : BitVec 32 := Scalar.muli c9_i32 c512_i32_94
  v329
def k0_mult11 : BitVec 32 :=
  let c10_i32 : BitVec 32 := 10#32
  let c512_i32_104 : BitVec 32 := 512#32
  let v364 : BitVec 32 := Scalar.muli c10_i32 c512_i32_104
  v364
def k0_mult12 : BitVec 32 :=
  let c11_i32 : BitVec 32 := 11#32
  let c512_i32_114 : BitVec 32 := 512#32
  let v399 : BitVec 32 := Scalar.muli c11_i32 c512_i32_114
  v399
def k0_mult13 : BitVec 32 :=
  let c12_i32 : BitVec 32 := 12#32
  let c512_i32_124 : BitVec 32 := 512#32
  let v434 : BitVec 32 := Scalar.muli c12_i32 c512_i32_124
  v434
def k0_mult14 : BitVec 32 :=
  let c13_i32 : BitVec 32 := 13#32
  let c512_i32_134 : BitVec 32 := 512#32
  let v469 : BitVec 32 := Scalar.muli c13_i32 c512_i32_134
  v469
def k0_mult15 : BitVec 32 :=
  let c14_i32 : BitVec 32 := 14#32
  let c512_i32_144 : BitVec 32 := 512#32
  let v504 : BitVec 32 := Scalar.muli c14_i32 c512_i32_144
  v504
def k0_mult16 : BitVec 32 :=
  let c15_i32 : BitVec 32 := 15#32
  let c512_i32_154 : BitVec 32 := 512#32
  let v539 : BitVec 32 := Scalar.muli c15_i32 c512_i32_154
  v539
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def k1_mult1 : BitVec 32 :=
  let c0_i32_3 : BitVec 32 := 0#32
  let c512_i32_4 : BitVec 32 := 512#32
  let v14 : BitVec 32 := Scalar.muli c0_i32_3 c512_i32_4
  v14
def k1_off1 (c0_i32_3 : BitVec 32) : Fin 2 → Nat :=
  let c512_i32_4 : BitVec 32 := 512#32
  let v14 : BitVec 32 := Scalar.muli c0_i32_3 c512_i32_4
  let v15 : BitVec 32 := v14
  let v16 : Index := Scalar.indexCast v15
  let c0_5 : Index := 0#32
  ![v16.toNat, 0]
def k1_mult2 : BitVec 32 :=
  let c1_i32 : BitVec 32 := 1#32
  let c512_i32_14 : BitVec 32 := 512#32
  let v49 : BitVec 32 := Scalar.muli c1_i32 c512_i32_14
  v49
def k1_mult3 : BitVec 32 :=
  let c2_i32 : BitVec 32 := 2#32
  let c512_i32_24 : BitVec 32 := 512#32
  let v84 : BitVec 32 := Scalar.muli c2_i32 c512_i32_24
  v84
def k1_mult4 : BitVec 32 :=
  let c3_i32 : BitVec 32 := 3#32
  let c512_i32_34 : BitVec 32 := 512#32
  let v119 : BitVec 32 := Scalar.muli c3_i32 c512_i32_34
  v119
def k1_mult5 : BitVec 32 :=
  let c4_i32 : BitVec 32 := 4#32
  let c512_i32_44 : BitVec 32 := 512#32
  let v154 : BitVec 32 := Scalar.muli c4_i32 c512_i32_44
  v154
def k1_mult6 : BitVec 32 :=
  let c5_i32 : BitVec 32 := 5#32
  let c512_i32_54 : BitVec 32 := 512#32
  let v189 : BitVec 32 := Scalar.muli c5_i32 c512_i32_54
  v189
def k1_mult7 : BitVec 32 :=
  let c6_i32 : BitVec 32 := 6#32
  let c512_i32_64 : BitVec 32 := 512#32
  let v224 : BitVec 32 := Scalar.muli c6_i32 c512_i32_64
  v224
def k1_mult8 : BitVec 32 :=
  let c7_i32 : BitVec 32 := 7#32
  let c512_i32_74 : BitVec 32 := 512#32
  let v259 : BitVec 32 := Scalar.muli c7_i32 c512_i32_74
  v259
def k1_mult9 : BitVec 32 :=
  let c8_i32 : BitVec 32 := 8#32
  let c512_i32_84 : BitVec 32 := 512#32
  let v294 : BitVec 32 := Scalar.muli c8_i32 c512_i32_84
  v294
def k1_mult10 : BitVec 32 :=
  let c9_i32 : BitVec 32 := 9#32
  let c512_i32_94 : BitVec 32 := 512#32
  let v329 : BitVec 32 := Scalar.muli c9_i32 c512_i32_94
  v329
def k1_mult11 : BitVec 32 :=
  let c10_i32 : BitVec 32 := 10#32
  let c512_i32_104 : BitVec 32 := 512#32
  let v364 : BitVec 32 := Scalar.muli c10_i32 c512_i32_104
  v364
def k1_mult12 : BitVec 32 :=
  let c11_i32 : BitVec 32 := 11#32
  let c512_i32_114 : BitVec 32 := 512#32
  let v399 : BitVec 32 := Scalar.muli c11_i32 c512_i32_114
  v399
def k1_mult13 : BitVec 32 :=
  let c12_i32 : BitVec 32 := 12#32
  let c512_i32_124 : BitVec 32 := 512#32
  let v434 : BitVec 32 := Scalar.muli c12_i32 c512_i32_124
  v434
def k1_mult14 : BitVec 32 :=
  let c13_i32 : BitVec 32 := 13#32
  let c512_i32_134 : BitVec 32 := 512#32
  let v469 : BitVec 32 := Scalar.muli c13_i32 c512_i32_134
  v469
def k1_mult15 : BitVec 32 :=
  let c14_i32 : BitVec 32 := 14#32
  let c512_i32_144 : BitVec 32 := 512#32
  let v504 : BitVec 32 := Scalar.muli c14_i32 c512_i32_144
  v504
def k1_mult16 : BitVec 32 :=
  let c15_i32 : BitVec 32 := 15#32
  let c512_i32_154 : BitVec 32 := 512#32
  let v539 : BitVec 32 := Scalar.muli c15_i32 c512_i32_154
  v539
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  iota_S512x512_d0_w32 : S512x512.Iotas .tc 32 [0]
  transposes_S512x512_p1_0_S512x512 : S512x512.Transposes [1, 0] S512x512
  transposes_S512x1_p1_0_S1x512 : S512x1.Transposes [1, 0] S1x512
  broadcasts_S512x1_S512x512 : S512x1.Broadcasts S512x512
  broadcasts_S1x512_S512x512 : S1x512.Broadcasts S512x512
  iota_S512x512_d1_w32 : S512x512.Iotas .tc 32 [1]
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  reduces_S1024x1_S1 : S1024x1.Reduces [0] S1
  dot_S512x512_S512x512_S512x512_1_0_0_1_n_n_wf : DotDims.WF S512x512 S512x512 S512x512 [1] [0] [0] [1] [] []
  hrank0 : 0 < grid0.rank
  k0_mult1_dvd : 512 ∣ k0_mult1.toNat
  k0_off1_inb : ∀ (r : Fin 16), ∀ a, (k0_off1 (BitVec.ofNat 32 r.val)) a + S512x512.size a ≤ S8192x512.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  k0_mult10_dvd : 512 ∣ k0_mult10.toNat
  k0_mult11_dvd : 512 ∣ k0_mult11.toNat
  k0_mult12_dvd : 512 ∣ k0_mult12.toNat
  k0_mult13_dvd : 512 ∣ k0_mult13.toNat
  k0_mult14_dvd : 512 ∣ k0_mult14.toNat
  k0_mult15_dvd : 512 ∣ k0_mult15.toNat
  k0_mult16_dvd : 512 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_mult1_dvd : 512 ∣ k1_mult1.toNat
  k1_off1_inb : ∀ (r : Fin 16), ∀ a, (k1_off1 (BitVec.ofNat 32 r.val)) a + S512x512.size a ≤ S8192x512.size a
  k1_mult2_dvd : 512 ∣ k1_mult2.toNat
  k1_mult3_dvd : 512 ∣ k1_mult3.toNat
  k1_mult4_dvd : 512 ∣ k1_mult4.toNat
  k1_mult5_dvd : 512 ∣ k1_mult5.toNat
  k1_mult6_dvd : 512 ∣ k1_mult6.toNat
  k1_mult7_dvd : 512 ∣ k1_mult7.toNat
  k1_mult8_dvd : 512 ∣ k1_mult8.toNat
  k1_mult9_dvd : 512 ∣ k1_mult9.toNat
  k1_mult10_dvd : 512 ∣ k1_mult10.toNat
  k1_mult11_dvd : 512 ∣ k1_mult11.toNat
  k1_mult12_dvd : 512 ∣ k1_mult12.toNat
  k1_mult13_dvd : 512 ∣ k1_mult13.toNat
  k1_mult14_dvd : 512 ∣ k1_mult14.toNat
  k1_mult15_dvd : 512 ∣ k1_mult15.toNat
  k1_mult16_dvd : 512 ∣ k1_mult16.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .bf16 = 32 ∨ (Rect.block (s := S8192x512) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .f32 = 32 ∨ (Rect.block (s := S8192x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S512x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .i1⟩
  | .hbm, ⟨29, _⟩ => ⟨S8192x8192, .i1⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .i1⟩
  | .hbm, ⟨37, _⟩ => ⟨S8192x8192, .i1⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x512, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S1x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S512x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .i1⟩
  | .hbm, ⟨75, _⟩ => ⟨S8192x8192, .i1⟩
  | .hbm, ⟨76, _⟩ => ⟨S8192x8192, .i32⟩
  | .hbm, ⟨77, _⟩ => ⟨S_, .i32⟩
  | .hbm, ⟨78, _⟩ => ⟨S8192x8192, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S_, .i1⟩
  | .hbm, ⟨83, _⟩ => ⟨S8192x8192, .i1⟩
  | .hbm, ⟨84, _⟩ => ⟨S8192x8192, .i1⟩
  | .hbm, ⟨85, _⟩ => ⟨S_, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S_, .f32⟩
  | .hbm, ⟨91, _⟩ => ⟨S8192x8192, .f32⟩
  | .hbm, ⟨92, _⟩ => ⟨S8192x8192, .f32⟩
  | .hbm, ⟨93, _⟩ => ⟨S8192x8192, .f32⟩
  | .hbm, ⟨94, _⟩ => ⟨S_, .f32⟩
  | .hbm, ⟨95, _⟩ => ⟨S_, .f32⟩
  | .hbm, ⟨96, _⟩ => ⟨S8192x8192, .f32⟩
  | .hbm, ⟨97, _⟩ => ⟨S8192x8192, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_0 : Ref sig .tc := ⟨.hbm, 36, rfl⟩
abbrev main_call1_v5 : Ref sig .tc := ⟨.hbm, 37, rfl⟩
abbrev main_v19 : Ref sig .tc := ⟨.hbm, 38, rfl⟩
abbrev main_cst_4 : Ref sig .tc := ⟨.hbm, 39, rfl⟩
abbrev main_call2_v0 : Ref sig .tc := ⟨.hbm, 40, rfl⟩
abbrev main_call2_v1 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_6 : Ref sig .tc := ⟨.hbm, 48, rfl⟩
abbrev main_call3_v0 : Ref sig .tc := ⟨.hbm, 49, rfl⟩
abbrev main_call3_v1 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_9 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_10 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_11 : Ref sig .tc := ⟨.hbm, 71, rfl⟩
abbrev main_v41 : Ref sig .tc := ⟨.hbm, 72, rfl⟩
abbrev main_v42 : Ref sig .tc := ⟨.hbm, 73, rfl⟩
abbrev main_c_12 : Ref sig .tc := ⟨.hbm, 74, rfl⟩
abbrev main_v43 : Ref sig .tc := ⟨.hbm, 75, rfl⟩
abbrev main_call4_v0 : Ref sig .tc := ⟨.hbm, 76, rfl⟩
abbrev main_call4_c : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_call4_c_0 : Ref sig .tc := ⟨.hbm, 82, rfl⟩
abbrev main_call4_v5 : Ref sig .tc := ⟨.hbm, 83, rfl⟩
abbrev main_v44 : Ref sig .tc := ⟨.hbm, 84, rfl⟩
abbrev main_cst_13 : Ref sig .tc := ⟨.hbm, 85, rfl⟩
abbrev main_call5_v0 : Ref sig .tc := ⟨.hbm, 86, rfl⟩
abbrev main_call5_v1 : Ref sig .tc := ⟨.hbm, 87, rfl⟩
abbrev main_v45 : Ref sig .tc := ⟨.hbm, 88, rfl⟩
abbrev main_v46 : Ref sig .tc := ⟨.hbm, 89, rfl⟩
abbrev main_cst_14 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_15 : Ref sig .tc := ⟨.hbm, 94, rfl⟩
abbrev main_call6_v0 : Ref sig .tc := ⟨.hbm, 95, rfl⟩
abbrev main_call6_v1 : Ref sig .tc := ⟨.hbm, 96, rfl⟩
abbrev main_v50 : Ref sig .tc := ⟨.hbm, 97, rfl⟩
abbrev main_cst_16 : Ref sig .tc := ⟨.hbm, 98, rfl⟩
abbrev main_v51 : Ref sig .tc := ⟨.hbm, 99, rfl⟩
abbrev main_cst_17 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_18 : Ref sig .tc := ⟨.hbm, 104, rfl⟩
abbrev main_v55 : Ref sig .tc := ⟨.hbm, 105, rfl⟩
abbrev main_v56 : Ref sig .tc := ⟨.hbm, 106, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  reducesTo_S8192_S_d0 : S8192.ReducesTo [0] S_
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.R0DefsK.lean ====
import proofs.«107562_j37151467110996_1_alg».proof.Proof.Gen.Kernel.Launch
import proofs.«107562_j37151467110996_1_alg».proof.Proof.Gen.Kernel.Skeleton
import proofs.«107562_j37151467110996_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: the uniformity kernel over row tiles of 512 rows. What every later module of the region is stated over:
the body's one conditional in closed form, the windows' blocks read off the arrays as the region finds them, and that
each input window's staging buffer holds its block at every grid point. -/

section
variable (V : (c : Dev nD) → (b : Ref sig .tc) → Buf (Elt F) ((c : Thread nD τ).loc b))

/-- The body's one conditional: the grid coordinate is zero (the first row tile), where the output is zeroed. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 16 = 0 :=
  (by decide +kernel : ∀ t : Fin grid0.N, cond0 (grid0.coords t) ↔ t.val % 16 = 0)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The whole array's staging buffer holds the array at every point, though it is fetched at the first only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-- One staging buffer of the output window, through which its contents are stated. -/
abbrev VO0_2 : View sig .tc .vmem S1x1 .f32 := (Memref.whole cc0_stg2_0 : Memref sig .tc .vmem S1x1 .f32).view
/-- Each window's current staging memref at point `t`, as the pipeline passes it, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.Kernel.Hand

end
-- ==== Proof.R0RunAK.lean ====
import proofs.«107562_j37151467110996_1_alg».proof.Proof.R0DefsK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The uniformity body at the first row tile: the output is zeroed, then the tile's sum added to it. The pieces the output's
    staging buffer ends with are found by running the body. -/
noncomputable def kernelRun0_A (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond0 i)
    (x0 : Vec F S512x512 .bf16) (x1 : Vec F S8192x512 .bf16) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__uniformity_kernel i arg1 harg1 arg2 harg2 arg3 harg3) K } := by
  refine ⟨?_, fun E K => ?run⟩
  case run =>
    simp only [cc0__uniformity_kernel_eq_skeleton]; unfold cc0__uniformity_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.R0RunBK.lean ====
import proofs.«107562_j37151467110996_1_alg».proof.Proof.R0DefsK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The uniformity body at a later row tile: the output's running sum is read back and the tile's sum added to it. The pieces the output's
    staging buffer ends with are found by running the body. -/
noncomputable def kernelRun0_B (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond0 i)
    (x0 : Vec F S512x512 .bf16) (x1 : Vec F S8192x512 .bf16) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__uniformity_kernel i arg1 harg1 arg2 harg2 arg3 harg3) K } := by
  refine ⟨?_, fun E K => ?run⟩
  case run =>
    simp only [cc0__uniformity_kernel_eq_skeleton]; unfold cc0__uniformity_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.R0DatK.lean ====
import proofs.«107562_j37151467110996_1_alg».proof.Proof.R0RunAK
import proofs.«107562_j37151467110996_1_alg».proof.Proof.R0RunBK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: what the output's staging buffer holds after each grid point (the running sum, reset at the first point and added
to at every later one), the region's proof data at a parameter V (the buffers' contents when the region is entered), and
the body obligation at every point. -/

/-- The first point's pieces cover the one-element output block. -/
theorem cover0_A_2 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond0 i)
    (x0 : Vec F S512x512 .bf16) (x1 : Vec F S8192x512 .bf16) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the output's staging buffer. -/
def out0_A_2 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond0 i)
    (x0 : Vec F S512x512 .bf16) (x1 : Vec F S8192x512 .bf16) : Vec F S1x1 .f32 :=
  VO0_2.read (Elt F) (VO0_2.writes (Elt F) VO0_2.junk (kernelRun0_A c i arg1 harg1 arg2 harg2 arg3 harg3 hc0 x0 x1).1)

/-- A later point's pieces cover the one-element output block. -/
theorem cover0_B_2 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond0 i)
    (x0 : Vec F S512x512 .bf16) (x1 : Vec F S8192x512 .bf16) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves in the output's staging buffer, from what the point before left there. -/
def out0_B_2 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond0 i)
    (x0 : Vec F S512x512 .bf16) (x1 : Vec F S8192x512 .bf16) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

section
variable (V : (c : Dev nD) → (b : Ref sig .tc) → Buf (Elt F) ((c : Thread nD τ).loc b))

/-- The running sum: what the output's staging buffer holds after the body at position n. -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

/-- At the first point: the reset case. -/
theorem outsAt0_A (c : Dev nD) (t : Fin cfg0.N) (h0 : t.val % 16 = 0) :
    outsAt0 V c t.val t.isLt = out0_A_2 c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

/-- At a later point: the accumulating case, over what the point before left. -/
theorem outsAt0_B (c : Dev nD) (t : Fin cfg0.N) (h0 : ¬t.val % 16 = 0) :
    outsAt0 V c t.val t.isLt = out0_B_2 c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body each input's buffer at its block and
    the output's at the running sum; the invariant the scoped rest and the generator register, untouched; nothing owed; the one array behind the two input windows held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point the output's staging buffer still holds what the point before left: it is written back at the last point only. -/
theorem before0_2_B (c : Dev nD) (t : Fin cfg0.N) (h0 : ¬t.val % 16 = 0) (d) :
    (dat0 V c).before 2 t d = outsAt0 V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the inputs' buffers hold their blocks; the closed form says which case the point is in; at a later
    point the output's buffer holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 16 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.R1DefsK.lean ====
import proofs.«107562_j37151467110996_1_alg».proof.Proof.Gen.Kernel.Launch
import proofs.«107562_j37151467110996_1_alg».proof.Proof.Gen.Kernel.Skeleton
import proofs.«107562_j37151467110996_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: the uniformity kernel over row tiles of 512 rows. What every later module of the region is stated over:
the body's one conditional in closed form, the windows' blocks read off the arrays as the region finds them, and that
each input window's staging buffer holds its block at every grid point. -/

section
variable (V : (c : Dev nD) → (b : Ref sig .tc) → Buf (Elt F) ((c : Thread nD τ).loc b))

/-- The body's one conditional: the grid coordinate is zero (the first row tile), where the output is zeroed. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val % 16 = 0 :=
  (by decide +kernel : ∀ t : Fin grid1.N, cond1 (grid1.coords t) ↔ t.val % 16 = 0)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The whole array's staging buffer holds the array at every point, though it is fetched at the first only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-- One staging buffer of the output window, through which its contents are stated. -/
abbrev VO1_2 : View sig .tc .vmem S1x1 .f32 := (Memref.whole cc1_stg2_0 : Memref sig .tc .vmem S1x1 .f32).view
/-- Each window's current staging memref at point `t`, as the pipeline passes it, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

end Cert.Kernel.Hand

end
-- ==== Proof.R1RunAK.lean ====
import proofs.«107562_j37151467110996_1_alg».proof.Proof.R1DefsK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The uniformity body at the first row tile: the output is zeroed, then the tile's sum added to it. The pieces the output's
    staging buffer ends with are found by running the body. -/
noncomputable def kernelRun1_A (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond1 i)
    (x0 : Vec F S512x512 .bf16) (x1 : Vec F S8192x512 .bf16) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__uniformity_kernel i arg1 harg1 arg2 harg2 arg3 harg3) K } := by
  refine ⟨?_, fun E K => ?run⟩
  case run =>
    simp only [cc1__uniformity_kernel_eq_skeleton]; unfold cc1__uniformity_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.R1RunBK.lean ====
import proofs.«107562_j37151467110996_1_alg».proof.Proof.R1DefsK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The uniformity body at a later row tile: the output's running sum is read back and the tile's sum added to it. The pieces the output's
    staging buffer ends with are found by running the body. -/
noncomputable def kernelRun1_B (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond1 i)
    (x0 : Vec F S512x512 .bf16) (x1 : Vec F S8192x512 .bf16) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__uniformity_kernel i arg1 harg1 arg2 harg2 arg3 harg3) K } := by
  refine ⟨?_, fun E K => ?run⟩
  case run =>
    simp only [cc1__uniformity_kernel_eq_skeleton]; unfold cc1__uniformity_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.R1DatK.lean ====
import proofs.«107562_j37151467110996_1_alg».proof.Proof.R1RunAK
import proofs.«107562_j37151467110996_1_alg».proof.Proof.R1RunBK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: what the output's staging buffer holds after each grid point (the running sum, reset at the first point and added
to at every later one), the region's proof data at a parameter V (the buffers' contents when the region is entered), and
the body obligation at every point. -/

/-- The first point's pieces cover the one-element output block. -/
theorem cover1_A_2 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond1 i)
    (x0 : Vec F S512x512 .bf16) (x1 : Vec F S8192x512 .bf16) (y : S1x1.Idx) :
    ∃ pc ∈ (kernelRun1_A c i arg1 harg1 arg2 harg2 arg3 harg3 hc0 x0 x1).1, y ∈ pc.1.set :=
  View.cover_of_tiledL (kernelRun1_A c i arg1 harg1 arg2 harg2 arg3 harg3 hc0 x0 x1).1 S1x1.size (by sl_kernel_rfl) y

/-- What the first point leaves in the output's staging buffer. -/
def out1_A_2 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond1 i)
    (x0 : Vec F S512x512 .bf16) (x1 : Vec F S8192x512 .bf16) : Vec F S1x1 .f32 :=
  VO1_2.read (Elt F) (VO1_2.writes (Elt F) VO1_2.junk (kernelRun1_A c i arg1 harg1 arg2 harg2 arg3 harg3 hc0 x0 x1).1)

/-- A later point's pieces cover the one-element output block. -/
theorem cover1_B_2 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond1 i)
    (x0 : Vec F S512x512 .bf16) (x1 : Vec F S8192x512 .bf16) (xo2 : Vec F S1x1 .f32) (y : S1x1.Idx) :
    ∃ pc ∈ (kernelRun1_B c i arg1 harg1 arg2 harg2 arg3 harg3 hc0 x0 x1 xo2).1, y ∈ pc.1.set :=
  View.cover_of_tiledL (kernelRun1_B c i arg1 harg1 arg2 harg2 arg3 harg3 hc0 x0 x1 xo2).1 S1x1.size (by sl_kernel_rfl) y

/-- What a later point leaves in the output's staging buffer, from what the point before left there. -/
def out1_B_2 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond1 i)
    (x0 : Vec F S512x512 .bf16) (x1 : Vec F S8192x512 .bf16) (xo2 : Vec F S1x1 .f32) : Vec F S1x1 .f32 :=
  VO1_2.read (Elt F) (VO1_2.writes (Elt F) VO1_2.junk (kernelRun1_B c i arg1 harg1 arg2 harg2 arg3 harg3 hc0 x0 x1 xo2).1)

section
variable (V : (c : Dev nD) → (b : Ref sig .tc) → Buf (Elt F) ((c : Thread nD τ).loc b))

/-- The running sum: what the output's staging buffer holds after the body at position n. -/
def outsAt1 (c : Dev nD) : (n : ℕ) → n < cfg1.N → Vec F S1x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩) (iblk1 V c 1 ⟨0, hn⟩)
  | n + 1, hn =>
    if h0 : (n + 1) % 16 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn))

/-- At the first point: the reset case. -/
theorem outsAt1_A (c : Dev nD) (t : Fin cfg1.N) (h0 : t.val % 16 = 0) :
    outsAt1 V c t.val t.isLt = out1_A_2 c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

/-- At a later point: the accumulating case, over what the point before left. -/
theorem outsAt1_B (c : Dev nD) (t : Fin cfg1.N) (h0 : ¬t.val % 16 = 0) :
    outsAt1 V c t.val t.isLt = out1_B_2 c (grid1.coords t) (ms1_0 t) (hs1_0 t) (ms1_1 t) (hs1_1 t) (ms1_2 t) (hs1_2 t) (fun h => h0 ((hcond1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body each input's buffer at its block and
    the output's at the running sum; the invariant the scoped rest and the generator register, untouched; nothing owed; the one array behind the two input windows held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later point the output's staging buffer still holds what the point before left: it is written back at the last point only. -/
theorem before1_2_B (c : Dev nD) (t : Fin cfg1.N) (h0 : ¬t.val % 16 = 0) (d) :
    (dat1 V c).before 2 t d = outsAt1 V c (t.val - 1) (Nat.lt_of_le_of_lt (Nat.sub_le _ _) t.isLt) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' buffers hold their blocks; the closed form says which case the point is in; at a later
    point the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 16 := lt_of_lt_of_eq t.isLt (show cfg1.N = 16 from N_1)
  by_cases h0 : t.val % 16 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.R2DefsK.lean ====
import proofs.«107562_j37151467110996_1_alg».proof.Proof.Gen.Kernel.Launch
import proofs.«107562_j37151467110996_1_alg».proof.Proof.Gen.Kernel.Skeleton
import proofs.«107562_j37151467110996_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2: the alignment kernel over row tiles of 1024 rows of both arrays. The body's one conditional in closed form,
the windows' blocks read off the arrays as the region finds them, and that each input window's staging buffer holds its
block at every grid point. -/

section
variable (V : (c : Dev nD) → (b : Ref sig .tc) → Buf (Elt F) ((c : Thread nD τ).loc b))

/-- The body's one conditional: the grid coordinate is zero (the first row tile), where the output is zeroed. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val % 8 = 0 :=
  (by decide +kernel : ∀ t : Fin grid2.N, cond2 (grid2.coords t) ↔ t.val % 8 = 0)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first array's row tile is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The second array's row tile is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-- One staging buffer of the output window, through which its contents are stated. -/
abbrev VO2_2 : View sig .tc .vmem S1x1 .f32 := (Memref.whole cc2_stg2_0 : Memref sig .tc .vmem S1x1 .f32).view
/-- Each window's current staging memref at point `t`, as the pipeline passes it, and its wholeness. -/
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

end Cert.Kernel.Hand

end
-- ==== Proof.R2RunAK.lean ====
import proofs.«107562_j37151467110996_1_alg».proof.Proof.R2DefsK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The alignment body at the first row tile: the output is zeroed, then the tile's sum of row distances added to it. The pieces the
    output's staging buffer ends with are found by running the body. -/
noncomputable def kernelRun2_A (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond2 i)
    (x0 : Vec F S1024x512 .f32) (x1 : Vec F S1024x512 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__alignment_kernel i arg1 harg1 arg2 harg2 arg3 harg3) K } := by
  refine ⟨?_, fun E K => ?run⟩
  case run =>
    simp only [cc2__alignment_kernel_eq_skeleton]; unfold cc2__alignment_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.R2RunBK.lean ====
import proofs.«107562_j37151467110996_1_alg».proof.Proof.R2DefsK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The alignment body at a later row tile: the output's running sum is read back and the tile's sum of row distances added to it. The pieces the
    output's staging buffer ends with are found by running the body. -/
noncomputable def kernelRun2_B (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond2 i)
    (x0 : Vec F S1024x512 .f32) (x1 : Vec F S1024x512 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__alignment_kernel i arg1 harg1 arg2 harg2 arg3 harg3) K } := by
  refine ⟨?_, fun E K => ?run⟩
  case run =>
    simp only [cc2__alignment_kernel_eq_skeleton]; unfold cc2__alignment_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.R2DatK.lean ====
import proofs.«107562_j37151467110996_1_alg».proof.Proof.R2RunAK
import proofs.«107562_j37151467110996_1_alg».proof.Proof.R2RunBK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2: what the output's staging buffer holds after each grid point (the running sum, reset at the first point and added
to at every later one), the region's proof data at a parameter V (the buffers' contents when the region is entered), and
the body obligation at every point. -/

/-- The first point's pieces cover the one-element output block. -/
theorem cover2_A_2 (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond2 i)
    (x0 : Vec F S1024x512 .f32) (x1 : Vec F S1024x512 .f32) (y : S1x1.Idx) :
    ∃ pc ∈ (kernelRun2_A c i arg1 harg1 arg2 harg2 arg3 harg3 hc0 x0 x1).1, y ∈ pc.1.set :=
  View.cover_of_tiledL (kernelRun2_A c i arg1 harg1 arg2 harg2 arg3 harg3 hc0 x0 x1).1 S1x1.size (by sl_kernel_rfl) y

/-- What the first point leaves in the output's staging buffer. -/
def out2_A_2 (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond2 i)
    (x0 : Vec F S1024x512 .f32) (x1 : Vec F S1024x512 .f32) : Vec F S1x1 .f32 :=
  VO2_2.read (Elt F) (VO2_2.writes (Elt F) VO2_2.junk (kernelRun2_A c i arg1 harg1 arg2 harg2 arg3 harg3 hc0 x0 x1).1)

/-- A later point's pieces cover the one-element output block. -/
theorem cover2_B_2 (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond2 i)
    (x0 : Vec F S1024x512 .f32) (x1 : Vec F S1024x512 .f32) (xo2 : Vec F S1x1 .f32) (y : S1x1.Idx) :
    ∃ pc ∈ (kernelRun2_B c i arg1 harg1 arg2 harg2 arg3 harg3 hc0 x0 x1 xo2).1, y ∈ pc.1.set :=
  View.cover_of_tiledL (kernelRun2_B c i arg1 harg1 arg2 harg2 arg3 harg3 hc0 x0 x1 xo2).1 S1x1.size (by sl_kernel_rfl) y

/-- What a later point leaves in the output's staging buffer, from what the point before left there. -/
def out2_B_2 (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond2 i)
    (x0 : Vec F S1024x512 .f32) (x1 : Vec F S1024x512 .f32) (xo2 : Vec F S1x1 .f32) : Vec F S1x1 .f32 :=
  VO2_2.read (Elt F) (VO2_2.writes (Elt F) VO2_2.junk (kernelRun2_B c i arg1 harg1 arg2 harg2 arg3 harg3 hc0 x0 x1 xo2).1)

section
variable (V : (c : Dev nD) → (b : Ref sig .tc) → Buf (Elt F) ((c : Thread nD τ).loc b))

/-- The running sum: what the output's staging buffer holds after the body at position n. -/
def outsAt2 (c : Dev nD) : (n : ℕ) → n < cfg2.N → Vec F S1x1 .f32
  | 0, hn => out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2 ⟨0, hn⟩).mpr (Nat.zero_mod _)) (iblk2 V c 0 ⟨0, hn⟩) (iblk2 V c 1 ⟨0, hn⟩)
  | n + 1, hn =>
    if h0 : (n + 1) % 8 = 0 then
      out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2 ⟨n + 1, hn⟩).mpr h0) (iblk2 V c 0 ⟨n + 1, hn⟩) (iblk2 V c 1 ⟨n + 1, hn⟩)
    else
      out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2 ⟨n + 1, hn⟩).mp h)) (iblk2 V c 0 ⟨n + 1, hn⟩) (iblk2 V c 1 ⟨n + 1, hn⟩) (outsAt2 c n (Nat.lt_of_succ_lt hn))

/-- At the first point: the reset case. -/
theorem outsAt2_A (c : Dev nD) (t : Fin cfg2.N) (h0 : t.val % 8 = 0) :
    outsAt2 V c t.val t.isLt = out2_A_2 c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

/-- At a later point: the accumulating case, over what the point before left. -/
theorem outsAt2_B (c : Dev nD) (t : Fin cfg2.N) (h0 : ¬t.val % 8 = 0) :
    outsAt2 V c t.val t.isLt = out2_B_2 c (grid2.coords t) (ms2_0 t) (hs2_0 t) (ms2_1 t) (hs2_1 t) (ms2_2 t) (hs2_2 t) (fun h => h0 ((hcond2 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body each input's buffer at its block and
    the output's at the running sum; the invariant the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a later point the output's staging buffer still holds what the point before left: it is written back at the last point only. -/
theorem before2_2_B (c : Dev nD) (t : Fin cfg2.N) (h0 : ¬t.val % 8 = 0) (d) :
    (dat2 V c).before 2 t d = outsAt2 V c (t.val - 1) (Nat.lt_of_le_of_lt (Nat.sub_le _ _) t.isLt) := by
  have hN : t.val < 8 := lt_of_lt_of_eq t.isLt (show cfg2.N = 8 from N_2)
  rw [Dat.before_out_kept _ 2 rfl t (by omega) (Bool.eq_false_iff.mpr fun h => by have := (flush2_2 _).mp h; dsimp only at this; omega)
    (fun _ => rfl) (fun _ _ => rfl)]
  dsimp only [dat2]

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 1600000 in
/-- The body at any point: the inputs' buffers hold their blocks; the closed form says which case the point is in; at a later
    point the output's buffer holds what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 8 := lt_of_lt_of_eq t.isLt (show cfg2.N = 8 from N_2)
  by_cases h0 : t.val % 8 = 0
  · rw [outsAt2_A V c t h0]
    unfold out2_A_2
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A_2 c _ _ _ _ _ _ _ _ _ _)
  · rw [outsAt2_B V c t h0]
    simp only [before2_2_B V c t h0]
    unfold out2_B_2
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.RegionsK.lean ====
import proofs.«107562_j37151467110996_1_alg».proof.Proof.R0DatK
import proofs.«107562_j37151467110996_1_alg».proof.Proof.R1DatK
import proofs.«107562_j37151467110996_1_alg».proof.Proof.R2DatK
import proofs.«107562_j37151467110996_1_alg».proof.Proof.Gen.Kernel.Regions
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! The whole program: four stretches of host operations around three kernel regions. The buffers' contents at every boundary, the
regions' proof data each at its region's entry contents, each region as a segment entered from "every unscoped buffer at the
boundary's contents" and left at the next boundary's, and the run: every weakly fair execution terminates, nothing faults, and every
unscoped buffer ends at the last boundary's contents. -/

theorem img0 : Finset.univ.image (Pipeline.arrRef spec0) = ({main_v0, main_v2} : Finset (Ref sig .tc)) := by decide
theorem share0_0 (V : (c : Dev nD) → (b : Ref sig .tc) → Buf (Elt F) ((c : Thread nD τ).loc b)) (c : Dev nD) : (dat0 V c).share 0 = fullShare.left := rfl
theorem share0_1 (V : (c : Dev nD) → (b : Ref sig .tc) → Buf (Elt F) ((c : Thread nD τ).loc b)) (c : Dev nD) : (dat0 V c).share 1 = fullShare.right := rfl
theorem share0_2 (V : (c : Dev nD) → (b : Ref sig .tc) → Buf (Elt F) ((c : Thread nD τ).loc b)) (c : Dev nD) : (dat0 V c).share 2 = fullShare := rfl

/-- ENTRY of region 0, the arrays' part: the two distinct buffers behind its three windows, each whole at the full share, make
    the windows' arrays, the array the two input windows share split in two halves. -/
theorem arrays_of_arrBufs0 (V : (c : Dev nD) → (b : Ref sig .tc) → Buf (Elt F) ((c : Thread nD τ).loc b)) (c : Dev nD)
    (F0 : (w : Fin cfg0.W) → Buf (Elt F) ((cfg0.win w).arr.view.loc (c : Thread nD τ)))
    (hF : ∀ w, F0 w = V c (Pipeline.arrRef spec0 w)) :
    (Pipeline.arrBufs (Ix := Unit) (Name := ℕ) (U := UR sig nD τ) (Lvl := ℕ) spec0 c (V c) : sProp 𝕄) ⊢ (dat0 V c).arrays F0 := by
  unfold Pipeline.arrBufs Dat.arrays
  rw [img0, bigSep_W0, BI.bigSep_insert (by decide : main_v0 ∉ ({main_v2} : Finset (Ref sig .tc))), BI.bigSep_singleton,
    (arr_whole0 0).set_eq_univ, (arr_whole0 2).set_eq_univ, share0_0, share0_1, share0_2, hF 0, hF 1, hF 2]
  show (iprop((((c : Thread nD τ).loc main_v0) ↦{fullShare} V c main_v0) ∗ (((c : Thread nD τ).loc main_v2) ↦{fullShare} V c main_v2)) : sProp 𝕄) ⊢ _
  iintro ⟨H0, H2⟩
  ihave H := (pointsTo_share (PosShare.mem_left_op_right fullShare)).1 $$ H0
  icases H with ⟨Ha, Hb⟩
  isplitl [Ha]; · iexact Ha
  isplitl [Hb]; · iexact Hb
  iexact H2

/-- EXIT of region 0, the arrays' part: the two halves hold the same contents and join again. -/
theorem arrBufs_of_arrays0 (V : (c : Dev nD) → (b : Ref sig .tc) → Buf (Elt F) ((c : Thread nD τ).loc b)) (c : Dev nD)
    (F0 : (w : Fin cfg0.W) → Buf (Elt F) ((cfg0.win w).arr.view.loc (c : Thread nD τ)))
    (V' : (b : Ref sig .tc) → Buf (Elt F) ((c : Thread nD τ).loc b))
    (hF : ∀ w, F0 w = V' (Pipeline.arrRef spec0 w)) :
    (dat0 V c).arrays F0 ⊢ (Pipeline.arrBufs (Ix := Unit) (Name := ℕ) (U := UR sig nD τ) (Lvl := ℕ) spec0 c V' : sProp 𝕄) := by
  unfold Pipeline.arrBufs Dat.arrays
  rw [img0, bigSep_W0, BI.bigSep_insert (by decide : main_v0 ∉ ({main_v2} : Finset (Ref sig .tc))), BI.bigSep_singleton,
    (arr_whole0 0).set_eq_univ, (arr_whole0 2).set_eq_univ, share0_0, share0_1, share0_2, hF 0, hF 1, hF 2]
  show _ ⊢ (iprop((((c : Thread nD τ).loc main_v0) ↦{fullShare} V' main_v0) ∗ (((c : Thread nD τ).loc main_v2) ↦{fullShare} V' main_v2)) : sProp 𝕄)
  iintro ⟨Ha, Hb, H2⟩
  isplitl [Ha Hb]
  · iapply (pointsTo_share (PosShare.mem_left_op_right fullShare)).2
    isplitl [Ha]; · iexact Ha
    iexact Hb
  iexact H2

theorem img1 : Finset.univ.image (Pipeline.arrRef spec1) = ({main_v1, main_v4} : Finset (Ref sig .tc)) := by decide
theorem share1_0 (V : (c : Dev nD) → (b : Ref sig .tc) → Buf (Elt F) ((c : Thread nD τ).loc b)) (c : Dev nD) : (dat1 V c).share 0 = fullShare.left := rfl
theorem share1_1 (V : (c : Dev nD) → (b : Ref sig .tc) → Buf (Elt F) ((c : Thread nD τ).loc b)) (c : Dev nD) : (dat1 V c).share 1 = fullShare.right := rfl
theorem share1_2 (V : (c : Dev nD) → (b : Ref sig .tc) → Buf (Elt F) ((c : Thread nD τ).loc b)) (c : Dev nD) : (dat1 V c).share 2 = fullShare := rfl

/-- ENTRY of region 1, the arrays' part: the two distinct buffers behind its three windows, each whole at the full share, make
    the windows' arrays, the array the two input windows share split in two halves. -/
theorem arrays_of_arrBufs1 (V : (c : Dev nD) → (b : Ref sig .tc) → Buf (Elt F) ((c : Thread nD τ).loc b)) (c : Dev nD)
    (F0 : (w : Fin cfg1.W) → Buf (Elt F) ((cfg1.win w).arr.view.loc (c : Thread nD τ)))
    (hF : ∀ w, F0 w = V c (Pipeline.arrRef spec1 w)) :
    (Pipeline.arrBufs (Ix := Unit) (Name := ℕ) (U := UR sig nD τ) (Lvl := ℕ) spec1 c (V c) : sProp 𝕄) ⊢ (dat1 V c).arrays F0 := by
  unfold Pipeline.arrBufs Dat.arrays
  rw [img1, bigSep_W1, BI.bigSep_insert (by decide : main_v1 ∉ ({main_v4} : Finset (Ref sig .tc))), BI.bigSep_singleton,
    (arr_whole1 0).set_eq_univ, (arr_whole1 2).set_eq_univ, share1_0, share1_1, share1_2, hF 0, hF 1, hF 2]
  show (iprop((((c : Thread nD τ).loc main_v1) ↦{fullShare} V c main_v1) ∗ (((c : Thread nD τ).loc main_v4) ↦{fullShare} V c main_v4)) : sProp 𝕄) ⊢ _
  iintro ⟨H0, H2⟩
  ihave H := (pointsTo_share (PosShare.mem_left_op_right fullShare)).1 $$ H0
  icases H with ⟨Ha, Hb⟩
  isplitl [Ha]; · iexact Ha
  isplitl [Hb]; · iexact Hb
  iexact H2

/-- EXIT of region 1, the arrays' part: the two halves hold the same contents and join again. -/
theorem arrBufs_of_arrays1 (V : (c : Dev nD) → (b : Ref sig .tc) → Buf (Elt F) ((c : Thread nD τ).loc b)) (c : Dev nD)
    (F0 : (w : Fin cfg1.W) → Buf (Elt F) ((cfg1.win w).arr.view.loc (c : Thread nD τ)))
    (V' : (b : Ref sig .tc) → Buf (Elt F) ((c : Thread nD τ).loc b))
    (hF : ∀ w, F0 w = V' (Pipeline.arrRef spec1 w)) :
    (dat1 V c).arrays F0 ⊢ (Pipeline.arrBufs (Ix := Unit) (Name := ℕ) (U := UR sig nD τ) (Lvl := ℕ) spec1 c V' : sProp 𝕄) := by
  unfold Pipeline.arrBufs Dat.arrays
  rw [img1, bigSep_W1, BI.bigSep_insert (by decide : main_v1 ∉ ({main_v4} : Finset (Ref sig .tc))), BI.bigSep_singleton,
    (arr_whole1 0).set_eq_univ, (arr_whole1 2).set_eq_univ, share1_0, share1_1, share1_2, hF 0, hF 1, hF 2]
  show _ ⊢ (iprop((((c : Thread nD τ).loc main_v1) ↦{fullShare} V' main_v1) ∗ (((c : Thread nD τ).loc main_v4) ↦{fullShare} V' main_v4)) : sProp 𝕄)
  iintro ⟨Ha, Hb, H2⟩
  isplitl [Ha Hb]
  · iapply (pointsTo_share (PosShare.mem_left_op_right fullShare)).2
    isplitl [Ha]; · iexact Ha
    iexact Hb
  iexact H2

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first stretch (the two format changes): region 0's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its output array at what the pipeline leaves, every other buffer as entered. -/
def W2 (c : Dev nD) : Valuation τ sig (Elt F) :=
  Function.update (W1 m c) (Proc.devRef .tc main_v2) ((dat0 (U1 m) c).arrAt 2 cfg0.N)
abbrev U2 : (c : Dev nD) → (b : Ref sig .tc) → Buf (Elt F) ((c : Thread nD τ).loc b) := fun c b => W2 m c b
/-- After the second stretch: region 1's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Function.update (W3 m c) (Proc.devRef .tc main_v4) ((dat1 (U3 m) c).arrAt 2 cfg1.N)
abbrev U4 : (c : Dev nD) → (b : Ref sig .tc) → Buf (Elt F) ((c : Thread nD τ).loc b) := fun c b => W4 m c b
/-- After the third stretch: region 2's entry. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit. -/
def W6 (c : Dev nD) : Valuation τ sig (Elt F) :=
  Function.update (W5 m c) (Proc.devRef .tc main_v6) ((dat2 (U5 m) c).arrAt 2 cfg2.N)
abbrev U6 : (c : Dev nD) → (b : Ref sig .tc) → Buf (Elt F) ((c : Thread nD τ).loc b) := fun c b => W6 m c b
/-- After the last stretch: the end. -/
abbrev W7 : Dev nD → Valuation τ sig (Elt F) := fun c => StableHlo.after hostOps3 (W6 m c)

theorem W2_out (c : Dev nD) : W2 m c (Proc.devRef .tc main_v2) = (dat0 (U1 m) c).arrAt 2 cfg0.N := by
  unfold W2; exact Function.update_self _ _ _
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) _ _
theorem W4_out (c : Dev nD) : W4 m c (Proc.devRef .tc main_v4) = (dat1 (U3 m) c).arrAt 2 cfg1.N := by
  unfold W4; exact Function.update_self _ _ _
theorem W4_of_ne (c : Dev nD) (b : Ref sig .tc) (hb : b ≠ main_v4) : W4 m c (Proc.devRef .tc b) = W3 m c (Proc.devRef .tc b) := by
  unfold W4; exact Function.update_of_ne (StableHlo.devRef_ne_of_ne hb) _ _
theorem W6_out (c : Dev nD) : W6 m c (Proc.devRef .tc main_v6) = (dat2 (U5 m) c).arrAt 2 cfg2.N := by
  unfold W6; exact Function.update_self _ _ _
theorem W6_of_ne (c : Dev nD) (b : Ref sig .tc) (hb : b ≠ main_v6) : W6 m c (Proc.devRef .tc b) = W5 m c (Proc.devRef .tc b) := by
  unfold W6; exact Function.update_of_ne (StableHlo.devRef_ne_of_ne hb) _ _

/-- At a region's exit each of its arrays holds what the pipeline leaves: an input array its entry contents, the output the folded write-backs. -/
theorem hF0 (c : Dev nD) (w : Fin cfg0.W) : (dat0 (U1 m) c).arrAt w cfg0.N = U2 m c (Pipeline.arrRef spec0 w) := by
  match w with
  | ⟨0, _⟩ => exact ((dat0 (U1 m) c).arrAt_in 0 rfl _).trans ((A_eq0 (U1 m) c 0).trans (W2_of_ne m c main_v0 (by decide)).symm)
  | ⟨1, _⟩ => exact ((dat0 (U1 m) c).arrAt_in 1 rfl _).trans ((A_eq0 (U1 m) c 1).trans (W2_of_ne m c main_v0 (by decide)).symm)
  | ⟨2, _⟩ => exact (W2_out m c).symm
theorem hrest0 (c : Dev nD) : ∀ b, b ∉ Finset.univ.image (Pipeline.arrRef spec0) → U2 m c b = U1 m c b :=
  fun b hb => W2_of_ne m c b fun e => hb (by rw [img0, e]; decide)
theorem hF1 (c : Dev nD) (w : Fin cfg1.W) : (dat1 (U3 m) c).arrAt w cfg1.N = U4 m c (Pipeline.arrRef spec1 w) := by
  match w with
  | ⟨0, _⟩ => exact ((dat1 (U3 m) c).arrAt_in 0 rfl _).trans ((A_eq1 (U3 m) c 0).trans (W4_of_ne m c main_v1 (by decide)).symm)
  | ⟨1, _⟩ => exact ((dat1 (U3 m) c).arrAt_in 1 rfl _).trans ((A_eq1 (U3 m) c 1).trans (W4_of_ne m c main_v1 (by decide)).symm)
  | ⟨2, _⟩ => exact (W4_out m c).symm
theorem hrest1 (c : Dev nD) : ∀ b, b ∉ Finset.univ.image (Pipeline.arrRef spec1) → U4 m c b = U3 m c b :=
  fun b hb => W4_of_ne m c b fun e => hb (by rw [img1, e]; decide)
theorem hF2 (c : Dev nD) (w : Fin cfg2.W) : (dat2 (U5 m) c).arrAt w cfg2.N = U6 m c (Pipeline.arrRef spec2 w) := by
  match w with
  | ⟨0, _⟩ => exact ((dat2 (U5 m) c).arrAt_in 0 rfl _).trans ((A_eq2 (U5 m) c 0).trans (W6_of_ne m c main_arg0 (by decide)).symm)
  | ⟨1, _⟩ => exact ((dat2 (U5 m) c).arrAt_in 1 rfl _).trans ((A_eq2 (U5 m) c 1).trans (W6_of_ne m c main_arg1 (by decide)).symm)
  | ⟨2, _⟩ => exact (W6_out m c).symm
theorem hrest2 (c : Dev nD) : ∀ b, b ∉ Finset.univ.image (Pipeline.arrRef spec2) → U6 m c b = U5 m c b :=
  fun b hb => W6_of_ne m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

set_option backward.isDefEq.respectTransparency.types false in
/-- REGION 0 over the thread state: entered from every unscoped buffer at `W1`, left at `W2`. Its arrays are split out of the
    unscoped buffers — the one array behind the two input windows in two halves — and put back at the exit contents; the generator
    register goes into the invariant and out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit : (unscopedBufs c (U1 m c) : sProp 𝕄)
        ⊢ iprop((pdats m 0 c).arrays ((pdats m 0 c).arrAt · 0) ∗ Pipeline.unscopedRest spec0 c (U1 m c)) := by
      rw [Pipeline.unscopedBufs_split₀ cfgs 0 winFacts₀0.arr_unscoped c (U1 m c)]
      exact sep_mono (arrays_of_arrBufs0 (U1 m) c _ (fun w => A_eq0 (U1 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (U1 m c))
        ⊢ (unscopedBufs c (U2 m c) : sProp 𝕄) := by
      rw [Pipeline.unscopedBufs_split₀ cfgs 0 winFacts₀0.arr_unscoped c (U2 m c)]
      refine sep_mono (arrBufs_of_arrays0 (U1 m) c _ (U2 m c) (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out of the
    unscoped buffers — the one array behind the two input windows in two halves — and put back at the exit contents; the generator
    register goes into the invariant and out; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (unscopedBufs c (U3 m c) : sProp 𝕄)
        ⊢ iprop((pdats m 1 c).arrays ((pdats m 1 c).arrAt · 0) ∗ Pipeline.unscopedRest spec1 c (U3 m c)) := by
      rw [Pipeline.unscopedBufs_split₀ cfgs 1 winFacts₀1.arr_unscoped c (U3 m c)]
      exact sep_mono (arrays_of_arrBufs1 (U3 m) c _ (fun w => A_eq1 (U3 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U3 m c))
        ⊢ (unscopedBufs c (U4 m c) : sProp 𝕄) := by
      rw [Pipeline.unscopedBufs_split₀ cfgs 1 winFacts₀1.arr_unscoped c (U4 m c)]
      refine sep_mono (arrBufs_of_arrays1 (U3 m) c _ (U4 m c) (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`; its three arrays are distinct buffers. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every final
    state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Hand

end
-- ==== Proof.FramesK.lean ====
import proofs.«107562_j37151467110996_1_alg».proof.Proof.RegionsK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The argument arrays end as launched: no host operation writes one and each region leaves its input arrays as entered, so the last
boundary's contents at an argument walk back to the launch memory. With the run, this is the frame. -/

variable (m : (ℓ : Loc nD τ sig) → Buf (Elt F) ℓ) (ρ : Dev nD → PrngReg)

theorem W7_of (c : Dev nD) (b : Ref sig .tc) (h3 : b ∉ hostOps3_W) (h6 : b ≠ main_v6) (h2 : b ∉ hostOps2_W) (h4 : b ≠ main_v4)
    (h1 : b ∉ hostOps1_W) (h2' : b ≠ main_v2) (h0 : b ∉ hostOps0_W) :
    W7 m c (Proc.devRef .tc b) = m ((c : Thread nD τ).loc b) :=
  (StableHlo.after_of_writes_sub hostOps3 _ hostOps3_writes h3).trans <| (W6_of_ne m c b h6).trans <|
  (StableHlo.after_of_writes_sub hostOps2 _ hostOps2_writes h2).trans <| (W4_of_ne m c b h4).trans <|
  (StableHlo.after_of_writes_sub hostOps1 _ hostOps1_writes h1).trans <| (W2_of_ne m c b h2').trans <|
  (StableHlo.after_of_writes_sub hostOps0 _ hostOps0_writes h0).trans rfl

theorem W7_main_arg0 (c : Dev nD) : W7 m c (Proc.devRef .tc main_arg0) = m ((c : Thread nD τ).loc main_arg0) :=
  W7_of m c main_arg0 (by decide) (by decide) (by decide) (by decide) (by decide) (by decide) (by decide)
theorem W7_main_arg1 (c : Dev nD) : W7 m c (Proc.devRef .tc main_arg1) = m ((c : Thread nD τ).loc main_arg1) :=
  W7_of m c main_arg1 (by decide) (by decide) (by decide) (by decide) (by decide) (by decide) (by decide)

/-- THE FRAME: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W7_main_arg0 m c),
    (h c _ (mem_uc main_arg1 (by decide))).trans (W7_main_arg1 m c)⟩) (run_all m ρ)

end Cert.Kernel.Hand

end
-- ==== Proof.R0Defs.lean ====
import proofs.«107562_j37151467110996_1_alg».proof.Proof.Gen.KernelIdeal.Launch
import proofs.«107562_j37151467110996_1_alg».proof.Proof.Gen.KernelIdeal.Skeleton
import proofs.«107562_j37151467110996_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: the uniformity kernel over row tiles of 512 rows. What every later module of the region is stated over:
the body's one conditional in closed form, the windows' blocks read off the arrays as the region finds them, and that
each input window's staging buffer holds its block at every grid point. -/

section
variable (V : (c : Dev nD) → (b : Ref sig .tc) → Buf (Elt F) ((c : Thread nD τ).loc b))

/-- The body's one conditional: the grid coordinate is zero (the first row tile), where the output is zeroed. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 16 = 0 :=
  (by decide +kernel : ∀ t : Fin grid0.N, cond0 (grid0.coords t) ↔ t.val % 16 = 0)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The whole array's staging buffer holds the array at every point, though it is fetched at the first only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-- One staging buffer of the output window, through which its contents are stated. -/
abbrev VO0_2 : View sig .tc .vmem S1x1 .f32 := (Memref.whole cc0_stg2_0 : Memref sig .tc .vmem S1x1 .f32).view
/-- Each window's current staging memref at point `t`, as the pipeline passes it, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.KernelIdeal.Hand

end
-- ==== Proof.R0RunA.lean ====
import proofs.«107562_j37151467110996_1_alg».proof.Proof.R0Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The uniformity body at the first row tile: the output is zeroed, then the tile's sum added to it. The pieces the output's
    staging buffer ends with are found by running the body. -/
noncomputable def kernelRun0_A (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond0 i)
    (x0 : Vec F S512x512 .bf16) (x1 : Vec F S8192x512 .bf16) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__uniformity_kernel i arg1 harg1 arg2 harg2 arg3 harg3) K } := by
  refine ⟨?_, fun E K => ?run⟩
  case run =>
    simp only [cc0__uniformity_kernel_eq_skeleton]; unfold cc0__uniformity_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.R0RunB.lean ====
import proofs.«107562_j37151467110996_1_alg».proof.Proof.R0Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The uniformity body at a later row tile: the output's running sum is read back and the tile's sum added to it. The pieces the output's
    staging buffer ends with are found by running the body. -/
noncomputable def kernelRun0_B (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond0 i)
    (x0 : Vec F S512x512 .bf16) (x1 : Vec F S8192x512 .bf16) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__uniformity_kernel i arg1 harg1 arg2 harg2 arg3 harg3) K } := by
  refine ⟨?_, fun E K => ?run⟩
  case run =>
    simp only [cc0__uniformity_kernel_eq_skeleton]; unfold cc0__uniformity_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.R0Dat.lean ====
import proofs.«107562_j37151467110996_1_alg».proof.Proof.R0RunA
import proofs.«107562_j37151467110996_1_alg».proof.Proof.R0RunB
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: what the output's staging buffer holds after each grid point (the running sum, reset at the first point and added
to at every later one), the region's proof data at a parameter V (the buffers' contents when the region is entered), and
the body obligation at every point. -/

/-- The first point's pieces cover the one-element output block. -/
theorem cover0_A_2 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond0 i)
    (x0 : Vec F S512x512 .bf16) (x1 : Vec F S8192x512 .bf16) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the output's staging buffer. -/
def out0_A_2 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond0 i)
    (x0 : Vec F S512x512 .bf16) (x1 : Vec F S8192x512 .bf16) : Vec F S1x1 .f32 :=
  VO0_2.read (Elt F) (VO0_2.writes (Elt F) VO0_2.junk (kernelRun0_A c i arg1 harg1 arg2 harg2 arg3 harg3 hc0 x0 x1).1)

/-- A later point's pieces cover the one-element output block. -/
theorem cover0_B_2 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond0 i)
    (x0 : Vec F S512x512 .bf16) (x1 : Vec F S8192x512 .bf16) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves in the output's staging buffer, from what the point before left there. -/
def out0_B_2 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond0 i)
    (x0 : Vec F S512x512 .bf16) (x1 : Vec F S8192x512 .bf16) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

section
variable (V : (c : Dev nD) → (b : Ref sig .tc) → Buf (Elt F) ((c : Thread nD τ).loc b))

/-- The running sum: what the output's staging buffer holds after the body at position n. -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

/-- At the first point: the reset case. -/
theorem outsAt0_A (c : Dev nD) (t : Fin cfg0.N) (h0 : t.val % 16 = 0) :
    outsAt0 V c t.val t.isLt = out0_A_2 c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

/-- At a later point: the accumulating case, over what the point before left. -/
theorem outsAt0_B (c : Dev nD) (t : Fin cfg0.N) (h0 : ¬t.val % 16 = 0) :
    outsAt0 V c t.val t.isLt = out0_B_2 c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body each input's buffer at its block and
    the output's at the running sum; the invariant the scoped rest and the generator register, untouched; nothing owed; the one array behind the two input windows held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point the output's staging buffer still holds what the point before left: it is written back at the last point only. -/
theorem before0_2_B (c : Dev nD) (t : Fin cfg0.N) (h0 : ¬t.val % 16 = 0) (d) :
    (dat0 V c).before 2 t d = outsAt0 V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the inputs' buffers hold their blocks; the closed form says which case the point is in; at a later
    point the output's buffer holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 16 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.R1Defs.lean ====
import proofs.«107562_j37151467110996_1_alg».proof.Proof.Gen.KernelIdeal.Launch
import proofs.«107562_j37151467110996_1_alg».proof.Proof.Gen.KernelIdeal.Skeleton
import proofs.«107562_j37151467110996_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: the uniformity kernel over row tiles of 512 rows. What every later module of the region is stated over:
the body's one conditional in closed form, the windows' blocks read off the arrays as the region finds them, and that
each input window's staging buffer holds its block at every grid point. -/

section
variable (V : (c : Dev nD) → (b : Ref sig .tc) → Buf (Elt F) ((c : Thread nD τ).loc b))

/-- The body's one conditional: the grid coordinate is zero (the first row tile), where the output is zeroed. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val % 16 = 0 :=
  (by decide +kernel : ∀ t : Fin grid1.N, cond1 (grid1.coords t) ↔ t.val % 16 = 0)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The whole array's staging buffer holds the array at every point, though it is fetched at the first only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-- One staging buffer of the output window, through which its contents are stated. -/
abbrev VO1_2 : View sig .tc .vmem S1x1 .f32 := (Memref.whole cc1_stg2_0 : Memref sig .tc .vmem S1x1 .f32).view
/-- Each window's current staging memref at point `t`, as the pipeline passes it, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

end Cert.KernelIdeal.Hand

end
-- ==== Proof.R1RunA.lean ====
import proofs.«107562_j37151467110996_1_alg».proof.Proof.R1Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The uniformity body at the first row tile: the output is zeroed, then the tile's sum added to it. The pieces the output's
    staging buffer ends with are found by running the body. -/
noncomputable def kernelRun1_A (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond1 i)
    (x0 : Vec F S512x512 .bf16) (x1 : Vec F S8192x512 .bf16) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__uniformity_kernel i arg1 harg1 arg2 harg2 arg3 harg3) K } := by
  refine ⟨?_, fun E K => ?run⟩
  case run =>
    simp only [cc1__uniformity_kernel_eq_skeleton]; unfold cc1__uniformity_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.R1RunB.lean ====
import proofs.«107562_j37151467110996_1_alg».proof.Proof.R1Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The uniformity body at a later row tile: the output's running sum is read back and the tile's sum added to it. The pieces the output's
    staging buffer ends with are found by running the body. -/
noncomputable def kernelRun1_B (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond1 i)
    (x0 : Vec F S512x512 .bf16) (x1 : Vec F S8192x512 .bf16) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__uniformity_kernel i arg1 harg1 arg2 harg2 arg3 harg3) K } := by
  refine ⟨?_, fun E K => ?run⟩
  case run =>
    simp only [cc1__uniformity_kernel_eq_skeleton]; unfold cc1__uniformity_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.R1Dat.lean ====
import proofs.«107562_j37151467110996_1_alg».proof.Proof.R1RunA
import proofs.«107562_j37151467110996_1_alg».proof.Proof.R1RunB
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: what the output's staging buffer holds after each grid point (the running sum, reset at the first point and added
to at every later one), the region's proof data at a parameter V (the buffers' contents when the region is entered), and
the body obligation at every point. -/

/-- The first point's pieces cover the one-element output block. -/
theorem cover1_A_2 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond1 i)
    (x0 : Vec F S512x512 .bf16) (x1 : Vec F S8192x512 .bf16) (y : S1x1.Idx) :
    ∃ pc ∈ (kernelRun1_A c i arg1 harg1 arg2 harg2 arg3 harg3 hc0 x0 x1).1, y ∈ pc.1.set :=
  View.cover_of_tiledL (kernelRun1_A c i arg1 harg1 arg2 harg2 arg3 harg3 hc0 x0 x1).1 S1x1.size (by sl_kernel_rfl) y

/-- What the first point leaves in the output's staging buffer. -/
def out1_A_2 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond1 i)
    (x0 : Vec F S512x512 .bf16) (x1 : Vec F S8192x512 .bf16) : Vec F S1x1 .f32 :=
  VO1_2.read (Elt F) (VO1_2.writes (Elt F) VO1_2.junk (kernelRun1_A c i arg1 harg1 arg2 harg2 arg3 harg3 hc0 x0 x1).1)

/-- A later point's pieces cover the one-element output block. -/
theorem cover1_B_2 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond1 i)
    (x0 : Vec F S512x512 .bf16) (x1 : Vec F S8192x512 .bf16) (xo2 : Vec F S1x1 .f32) (y : S1x1.Idx) :
    ∃ pc ∈ (kernelRun1_B c i arg1 harg1 arg2 harg2 arg3 harg3 hc0 x0 x1 xo2).1, y ∈ pc.1.set :=
  View.cover_of_tiledL (kernelRun1_B c i arg1 harg1 arg2 harg2 arg3 harg3 hc0 x0 x1 xo2).1 S1x1.size (by sl_kernel_rfl) y

/-- What a later point leaves in the output's staging buffer, from what the point before left there. -/
def out1_B_2 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond1 i)
    (x0 : Vec F S512x512 .bf16) (x1 : Vec F S8192x512 .bf16) (xo2 : Vec F S1x1 .f32) : Vec F S1x1 .f32 :=
  VO1_2.read (Elt F) (VO1_2.writes (Elt F) VO1_2.junk (kernelRun1_B c i arg1 harg1 arg2 harg2 arg3 harg3 hc0 x0 x1 xo2).1)

section
variable (V : (c : Dev nD) → (b : Ref sig .tc) → Buf (Elt F) ((c : Thread nD τ).loc b))

/-- The running sum: what the output's staging buffer holds after the body at position n. -/
def outsAt1 (c : Dev nD) : (n : ℕ) → n < cfg1.N → Vec F S1x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩) (iblk1 V c 1 ⟨0, hn⟩)
  | n + 1, hn =>
    if h0 : (n + 1) % 16 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn))

/-- At the first point: the reset case. -/
theorem outsAt1_A (c : Dev nD) (t : Fin cfg1.N) (h0 : t.val % 16 = 0) :
    outsAt1 V c t.val t.isLt = out1_A_2 c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

/-- At a later point: the accumulating case, over what the point before left. -/
theorem outsAt1_B (c : Dev nD) (t : Fin cfg1.N) (h0 : ¬t.val % 16 = 0) :
    outsAt1 V c t.val t.isLt = out1_B_2 c (grid1.coords t) (ms1_0 t) (hs1_0 t) (ms1_1 t) (hs1_1 t) (ms1_2 t) (hs1_2 t) (fun h => h0 ((hcond1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body each input's buffer at its block and
    the output's at the running sum; the invariant the scoped rest and the generator register, untouched; nothing owed; the one array behind the two input windows held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later point the output's staging buffer still holds what the point before left: it is written back at the last point only. -/
theorem before1_2_B (c : Dev nD) (t : Fin cfg1.N) (h0 : ¬t.val % 16 = 0) (d) :
    (dat1 V c).before 2 t d = outsAt1 V c (t.val - 1) (Nat.lt_of_le_of_lt (Nat.sub_le _ _) t.isLt) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' buffers hold their blocks; the closed form says which case the point is in; at a later
    point the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 16 := lt_of_lt_of_eq t.isLt (show cfg1.N = 16 from N_1)
  by_cases h0 : t.val % 16 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.R2Defs.lean ====
import proofs.«107562_j37151467110996_1_alg».proof.Proof.Gen.KernelIdeal.Launch
import proofs.«107562_j37151467110996_1_alg».proof.Proof.Gen.KernelIdeal.Skeleton
import proofs.«107562_j37151467110996_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2: the alignment kernel over row tiles of 1024 rows of both arrays. The body's one conditional in closed form,
the windows' blocks read off the arrays as the region finds them, and that each input window's staging buffer holds its
block at every grid point. -/

section
variable (V : (c : Dev nD) → (b : Ref sig .tc) → Buf (Elt F) ((c : Thread nD τ).loc b))

/-- The body's one conditional: the grid coordinate is zero (the first row tile), where the output is zeroed. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val % 8 = 0 :=
  (by decide +kernel : ∀ t : Fin grid2.N, cond2 (grid2.coords t) ↔ t.val % 8 = 0)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first array's row tile is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The second array's row tile is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-- One staging buffer of the output window, through which its contents are stated. -/
abbrev VO2_2 : View sig .tc .vmem S1x1 .f32 := (Memref.whole cc2_stg2_0 : Memref sig .tc .vmem S1x1 .f32).view
/-- Each window's current staging memref at point `t`, as the pipeline passes it, and its wholeness. -/
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

end Cert.KernelIdeal.Hand

end
-- ==== Proof.R2RunA.lean ====
import proofs.«107562_j37151467110996_1_alg».proof.Proof.R2Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The alignment body at the first row tile: the output is zeroed, then the tile's sum of row distances added to it. The pieces the
    output's staging buffer ends with are found by running the body. -/
noncomputable def kernelRun2_A (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond2 i)
    (x0 : Vec F S1024x512 .f32) (x1 : Vec F S1024x512 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__alignment_kernel i arg1 harg1 arg2 harg2 arg3 harg3) K } := by
  refine ⟨?_, fun E K => ?run⟩
  case run =>
    simp only [cc2__alignment_kernel_eq_skeleton]; unfold cc2__alignment_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.R2RunB.lean ====
import proofs.«107562_j37151467110996_1_alg».proof.Proof.R2Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The alignment body at a later row tile: the output's running sum is read back and the tile's sum of row distances added to it. The pieces the
    output's staging buffer ends with are found by running the body. -/
noncomputable def kernelRun2_B (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond2 i)
    (x0 : Vec F S1024x512 .f32) (x1 : Vec F S1024x512 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__alignment_kernel i arg1 harg1 arg2 harg2 arg3 harg3) K } := by
  refine ⟨?_, fun E K => ?run⟩
  case run =>
    simp only [cc2__alignment_kernel_eq_skeleton]; unfold cc2__alignment_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.R2Dat.lean ====
import proofs.«107562_j37151467110996_1_alg».proof.Proof.R2RunA
import proofs.«107562_j37151467110996_1_alg».proof.Proof.R2RunB
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2: what the output's staging buffer holds after each grid point (the running sum, reset at the first point and added
to at every later one), the region's proof data at a parameter V (the buffers' contents when the region is entered), and
the body obligation at every point. -/

/-- The first point's pieces cover the one-element output block. -/
theorem cover2_A_2 (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond2 i)
    (x0 : Vec F S1024x512 .f32) (x1 : Vec F S1024x512 .f32) (y : S1x1.Idx) :
    ∃ pc ∈ (kernelRun2_A c i arg1 harg1 arg2 harg2 arg3 harg3 hc0 x0 x1).1, y ∈ pc.1.set :=
  View.cover_of_tiledL (kernelRun2_A c i arg1 harg1 arg2 harg2 arg3 harg3 hc0 x0 x1).1 S1x1.size (by sl_kernel_rfl) y

/-- What the first point leaves in the output's staging buffer. -/
def out2_A_2 (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond2 i)
    (x0 : Vec F S1024x512 .f32) (x1 : Vec F S1024x512 .f32) : Vec F S1x1 .f32 :=
  VO2_2.read (Elt F) (VO2_2.writes (Elt F) VO2_2.junk (kernelRun2_A c i arg1 harg1 arg2 harg2 arg3 harg3 hc0 x0 x1).1)

/-- A later point's pieces cover the one-element output block. -/
theorem cover2_B_2 (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond2 i)
    (x0 : Vec F S1024x512 .f32) (x1 : Vec F S1024x512 .f32) (xo2 : Vec F S1x1 .f32) (y : S1x1.Idx) :
    ∃ pc ∈ (kernelRun2_B c i arg1 harg1 arg2 harg2 arg3 harg3 hc0 x0 x1 xo2).1, y ∈ pc.1.set :=
  View.cover_of_tiledL (kernelRun2_B c i arg1 harg1 arg2 harg2 arg3 harg3 hc0 x0 x1 xo2).1 S1x1.size (by sl_kernel_rfl) y

/-- What a later point leaves in the output's staging buffer, from what the point before left there. -/
def out2_B_2 (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond2 i)
    (x0 : Vec F S1024x512 .f32) (x1 : Vec F S1024x512 .f32) (xo2 : Vec F S1x1 .f32) : Vec F S1x1 .f32 :=
  VO2_2.read (Elt F) (VO2_2.writes (Elt F) VO2_2.junk (kernelRun2_B c i arg1 harg1 arg2 harg2 arg3 harg3 hc0 x0 x1 xo2).1)

section
variable (V : (c : Dev nD) → (b : Ref sig .tc) → Buf (Elt F) ((c : Thread nD τ).loc b))

/-- The running sum: what the output's staging buffer holds after the body at position n. -/
def outsAt2 (c : Dev nD) : (n : ℕ) → n < cfg2.N → Vec F S1x1 .f32
  | 0, hn => out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2 ⟨0, hn⟩).mpr (Nat.zero_mod _)) (iblk2 V c 0 ⟨0, hn⟩) (iblk2 V c 1 ⟨0, hn⟩)
  | n + 1, hn =>
    if h0 : (n + 1) % 8 = 0 then
      out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2 ⟨n + 1, hn⟩).mpr h0) (iblk2 V c 0 ⟨n + 1, hn⟩) (iblk2 V c 1 ⟨n + 1, hn⟩)
    else
      out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2 ⟨n + 1, hn⟩).mp h)) (iblk2 V c 0 ⟨n + 1, hn⟩) (iblk2 V c 1 ⟨n + 1, hn⟩) (outsAt2 c n (Nat.lt_of_succ_lt hn))

/-- At the first point: the reset case. -/
theorem outsAt2_A (c : Dev nD) (t : Fin cfg2.N) (h0 : t.val % 8 = 0) :
    outsAt2 V c t.val t.isLt = out2_A_2 c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

/-- At a later point: the accumulating case, over what the point before left. -/
theorem outsAt2_B (c : Dev nD) (t : Fin cfg2.N) (h0 : ¬t.val % 8 = 0) :
    outsAt2 V c t.val t.isLt = out2_B_2 c (grid2.coords t) (ms2_0 t) (hs2_0 t) (ms2_1 t) (hs2_1 t) (ms2_2 t) (hs2_2 t) (fun h => h0 ((hcond2 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body each input's buffer at its block and
    the output's at the running sum; the invariant the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a later point the output's staging buffer still holds what the point before left: it is written back at the last point only. -/
theorem before2_2_B (c : Dev nD) (t : Fin cfg2.N) (h0 : ¬t.val % 8 = 0) (d) :
    (dat2 V c).before 2 t d = outsAt2 V c (t.val - 1) (Nat.lt_of_le_of_lt (Nat.sub_le _ _) t.isLt) := by
  have hN : t.val < 8 := lt_of_lt_of_eq t.isLt (show cfg2.N = 8 from N_2)
  rw [Dat.before_out_kept _ 2 rfl t (by omega) (Bool.eq_false_iff.mpr fun h => by have := (flush2_2 _).mp h; dsimp only at this; omega)
    (fun _ => rfl) (fun _ _ => rfl)]
  dsimp only [dat2]

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 1600000 in
/-- The body at any point: the inputs' buffers hold their blocks; the closed form says which case the point is in; at a later
    point the output's buffer holds what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 8 := lt_of_lt_of_eq t.isLt (show cfg2.N = 8 from N_2)
  by_cases h0 : t.val % 8 = 0
  · rw [outsAt2_A V c t h0]
    unfold out2_A_2
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A_2 c _ _ _ _ _ _ _ _ _ _)
  · rw [outsAt2_B V c t h0]
    simp only [before2_2_B V c t h0]
    unfold out2_B_2
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.Regions.lean ====
import proofs.«107562_j37151467110996_1_alg».proof.Proof.R0Dat
import proofs.«107562_j37151467110996_1_alg».proof.Proof.R1Dat
import proofs.«107562_j37151467110996_1_alg».proof.Proof.R2Dat
import proofs.«107562_j37151467110996_1_alg».proof.Proof.Gen.KernelIdeal.Regions
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! The whole program: four stretches of host operations around three kernel regions. The buffers' contents at every boundary, the
regions' proof data each at its region's entry contents, each region as a segment entered from "every unscoped buffer at the
boundary's contents" and left at the next boundary's, and the run: every weakly fair execution terminates, nothing faults, and every
unscoped buffer ends at the last boundary's contents. -/

theorem img0 : Finset.univ.image (Pipeline.arrRef spec0) = ({main_v0, main_v2} : Finset (Ref sig .tc)) := by decide
theorem share0_0 (V : (c : Dev nD) → (b : Ref sig .tc) → Buf (Elt F) ((c : Thread nD τ).loc b)) (c : Dev nD) : (dat0 V c).share 0 = fullShare.left := rfl
theorem share0_1 (V : (c : Dev nD) → (b : Ref sig .tc) → Buf (Elt F) ((c : Thread nD τ).loc b)) (c : Dev nD) : (dat0 V c).share 1 = fullShare.right := rfl
theorem share0_2 (V : (c : Dev nD) → (b : Ref sig .tc) → Buf (Elt F) ((c : Thread nD τ).loc b)) (c : Dev nD) : (dat0 V c).share 2 = fullShare := rfl

/-- ENTRY of region 0, the arrays' part: the two distinct buffers behind its three windows, each whole at the full share, make
    the windows' arrays, the array the two input windows share split in two halves. -/
theorem arrays_of_arrBufs0 (V : (c : Dev nD) → (b : Ref sig .tc) → Buf (Elt F) ((c : Thread nD τ).loc b)) (c : Dev nD)
    (F0 : (w : Fin cfg0.W) → Buf (Elt F) ((cfg0.win w).arr.view.loc (c : Thread nD τ)))
    (hF : ∀ w, F0 w = V c (Pipeline.arrRef spec0 w)) :
    (Pipeline.arrBufs (Ix := Unit) (Name := ℕ) (U := UR sig nD τ) (Lvl := ℕ) spec0 c (V c) : sProp 𝕄) ⊢ (dat0 V c).arrays F0 := by
  unfold Pipeline.arrBufs Dat.arrays
  rw [img0, bigSep_W0, BI.bigSep_insert (by decide : main_v0 ∉ ({main_v2} : Finset (Ref sig .tc))), BI.bigSep_singleton,
    (arr_whole0 0).set_eq_univ, (arr_whole0 2).set_eq_univ, share0_0, share0_1, share0_2, hF 0, hF 1, hF 2]
  show (iprop((((c : Thread nD τ).loc main_v0) ↦{fullShare} V c main_v0) ∗ (((c : Thread nD τ).loc main_v2) ↦{fullShare} V c main_v2)) : sProp 𝕄) ⊢ _
  iintro ⟨H0, H2⟩
  ihave H := (pointsTo_share (PosShare.mem_left_op_right fullShare)).1 $$ H0
  icases H with ⟨Ha, Hb⟩
  isplitl [Ha]; · iexact Ha
  isplitl [Hb]; · iexact Hb
  iexact H2

/-- EXIT of region 0, the arrays' part: the two halves hold the same contents and join again. -/
theorem arrBufs_of_arrays0 (V : (c : Dev nD) → (b : Ref sig .tc) → Buf (Elt F) ((c : Thread nD τ).loc b)) (c : Dev nD)
    (F0 : (w : Fin cfg0.W) → Buf (Elt F) ((cfg0.win w).arr.view.loc (c : Thread nD τ)))
    (V' : (b : Ref sig .tc) → Buf (Elt F) ((c : Thread nD τ).loc b))
    (hF : ∀ w, F0 w = V' (Pipeline.arrRef spec0 w)) :
    (dat0 V c).arrays F0 ⊢ (Pipeline.arrBufs (Ix := Unit) (Name := ℕ) (U := UR sig nD τ) (Lvl := ℕ) spec0 c V' : sProp 𝕄) := by
  unfold Pipeline.arrBufs Dat.arrays
  rw [img0, bigSep_W0, BI.bigSep_insert (by decide : main_v0 ∉ ({main_v2} : Finset (Ref sig .tc))), BI.bigSep_singleton,
    (arr_whole0 0).set_eq_univ, (arr_whole0 2).set_eq_univ, share0_0, share0_1, share0_2, hF 0, hF 1, hF 2]
  show _ ⊢ (iprop((((c : Thread nD τ).loc main_v0) ↦{fullShare} V' main_v0) ∗ (((c : Thread nD τ).loc main_v2) ↦{fullShare} V' main_v2)) : sProp 𝕄)
  iintro ⟨Ha, Hb, H2⟩
  isplitl [Ha Hb]
  · iapply (pointsTo_share (PosShare.mem_left_op_right fullShare)).2
    isplitl [Ha]; · iexact Ha
    iexact Hb
  iexact H2

theorem img1 : Finset.univ.image (Pipeline.arrRef spec1) = ({main_v1, main_v4} : Finset (Ref sig .tc)) := by decide
theorem share1_0 (V : (c : Dev nD) → (b : Ref sig .tc) → Buf (Elt F) ((c : Thread nD τ).loc b)) (c : Dev nD) : (dat1 V c).share 0 = fullShare.left := rfl
theorem share1_1 (V : (c : Dev nD) → (b : Ref sig .tc) → Buf (Elt F) ((c : Thread nD τ).loc b)) (c : Dev nD) : (dat1 V c).share 1 = fullShare.right := rfl
theorem share1_2 (V : (c : Dev nD) → (b : Ref sig .tc) → Buf (Elt F) ((c : Thread nD τ).loc b)) (c : Dev nD) : (dat1 V c).share 2 = fullShare := rfl

/-- ENTRY of region 1, the arrays' part: the two distinct buffers behind its three windows, each whole at the full share, make
    the windows' arrays, the array the two input windows share split in two halves. -/
theorem arrays_of_arrBufs1 (V : (c : Dev nD) → (b : Ref sig .tc) → Buf (Elt F) ((c : Thread nD τ).loc b)) (c : Dev nD)
    (F0 : (w : Fin cfg1.W) → Buf (Elt F) ((cfg1.win w).arr.view.loc (c : Thread nD τ)))
    (hF : ∀ w, F0 w = V c (Pipeline.arrRef spec1 w)) :
    (Pipeline.arrBufs (Ix := Unit) (Name := ℕ) (U := UR sig nD τ) (Lvl := ℕ) spec1 c (V c) : sProp 𝕄) ⊢ (dat1 V c).arrays F0 := by
  unfold Pipeline.arrBufs Dat.arrays
  rw [img1, bigSep_W1, BI.bigSep_insert (by decide : main_v1 ∉ ({main_v4} : Finset (Ref sig .tc))), BI.bigSep_singleton,
    (arr_whole1 0).set_eq_univ, (arr_whole1 2).set_eq_univ, share1_0, share1_1, share1_2, hF 0, hF 1, hF 2]
  show (iprop((((c : Thread nD τ).loc main_v1) ↦{fullShare} V c main_v1) ∗ (((c : Thread nD τ).loc main_v4) ↦{fullShare} V c main_v4)) : sProp 𝕄) ⊢ _
  iintro ⟨H0, H2⟩
  ihave H := (pointsTo_share (PosShare.mem_left_op_right fullShare)).1 $$ H0
  icases H with ⟨Ha, Hb⟩
  isplitl [Ha]; · iexact Ha
  isplitl [Hb]; · iexact Hb
  iexact H2

/-- EXIT of region 1, the arrays' part: the two halves hold the same contents and join again. -/
theorem arrBufs_of_arrays1 (V : (c : Dev nD) → (b : Ref sig .tc) → Buf (Elt F) ((c : Thread nD τ).loc b)) (c : Dev nD)
    (F0 : (w : Fin cfg1.W) → Buf (Elt F) ((cfg1.win w).arr.view.loc (c : Thread nD τ)))
    (V' : (b : Ref sig .tc) → Buf (Elt F) ((c : Thread nD τ).loc b))
    (hF : ∀ w, F0 w = V' (Pipeline.arrRef spec1 w)) :
    (dat1 V c).arrays F0 ⊢ (Pipeline.arrBufs (Ix := Unit) (Name := ℕ) (U := UR sig nD τ) (Lvl := ℕ) spec1 c V' : sProp 𝕄) := by
  unfold Pipeline.arrBufs Dat.arrays
  rw [img1, bigSep_W1, BI.bigSep_insert (by decide : main_v1 ∉ ({main_v4} : Finset (Ref sig .tc))), BI.bigSep_singleton,
    (arr_whole1 0).set_eq_univ, (arr_whole1 2).set_eq_univ, share1_0, share1_1, share1_2, hF 0, hF 1, hF 2]
  show _ ⊢ (iprop((((c : Thread nD τ).loc main_v1) ↦{fullShare} V' main_v1) ∗ (((c : Thread nD τ).loc main_v4) ↦{fullShare} V' main_v4)) : sProp 𝕄)
  iintro ⟨Ha, Hb, H2⟩
  isplitl [Ha Hb]
  · iapply (pointsTo_share (PosShare.mem_left_op_right fullShare)).2
    isplitl [Ha]; · iexact Ha
    iexact Hb
  iexact H2

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first stretch (the two format changes): region 0's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its output array at what the pipeline leaves, every other buffer as entered. -/
def W2 (c : Dev nD) : Valuation τ sig (Elt F) :=
  Function.update (W1 m c) (Proc.devRef .tc main_v2) ((dat0 (U1 m) c).arrAt 2 cfg0.N)
abbrev U2 : (c : Dev nD) → (b : Ref sig .tc) → Buf (Elt F) ((c : Thread nD τ).loc b) := fun c b => W2 m c b
/-- After the second stretch: region 1's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Function.update (W3 m c) (Proc.devRef .tc main_v4) ((dat1 (U3 m) c).arrAt 2 cfg1.N)
abbrev U4 : (c : Dev nD) → (b : Ref sig .tc) → Buf (Elt F) ((c : Thread nD τ).loc b) := fun c b => W4 m c b
/-- After the third stretch: region 2's entry. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit. -/
def W6 (c : Dev nD) : Valuation τ sig (Elt F) :=
  Function.update (W5 m c) (Proc.devRef .tc main_v6) ((dat2 (U5 m) c).arrAt 2 cfg2.N)
abbrev U6 : (c : Dev nD) → (b : Ref sig .tc) → Buf (Elt F) ((c : Thread nD τ).loc b) := fun c b => W6 m c b
/-- After the last stretch: the end. -/
abbrev W7 : Dev nD → Valuation τ sig (Elt F) := fun c => StableHlo.after hostOps3 (W6 m c)

theorem W2_out (c : Dev nD) : W2 m c (Proc.devRef .tc main_v2) = (dat0 (U1 m) c).arrAt 2 cfg0.N := by
  unfold W2; exact Function.update_self _ _ _
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) _ _
theorem W4_out (c : Dev nD) : W4 m c (Proc.devRef .tc main_v4) = (dat1 (U3 m) c).arrAt 2 cfg1.N := by
  unfold W4; exact Function.update_self _ _ _
theorem W4_of_ne (c : Dev nD) (b : Ref sig .tc) (hb : b ≠ main_v4) : W4 m c (Proc.devRef .tc b) = W3 m c (Proc.devRef .tc b) := by
  unfold W4; exact Function.update_of_ne (StableHlo.devRef_ne_of_ne hb) _ _
theorem W6_out (c : Dev nD) : W6 m c (Proc.devRef .tc main_v6) = (dat2 (U5 m) c).arrAt 2 cfg2.N := by
  unfold W6; exact Function.update_self _ _ _
theorem W6_of_ne (c : Dev nD) (b : Ref sig .tc) (hb : b ≠ main_v6) : W6 m c (Proc.devRef .tc b) = W5 m c (Proc.devRef .tc b) := by
  unfold W6; exact Function.update_of_ne (StableHlo.devRef_ne_of_ne hb) _ _

/-- At a region's exit each of its arrays holds what the pipeline leaves: an input array its entry contents, the output the folded write-backs. -/
theorem hF0 (c : Dev nD) (w : Fin cfg0.W) : (dat0 (U1 m) c).arrAt w cfg0.N = U2 m c (Pipeline.arrRef spec0 w) := by
  match w with
  | ⟨0, _⟩ => exact ((dat0 (U1 m) c).arrAt_in 0 rfl _).trans ((A_eq0 (U1 m) c 0).trans (W2_of_ne m c main_v0 (by decide)).symm)
  | ⟨1, _⟩ => exact ((dat0 (U1 m) c).arrAt_in 1 rfl _).trans ((A_eq0 (U1 m) c 1).trans (W2_of_ne m c main_v0 (by decide)).symm)
  | ⟨2, _⟩ => exact (W2_out m c).symm
theorem hrest0 (c : Dev nD) : ∀ b, b ∉ Finset.univ.image (Pipeline.arrRef spec0) → U2 m c b = U1 m c b :=
  fun b hb => W2_of_ne m c b fun e => hb (by rw [img0, e]; decide)
theorem hF1 (c : Dev nD) (w : Fin cfg1.W) : (dat1 (U3 m) c).arrAt w cfg1.N = U4 m c (Pipeline.arrRef spec1 w) := by
  match w with
  | ⟨0, _⟩ => exact ((dat1 (U3 m) c).arrAt_in 0 rfl _).trans ((A_eq1 (U3 m) c 0).trans (W4_of_ne m c main_v1 (by decide)).symm)
  | ⟨1, _⟩ => exact ((dat1 (U3 m) c).arrAt_in 1 rfl _).trans ((A_eq1 (U3 m) c 1).trans (W4_of_ne m c main_v1 (by decide)).symm)
  | ⟨2, _⟩ => exact (W4_out m c).symm
theorem hrest1 (c : Dev nD) : ∀ b, b ∉ Finset.univ.image (Pipeline.arrRef spec1) → U4 m c b = U3 m c b :=
  fun b hb => W4_of_ne m c b fun e => hb (by rw [img1, e]; decide)
theorem hF2 (c : Dev nD) (w : Fin cfg2.W) : (dat2 (U5 m) c).arrAt w cfg2.N = U6 m c (Pipeline.arrRef spec2 w) := by
  match w with
  | ⟨0, _⟩ => exact ((dat2 (U5 m) c).arrAt_in 0 rfl _).trans ((A_eq2 (U5 m) c 0).trans (W6_of_ne m c main_arg0 (by decide)).symm)
  | ⟨1, _⟩ => exact ((dat2 (U5 m) c).arrAt_in 1 rfl _).trans ((A_eq2 (U5 m) c 1).trans (W6_of_ne m c main_arg1 (by decide)).symm)
  | ⟨2, _⟩ => exact (W6_out m c).symm
theorem hrest2 (c : Dev nD) : ∀ b, b ∉ Finset.univ.image (Pipeline.arrRef spec2) → U6 m c b = U5 m c b :=
  fun b hb => W6_of_ne m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

set_option backward.isDefEq.respectTransparency.types false in
/-- REGION 0 over the thread state: entered from every unscoped buffer at `W1`, left at `W2`. Its arrays are split out of the
    unscoped buffers — the one array behind the two input windows in two halves — and put back at the exit contents; the generator
    register goes into the invariant and out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit : (unscopedBufs c (U1 m c) : sProp 𝕄)
        ⊢ iprop((pdats m 0 c).arrays ((pdats m 0 c).arrAt · 0) ∗ Pipeline.unscopedRest spec0 c (U1 m c)) := by
      rw [Pipeline.unscopedBufs_split₀ cfgs 0 winFacts₀0.arr_unscoped c (U1 m c)]
      exact sep_mono (arrays_of_arrBufs0 (U1 m) c _ (fun w => A_eq0 (U1 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (U1 m c))
        ⊢ (unscopedBufs c (U2 m c) : sProp 𝕄) := by
      rw [Pipeline.unscopedBufs_split₀ cfgs 0 winFacts₀0.arr_unscoped c (U2 m c)]
      refine sep_mono (arrBufs_of_arrays0 (U1 m) c _ (U2 m c) (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out of the
    unscoped buffers — the one array behind the two input windows in two halves — and put back at the exit contents; the generator
    register goes into the invariant and out; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (unscopedBufs c (U3 m c) : sProp 𝕄)
        ⊢ iprop((pdats m 1 c).arrays ((pdats m 1 c).arrAt · 0) ∗ Pipeline.unscopedRest spec1 c (U3 m c)) := by
      rw [Pipeline.unscopedBufs_split₀ cfgs 1 winFacts₀1.arr_unscoped c (U3 m c)]
      exact sep_mono (arrays_of_arrBufs1 (U3 m) c _ (fun w => A_eq1 (U3 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U3 m c))
        ⊢ (unscopedBufs c (U4 m c) : sProp 𝕄) := by
      rw [Pipeline.unscopedBufs_split₀ cfgs 1 winFacts₀1.arr_unscoped c (U4 m c)]
      refine sep_mono (arrBufs_of_arrays1 (U3 m) c _ (U4 m c) (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`; its three arrays are distinct buffers. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every final
    state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.Frames.lean ====
import proofs.«107562_j37151467110996_1_alg».proof.Proof.Regions
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The argument arrays end as launched: no host operation writes one and each region leaves its input arrays as entered, so the last
boundary's contents at an argument walk back to the launch memory. With the run, this is the frame. -/

variable (m : (ℓ : Loc nD τ sig) → Buf (Elt F) ℓ) (ρ : Dev nD → PrngReg)

theorem W7_of (c : Dev nD) (b : Ref sig .tc) (h3 : b ∉ hostOps3_W) (h6 : b ≠ main_v6) (h2 : b ∉ hostOps2_W) (h4 : b ≠ main_v4)
    (h1 : b ∉ hostOps1_W) (h2' : b ≠ main_v2) (h0 : b ∉ hostOps0_W) :
    W7 m c (Proc.devRef .tc b) = m ((c : Thread nD τ).loc b) :=
  (StableHlo.after_of_writes_sub hostOps3 _ hostOps3_writes h3).trans <| (W6_of_ne m c b h6).trans <|
  (StableHlo.after_of_writes_sub hostOps2 _ hostOps2_writes h2).trans <| (W4_of_ne m c b h4).trans <|
  (StableHlo.after_of_writes_sub hostOps1 _ hostOps1_writes h1).trans <| (W2_of_ne m c b h2').trans <|
  (StableHlo.after_of_writes_sub hostOps0 _ hostOps0_writes h0).trans rfl

theorem W7_main_arg0 (c : Dev nD) : W7 m c (Proc.devRef .tc main_arg0) = m ((c : Thread nD τ).loc main_arg0) :=
  W7_of m c main_arg0 (by decide) (by decide) (by decide) (by decide) (by decide) (by decide) (by decide)
theorem W7_main_arg1 (c : Dev nD) : W7 m c (Proc.devRef .tc main_arg1) = m ((c : Thread nD τ).loc main_arg1) :=
  W7_of m c main_arg1 (by decide) (by decide) (by decide) (by decide) (by decide) (by decide) (by decide)

/-- THE FRAME: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W7_main_arg0 m c),
    (h c _ (mem_uc main_arg1 (by decide))).trans (W7_main_arg1 m c)⟩) (run_all m ρ)

end Cert.KernelIdeal.Hand

end
-- ==== Proof.Spec.lean ====
import Idealize.ShloMosaic.PureOps.Ideal
import Idealize.ShloMosaic.Lib.ValueIdx

/-!
The quantity both programs compute, as a function of the two argument arrays' entries over the extended reals.

For an array `z` of 8192 rows of 512 entries: `sqn z i` is the squared length of row `i`, `gram z i j` the inner product of
rows `i` and `j`, `pairTerm z i j` is `exp (0 - sqrt (max ((|z_i|² + |z_j|²) - 2·⟨z_i,z_j⟩) 0))`, the kernel of the
uniformity loss on the pair, and `neqSum z` sums it over all ordered pairs of distinct rows. `alignSum z z'` sums the
distances of corresponding rows. `total` puts the three sums together: the mean distance plus half the sum of the two logarithms of
the pair sums divided by twice the number of unordered pairs, `8192·8191`.
-/

noncomputable section

namespace Cert.Spec

open Idealize.ShloMosaic

/-- The f32 words that occur, as extended reals. -/
def w0 : EReal := Ideal.ofBits .f32 0x00000000#32
def w2 : EReal := Ideal.ofBits .f32 0x40000000#32
def w8192 : EReal := Ideal.ofBits .f32 0x46000000#32
def wHalf : EReal := Ideal.ofBits .f32 0x3F000000#32
def wPairs2 : EReal := Ideal.ofBits .f32 0x4C7FF800#32

/-- Squared length of row `i`. -/
def sqn (z : Fin 8192 → Fin 512 → EReal) (i : Fin 8192) : EReal := ∑ k : Fin 512, z i k * z i k
/-- Inner product of rows `i` and `j`. -/
def gram (z : Fin 8192 → Fin 512 → EReal) (i j : Fin 8192) : EReal := ∑ k : Fin 512, z i k * z j k
/-- `exp (-‖z_i - z_j‖)`, with the squared distance computed as `(|z_i|² + |z_j|²) - 2⟨z_i, z_j⟩` and clamped at zero. -/
def pairTerm (z : Fin 8192 → Fin 512 → EReal) (i j : Fin 8192) : EReal :=
  Ideal.exp (w0 - Ideal.sqrt (max ((sqn z i + sqn z j) - w2 * gram z i j) w0))
/-- The sum of `pairTerm` over the ordered pairs of distinct rows. -/
def neqSum (z : Fin 8192 → Fin 512 → EReal) : EReal :=
  ∑ i : Fin 8192, ∑ j : Fin 8192, if i ≠ j then pairTerm z i j else w0
/-- The sum over the rows of the distance between row `i` of `z` and of `z'`. -/
def alignSum (z z' : Fin 8192 → Fin 512 → EReal) : EReal :=
  ∑ i : Fin 8192, Ideal.sqrt (∑ k : Fin 512, (z i k - z' i k) * (z i k - z' i k))
/-- The loss from the three sums. -/
def total (A S S' : EReal) : EReal :=
  Ideal.div A w8192 + wHalf * (Ideal.log (Ideal.div S wPairs2) + Ideal.log (Ideal.div S' wPairs2))
/-- The loss as a function of the two arrays. -/
def loss (z z' : Fin 8192 → Fin 512 → EReal) : EReal := total (alignSum z z') (neqSum z) (neqSum z')

end Cert.Spec

end
-- ==== Proof.Tail.lean ====
import proofs.«107562_j37151467110996_1_alg».proof.Proof.Frames
import proofs.«107562_j37151467110996_1_alg».proof.Proof.Spec
import Idealize.ShloMosaic.Lib.StableHlo.Run
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The result at the extended reals. Given what each region leaves in its output array — the pair sum of its bf16 copy, which at the
extended reals is the argument itself, and the sum of row distances —, the last stretch of host operations computes the loss of the
two argument arrays: the three one-element arrays are viewed as scalars, divided by the literal words, and combined. -/

variable (m : (ℓ : Loc nD τ sig) → Buf (Elt Ideal) ℓ)

/-- The argument arrays' entries by row and column. -/
abbrev zOf (c : Dev nD) : Fin 8192 → Fin 512 → EReal := fun r k => m ((c : Thread nD τ).loc main_arg0) (ValueIdx.ix2 r k)
abbrev zOf' (c : Dev nD) : Fin 8192 → Fin 512 → EReal := fun r k => m ((c : Thread nD τ).loc main_arg1) (ValueIdx.ix2 r k)

/-- The bf16 copies are the arguments themselves: a change of format is the identity on extended reals. -/
theorem U1_main_v0 (c : Dev nD) : (U1 m c main_v0 : S8192x512.Idx → EReal) = m ((c : Thread nD τ).loc main_arg0) := by
  show StableHlo.after hostOps0 (W0 m c) (Proc.devRef .tc main_v0) = _
  after_results
  rfl
theorem W1_main_v1 (c : Dev nD) : (W1 m c (Proc.devRef .tc main_v1) : S8192x512.Idx → EReal) = m ((c : Thread nD τ).loc main_arg1) := by
  show StableHlo.after hostOps0 (W0 m c) (Proc.devRef .tc main_v1) = _
  after_results
  rfl
theorem U3_main_v1 (c : Dev nD) : (U3 m c main_v1 : S8192x512.Idx → EReal) = m ((c : Thread nD τ).loc main_arg1) :=
  (StableHlo.after_of_writes_sub hostOps1 _ hostOps1_writes (by decide : main_v1 ∉ hostOps1_W)).trans <|
    (W2_of_ne m c main_v1 (by decide)).trans (W1_main_v1 m c)
theorem U5_of (c : Dev nD) (b : Ref sig .tc) (h2 : b ∉ hostOps2_W) (h4 : b ≠ main_v4)
    (h1 : b ∉ hostOps1_W) (h2' : b ≠ main_v2) (h0 : b ∉ hostOps0_W) : U5 m c b = m ((c : Thread nD τ).loc b) :=
  (StableHlo.after_of_writes_sub hostOps2 _ hostOps2_writes h2).trans <| (W4_of_ne m c b h4).trans <|
  (StableHlo.after_of_writes_sub hostOps1 _ hostOps1_writes h1).trans <| (W2_of_ne m c b h2').trans <|
  (StableHlo.after_of_writes_sub hostOps0 _ hostOps0_writes h0).trans rfl

/-- The scalar views of the first two regions' outputs reach the last stretch untouched. -/
theorem W6_main_v3 (c : Dev nD) : W6 m c (Proc.devRef .tc main_v3) = shapeCast S_ (W2 m c (Proc.devRef .tc main_v2)) shapeCasts_S1x1_S_ :=
  (W6_of_ne m c main_v3 (by decide)).trans <| (StableHlo.after_of_writes_sub hostOps2 _ hostOps2_writes (by decide : main_v3 ∉ hostOps2_W)).trans <|
    (W4_of_ne m c main_v3 (by decide)).trans (by
      show StableHlo.after hostOps1 (W2 m c) (Proc.devRef .tc main_v3) = _
      after_results
      rfl)
theorem W6_main_v5 (c : Dev nD) : W6 m c (Proc.devRef .tc main_v5) = shapeCast S_ (W4 m c (Proc.devRef .tc main_v4)) shapeCasts_S1x1_S_ :=
  (W6_of_ne m c main_v5 (by decide)).trans (by
      show StableHlo.after hostOps2 (W4 m c) (Proc.devRef .tc main_v5) = _
      after_results
      rfl)

/-- The last stretch, from the three regions' output arrays. -/
theorem W7_main_v15 (c : Dev nD) : W7 m c (Proc.devRef .tc main_v15) =
    addf (Host.divf (F := Ideal) (shapeCast S_ (W6 m c (Proc.devRef .tc main_v6)) shapeCasts_S1x1_S_) (constant (F := Ideal) S_ .f32 0x46000000#32))
      (mulf (constant (F := Ideal) S_ .f32 0x3F000000#32)
        (addf (Host.log (F := Ideal) (Host.divf (F := Ideal) (W6 m c (Proc.devRef .tc main_v3)) (constant (F := Ideal) S_ .f32 0x4C7FF800#32)))
          (Host.log (F := Ideal) (Host.divf (F := Ideal) (W6 m c (Proc.devRef .tc main_v5)) (constant (F := Ideal) S_ .f32 0x4C7FF800#32))))) := by
  show StableHlo.after hostOps3 (W6 m c) (Proc.devRef .tc main_v15) = _
  after_results
  rfl

/-- THE VALUE: given the three regions' values, the program's result is the loss of the two argument arrays. -/
theorem result_eq
    (h0 : ∀ (V : (c : Dev nD) → (b : Ref sig .tc) → Buf (Elt Ideal) ((c : Thread nD τ).loc b)) (c : Dev nD) (y : S1x1.Idx),
      (dat0 (F := Ideal) V c).arrAt 2 cfg0.N y = Cert.Spec.neqSum (fun r k => V c main_v0 (ValueIdx.ix2 r k)))
    (h1 : ∀ (V : (c : Dev nD) → (b : Ref sig .tc) → Buf (Elt Ideal) ((c : Thread nD τ).loc b)) (c : Dev nD) (y : S1x1.Idx),
      (dat1 (F := Ideal) V c).arrAt 2 cfg1.N y = Cert.Spec.neqSum (fun r k => V c main_v1 (ValueIdx.ix2 r k)))
    (h2 : ∀ (V : (c : Dev nD) → (b : Ref sig .tc) → Buf (Elt Ideal) ((c : Thread nD τ).loc b)) (c : Dev nD) (y : S1x1.Idx),
      (dat2 (F := Ideal) V c).arrAt 2 cfg2.N y = Cert.Spec.alignSum (fun r k => V c main_arg0 (ValueIdx.ix2 r k)) (fun r k => V c main_arg1 (ValueIdx.ix2 r k)))
    (c : Dev nD) (i : S_.Idx) :
    (W7 m c (Proc.devRef .tc main_v15) : S_.Idx → EReal) i = Cert.Spec.loss (zOf m c) (zOf' m c) := by
  have e2 : (W2 m c (Proc.devRef .tc main_v2) : S1x1.Idx → EReal) = fun _ => Cert.Spec.neqSum (zOf m c) := by
    rw [W2_out]; funext y; rw [h0]; unfold zOf; rw [U1_main_v0]
  have e4 : (W4 m c (Proc.devRef .tc main_v4) : S1x1.Idx → EReal) = fun _ => Cert.Spec.neqSum (zOf' m c) := by
    rw [W4_out]; funext y; rw [h1]; unfold zOf'; rw [U3_main_v1]
  have e6 : (W6 m c (Proc.devRef .tc main_v6) : S1x1.Idx → EReal) = fun _ => Cert.Spec.alignSum (zOf m c) (zOf' m c) := by
    rw [W6_out]; funext y; rw [h2]; unfold zOf zOf'
    rw [U5_of m c main_arg0 (by decide) (by decide) (by decide) (by decide) (by decide),
      U5_of m c main_arg1 (by decide) (by decide) (by decide) (by decide) (by decide)]
  rw [W7_main_v15, W6_main_v3, W6_main_v5, e2, e4, e6]
  rfl

end Cert.KernelIdeal.Hand

end
-- ==== Proof.Consts.lean ====
import proofs.«107562_j37151467110996_1_alg».proof.Proof.Spec

/-!
The f32 words of the two programs whose values the algebra needs, as the extended reals they denote.
-/

noncomputable section

namespace Cert.Consts

open Idealize.ShloMosaic

/-- `+0.0` denotes `0`. -/
theorem w0_eq : Cert.Spec.w0 = 0 := by
  unfold Cert.Spec.w0; simp [Ideal.ofBits, Ideal.ieee]

/-- `-1.0` denotes the real `-1`. -/
theorem ofBits_neg_one : Ideal.ofBits .f32 0xBF800000#32 = ((-1 : ℝ) : EReal) := by
  simp [Ideal.ofBits, Ideal.ieee, -EReal.coe_mul, -EReal.coe_neg]; norm_num

/-- The word `0x4BFFF800` denotes `33550336 = 8192 · 8191 / 2`, the number of unordered pairs of rows. -/
theorem ofBits_pairs : Ideal.ofBits .f32 0x4BFFF800#32 = ((33550336 : ℝ) : EReal) := by
  simp [Ideal.ofBits, Ideal.ieee, -EReal.coe_mul]; norm_num

/-- The word `0x4C7FF800` denotes `2 · 33550336 = 8192 · 8191`, the number of ordered pairs of distinct rows. -/
theorem wPairs2_eq : Cert.Spec.wPairs2 = ((2 * 33550336 : ℝ) : EReal) := by
  unfold Cert.Spec.wPairs2; simp [Ideal.ofBits, Ideal.ieee, -EReal.coe_mul]; norm_num

end Cert.Consts

end
-- ==== Proof.LibPairSums.lean ====
import Idealize.ShloMosaic.PureOps.Ideal
import Idealize.ShloMosaic.PureOps.Ideal.Laws

/-!
General laws used to pass between two arrangements of a sum over pairs, over the extended reals.

* `sum_ne_eq_sum_lt_add_sum_lt`: for a symmetric function of two indices of a finite linear order, into any additive
  commutative monoid, the sum over the ordered pairs of distinct indices is twice the sum over the pairs `i < j`.
* `zero_sub_eq_neg_one_mul`: on the extended reals `0 - x = (-1) * x`, at the infinities too.
* `div_add_self_two_mul`: on the extended reals `(T + T) / (2 c) = T / c` for a positive real `c`, at the infinities too.
* `cmpi_sge_ofNat`: the signed comparison `a + 0 ≥ b` of two 32-bit words that hold naturals below `2^31` is the
  comparison of the naturals.
-/

noncomputable section

namespace Cert.LibPairSums

open Idealize.ShloMosaic

/-- The sum of a symmetric `f` over the ordered pairs `i ≠ j` is the sum over the pairs `i < j` taken twice. -/
theorem sum_ne_eq_sum_lt_add_sum_lt {ι M : Type*} [Fintype ι] [LinearOrder ι] [AddCommMonoid M] (f : ι → ι → M)
    (hf : ∀ i j, f i j = f j i) :
    (∑ i : ι, ∑ j : ι, if i ≠ j then f i j else 0)
      = (∑ i : ι, ∑ j : ι, if i < j then f i j else 0) + (∑ i : ι, ∑ j : ι, if i < j then f i j else 0) := by
  have split : ∀ i j : ι, (if i ≠ j then f i j else 0)
      = (if i < j then f i j else 0) + (if j < i then f i j else 0) := by
    intro i j
    rcases lt_trichotomy i j with h | h | h
    · rw [if_pos (ne_of_lt h), if_pos h, if_neg (not_lt_of_gt h), add_zero]
    · subst h
      rw [if_neg (fun h => h rfl), if_neg (lt_irrefl _), add_zero]
    · rw [if_pos (ne_of_gt h), if_neg (not_lt_of_gt h), if_pos h, zero_add]
  have swap : (∑ i : ι, ∑ j : ι, if j < i then f i j else 0) = ∑ i : ι, ∑ j : ι, if i < j then f i j else 0 := by
    rw [Finset.sum_comm]
    refine Finset.sum_congr rfl fun i _ => Finset.sum_congr rfl fun j _ => ?_
    rw [hf j i]
  simp only [split, Finset.sum_add_distrib, swap]

/-- Subtracting from zero is multiplying by `-1`, on every extended real. -/
theorem zero_sub_eq_neg_one_mul (x : EReal) : (0 : EReal) - x = ((-1 : ℝ) : EReal) * x := by
  rw [sub_eq_add_neg, zero_add, EReal.coe_neg, EReal.coe_one, neg_one_mul]

/-- Dividing `T + T` by `2 c` is dividing `T` by `c`, for a positive real `c` and every extended real `T`. -/
theorem div_add_self_two_mul (T : EReal) {c : ℝ} (hc : 0 < c) :
    Ideal.div (T + T) ((2 * c : ℝ) : EReal) = Ideal.div T (c : EReal) := by
  have h2c : (0 : ℝ) < 1 / (2 * c) := by positivity
  have h1c : (0 : ℝ) < 1 / c := by positivity
  rw [Ideal.div_coe (by positivity), Ideal.div_coe (ne_of_gt hc)]
  induction T using EReal.rec with
  | bot => rw [EReal.bot_add, EReal.bot_mul_coe_of_pos h2c, EReal.bot_mul_coe_of_pos h1c]
  | coe r =>
    rw [← EReal.coe_add, ← EReal.coe_mul, ← EReal.coe_mul]
    congr 1
    field_simp
    ring
  | top => rw [EReal.top_add_top, EReal.top_mul_coe_of_pos h2c, EReal.top_mul_coe_of_pos h1c]

/-- For naturals below `2^31`, the signed comparison `a + 0 ≥ b` of the 32-bit words that hold them is `b ≤ a`. -/
theorem cmpi_sge_ofNat (a b : Nat) (ha : a < 2147483648) (hb : b < 2147483648) :
    IntOp.cmpi .sge (IntOp.addi (BitVec.ofNat 32 a) 0#32) (BitVec.ofNat 32 b) = if b ≤ a then 1#1 else 0#1 := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  unfold IntOp.cmpi IntOp.addi
  rw [BitVec.add_zero]
  show BitVec.ofBool ((BitVec.ofNat 32 b).sle (BitVec.ofNat 32 a)) = _
  rw [BitVec.sle_eq_decide, ea, eb]
  by_cases h : b ≤ a
  · rw [if_pos h, decide_eq_true (by exact_mod_cast h)]; rfl
  · rw [if_neg h, decide_eq_false (by exact_mod_cast h)]; rfl

end Cert.LibPairSums

end
-- ==== Proof.RefValue.lean ====
import proofs.«107562_j37151467110996_1_alg».proof.Proof.Gen.ReferenceIdeal.Read
import proofs.«107562_j37151467110996_1_alg».proof.Proof.Spec
import proofs.«107562_j37151467110996_1_alg».proof.Proof.Consts
import proofs.«107562_j37151467110996_1_alg».proof.Proof.LibPairSums

/-!
The reference program computes `Cert.Spec.loss` of its two argument arrays, over the extended reals.

The reference's arrangement differs from the specification's in three places. It sums `exp (-d(i,j))` over the pairs
`i < j` only (through a mask built from two index arrays) and divides by the number `8192·8191/2` of such pairs, where
the specification sums over all ordered pairs `i ≠ j` and divides by `8192·8191`: the pair term is symmetric, so the
second sum is twice the first, and `(T + T) / (2c) = T / c` on every extended real. It writes `-d` as `(-1)·d` where the
specification has `0 - d`. And every sum starts from the word `+0.0`.
-/

noncomputable section

namespace Cert.RefValue

open Cert.ReferenceIdeal Cert.ReferenceIdeal.Read Idealize.ShloMosaic Idealize.ShloMosaic.ValueIdx Cert.Spec

/-- An argument array of the reference. -/
abbrev Arr : Type := (⟨S8192x512, .f32⟩ : BufTy).Contents (Elt Ideal)

/-- The entries of an argument array by row and column. -/
def rows (x : Arr) : Fin 8192 → Fin 512 → EReal := fun r k => x (ix2 r k)

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Fintype.sum_equiv (⟨ix1, fun i => i 0, fun _ => rfl, fun i => (eq_ix1 i).symm⟩ : Fin n ≃ (⟨1, ![n]⟩ : Shape).Idx)
    _ _ fun _ => rfl).symm

/-! ## The index functions of the layout operations, at literal coordinates -/

theorem idx_rowsum (a : Fin 8192) (k : Fin 512) : idx_main_v5 (ix1 a) k = ix2 a k :=
  funext fun d => Fin.ext (by match d with | ⟨0, _⟩ => rfl | ⟨1, _⟩ => rfl)
theorem idx_rowdiff (a : Fin 8192) (k : Fin 512) : idx_main_call0_v1 (ix1 a) k = ix2 a k :=
  funext fun d => Fin.ext (by match d with | ⟨0, _⟩ => rfl | ⟨1, _⟩ => rfl)
theorem idx_col (a b : Fin 8192) : idx_main_v6 (idx_main_v8 (ix2 a b)) = ix1 a :=
  funext fun d => Fin.ext (by match d with | ⟨0, _⟩ => rfl)
theorem idx_row (a b : Fin 8192) : idx_main_v7 (idx_main_v9 (ix2 a b)) = ix1 b :=
  funext fun d => Fin.ext (by match d with | ⟨0, _⟩ => rfl)
theorem idx_dot_l (a b : Fin 8192) (k : Fin 512) : lidx_main_v12 (ix2 a b) k = ix2 a k :=
  funext fun d => Fin.ext (by match d with | ⟨0, _⟩ => rfl | ⟨1, _⟩ => rfl)
theorem idx_dot_r (a b : Fin 8192) (k : Fin 512) : idx_main_v11 (ridx_main_v12 (ix2 a b) k) = ix2 b k :=
  funext fun d => Fin.ext (by match d with | ⟨0, _⟩ => rfl | ⟨1, _⟩ => rfl)

/-! ## The alignment term -/

/-- The distance between row `a` of the two arrays. -/
theorem v1_at (x0 x1 : Arr) (a : Fin 8192) :
    val_main_v1 (F := Ideal) x0 x1 (ix1 a)
      = Ideal.sqrt (∑ k : Fin 512, (rows x0 a k - rows x1 a k) * (rows x0 a k - rows x1 a k)) := by
  rw [val_main_v1_apply, val_main_call0_v1_apply, val_main_call0_cst_apply, Ideal.ofBits_def, Ideal.ofBits_zero_f32,
    zero_add, Ideal.hostUnary_sqrt_def]
  refine congrArg Ideal.sqrt (Finset.sum_congr rfl fun k _ => ?_)
  rw [val_main_call0_v0_apply, val_main_v0_apply, idx_rowdiff]
  rfl

/-- The sum of the row distances. -/
theorem v2_at (x0 x1 : Arr) (i : S_.Idx) : val_main_v2 (F := Ideal) x0 x1 i = alignSum (rows x0) (rows x1) := by
  rw [val_main_v2_apply, val_main_cst_apply, Ideal.ofBits_def, Ideal.ofBits_zero_f32, zero_add, sum_idx1]
  exact Finset.sum_congr rfl fun a _ => v1_at x0 x1 a

/-! ## The uniformity term of one array -/

/-- The squared length of row `a`. -/
theorem v5_at (x : Arr) (a : Fin 8192) : val_main_v5 (F := Ideal) x (ix1 a) = sqn (rows x) a := by
  rw [val_main_v5_apply, val_main_cst_1_apply, Ideal.ofBits_def, Ideal.ofBits_zero_f32, zero_add]
  refine Finset.sum_congr rfl fun k _ => ?_
  rw [val_main_v4_apply, idx_rowsum]
  rfl

/-- The inner product of rows `a` and `b`: the second factor is read through the transpose. -/
theorem v12_at (x : Arr) (a b : Fin 8192) : val_main_v12 (F := Ideal) x (ix2 a b) = gram (rows x) a b := by
  rw [val_main_v12_apply]
  refine Finset.sum_congr rfl fun k _ => ?_
  rw [val_main_v11_apply, idx_dot_l, idx_dot_r]
  rfl

/-- The clamped squared distance of rows `a` and `b`. -/
theorem v17_at (x : Arr) (a b : Fin 8192) :
    val_main_v17 (F := Ideal) x (ix2 a b) = max ((sqn (rows x) a + sqn (rows x) b) - w2 * gram (rows x) a b) w0 := by
  rw [val_main_v17_apply, val_main_v15_apply, val_main_v10_apply, val_main_v8_apply, val_main_v6_apply, idx_col, v5_at,
    val_main_v9_apply, val_main_v7_apply, idx_row, v5_at, val_main_v14_apply, val_main_v13_apply, val_main_cst_2_apply,
    v12_at, val_main_v16_apply, val_main_cst_3_apply]
  rfl

/-- The mask holds exactly above the diagonal: both coordinates are below `8192`, so the signed comparison of the
    32-bit words is the comparison of the coordinates. -/
theorem v19_at (a b : Fin 8192) : val_main_v19 (F := Ideal) (ix2 a b) = if a < b then 1#1 else 0#1 := by
  rw [val_main_v19_apply, val_main_call1_v4_apply, val_main_call1_v2_apply, val_main_call1_v0_apply,
    val_main_call1_v1_apply, val_main_call1_c_apply, val_main_call1_v3_apply, val_main_call1_v5_apply,
    val_main_call1_c_0_apply, val_main_v18_apply, val_main_c_apply]
  show Scalar.select (IntOp.cmpi .sge (IntOp.addi (BitVec.ofNat 32 a.val) 0#32) (BitVec.ofNat 32 b.val)) 0#1 1#1 = _
  have ha := a.isLt
  have hb := b.isLt
  rw [Cert.LibPairSums.cmpi_sge_ofNat a.val b.val (by omega) (by omega)]
  by_cases h : a < b
  · rw [if_pos h, if_neg (by rw [Fin.lt_def] at h; omega), select_zero]
  · rw [if_neg h, if_pos (by rw [Fin.lt_def] at h; omega), select_one]

/-- The masked pair term: `exp (-d(a,b))` above the diagonal, zero elsewhere. -/
theorem v25_at (x : Arr) (a b : Fin 8192) :
    val_main_v25 (F := Ideal) x (ix2 a b) = if a < b then pairTerm (rows x) a b else 0 := by
  rw [val_main_v25_apply, v19_at, val_main_v24_apply, val_main_v23_apply, val_main_v22_apply, val_main_cst_5_apply,
    val_main_v21_apply, val_main_v20_apply, v19_at, v17_at, val_main_call3_v1_apply, val_main_call3_v0_apply,
    val_main_cst_6_apply, Ideal.ofBits_def, Ideal.ofBits_def, Ideal.ofBits_zero_f32, Cert.Consts.ofBits_neg_one,
    Ideal.hostUnary_exp_def, Ideal.hostUnary_sqrt_def, Ideal.mulf_def]
  by_cases h : a < b
  · rw [if_pos h, if_pos h, select_one, select_one, ← Cert.LibPairSums.zero_sub_eq_neg_one_mul, ← Cert.Consts.w0_eq]
    rfl
  · rw [if_neg h, if_neg h, select_zero]

/-- The sum of the masked pair terms over the whole square is the sum over the pairs above the diagonal. -/
theorem v26_at (x : Arr) (i : S_.Idx) :
    val_main_v26 (F := Ideal) x i
      = ∑ a : Fin 8192, ∑ b : Fin 8192, if a < b then pairTerm (rows x) a b else 0 := by
  rw [val_main_v26_apply, val_main_cst_7_apply, Ideal.ofBits_def, Ideal.ofBits_zero_f32, zero_add, sum_idx2]
  exact Finset.sum_congr rfl fun a _ => Finset.sum_congr rfl fun b _ => v25_at x a b

/-- The pair term is symmetric. -/
theorem pairTerm_symm (z : Fin 8192 → Fin 512 → EReal) (i j : Fin 8192) : pairTerm z i j = pairTerm z j i := by
  have hg : gram z i j = gram z j i := Finset.sum_congr rfl fun k _ => mul_comm _ _
  unfold pairTerm
  rw [hg, add_comm (sqn z i)]

/-- The sum over the ordered pairs of distinct rows is twice the sum over the pairs above the diagonal. -/
theorem neqSum_eq (z : Fin 8192 → Fin 512 → EReal) :
    neqSum z = (∑ a : Fin 8192, ∑ b : Fin 8192, if a < b then pairTerm z a b else 0)
      + (∑ a : Fin 8192, ∑ b : Fin 8192, if a < b then pairTerm z a b else 0) := by
  unfold neqSum
  rw [Cert.Consts.w0_eq]
  exact Cert.LibPairSums.sum_ne_eq_sum_lt_add_sum_lt (pairTerm z) (pairTerm_symm z)

/-- The logarithm of the mean pair term. -/
theorem v28_at (x : Arr) (i : S_.Idx) :
    val_main_v28 (F := Ideal) x i = Ideal.log (Ideal.div (neqSum (rows x)) wPairs2) := by
  rw [val_main_v28_apply, val_main_v27_apply, v26_at, val_main_cst_8_apply, Ideal.ofBits_def, Cert.Consts.ofBits_pairs,
    neqSum_eq, Cert.Consts.wPairs2_eq, Cert.LibPairSums.div_add_self_two_mul _ (by norm_num), Ideal.hostUnary_log_def,
    Ideal.hostDivf_def]

/-- The second array goes through a copy of the same operations. -/
theorem v53_eq (x : Arr) : val_main_v53 (F := Ideal) x = val_main_v28 (F := Ideal) x := rfl

/-! ## The whole -/

/-- The reference's result is the loss of the two arrays. -/
theorem ref_eq_loss (x0 x1 : (⟨Cert.ReferenceIdeal.S8192x512, .f32⟩ : Idealize.ShloMosaic.BufTy).Contents (Idealize.ShloMosaic.Elt Idealize.ShloMosaic.Ideal)) (i : Cert.ReferenceIdeal.S_.Idx) :
    Cert.ReferenceIdeal.Read.val_main_v56 (F := Idealize.ShloMosaic.Ideal) x0 x1 i
      = Cert.Spec.loss (fun r k => x0 (Idealize.ShloMosaic.ValueIdx.ix2 r k)) (fun r k => x1 (Idealize.ShloMosaic.ValueIdx.ix2 r k)) := by
  rw [val_main_v56_apply, val_main_v3_apply, v2_at, val_main_cst_0_apply, val_main_v55_apply, val_main_cst_18_apply,
    val_main_v54_apply, v28_at, v53_eq, v28_at]
  rfl

end Cert.RefValue

end
-- ==== Proof.Algebraic.lean ====
import proofs.«107562_j37151467110996_1_alg».proof.Defs
import proofs.«107562_j37151467110996_1_alg».proof.Proof.Tail
import proofs.«107562_j37151467110996_1_alg».proof.Proof.RefValue
import proofs.«107562_j37151467110996_1_alg».proof.Proof.Gen.ReferenceIdeal.Run
import proofs.«107562_j37151467110996_1_alg».proof.Proof.Gen.ReferenceIdeal.Read

/-! The two idealized programs end with equal results: the kernel's program ends at the loss of its two argument arrays (the three
regions' values through the last host stretch), the reference's run ends at its composed term, which is the same loss of the same
arrays — the pair sums taken over all ordered pairs of distinct rows against twice the number of unordered pairs, or over the pairs in
order against that number. -/

noncomputable section

namespace Cert.Proof

open Idealize.ShloMosaic Idealize.ShloMosaic.TcCoe Idealize.SL.Sem

/-- Given the three regions' values, the algebraic claim. -/
theorem algebraic_of
    [Cert.KernelIdeal.Facts] [Cert.ReferenceIdeal.Facts] [Cert.Pre_finite_inputs.Facts]
    (h0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (y : Cert.KernelIdeal.S1x1.Idx),
      (Cert.KernelIdeal.Hand.dat0 (F := Ideal) V c).arrAt 2 Cert.KernelIdeal.cfg0.N y = Cert.Spec.neqSum (fun r k => V c Cert.KernelIdeal.main_v0 (ValueIdx.ix2 r k)))
    (h1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (y : Cert.KernelIdeal.S1x1.Idx),
      (Cert.KernelIdeal.Hand.dat1 (F := Ideal) V c).arrAt 2 Cert.KernelIdeal.cfg1.N y = Cert.Spec.neqSum (fun r k => V c Cert.KernelIdeal.main_v1 (ValueIdx.ix2 r k)))
    (h2 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (y : Cert.KernelIdeal.S1x1.Idx),
      (Cert.KernelIdeal.Hand.dat2 (F := Ideal) V c).arrAt 2 Cert.KernelIdeal.cfg2.N y = Cert.Spec.alignSum (fun r k => V c Cert.KernelIdeal.main_arg0 (ValueIdx.ix2 r k)) (fun r k => V c Cert.KernelIdeal.main_arg1 (ValueIdx.ix2 r k))) :
    Cert.algebraic_KernelIdeal_ReferenceIdeal := by
  intro m ρ m' ρ' _ hagree
  refine ⟨fun c => fun _ => Cert.Spec.loss (Cert.KernelIdeal.Hand.zOf m c) (Cert.KernelIdeal.Hand.zOf' m c), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v15 (by decide))).trans
        (funext fun i => Cert.KernelIdeal.Hand.result_eq m h0 h1 h2 c i)
    · exact (h c _ (Cert.KernelIdeal.Hand.mem_uc Cert.KernelIdeal.main_arg0 (by decide))).trans (Cert.KernelIdeal.Hand.W7_main_arg0 m c)
    · exact (h c _ (Cert.KernelIdeal.Hand.mem_uc Cert.KernelIdeal.main_arg1 (by decide))).trans (Cert.KernelIdeal.Hand.W7_main_arg1 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v56_eq, (hagree c).1, (hagree c).2]
    funext i
    exact Cert.RefValue.ref_eq_loss _ _ i

end Cert.Proof

end
-- ==== Proof.R0Tile.lean ====
import proofs.«107562_j37151467110996_1_alg».proof.Proof.R0Dat
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! Region 0: one column tile of the uniformity body as ONE function, and the body's running sum over the sixteen column tiles.

For the row tile `v4` (512 rows), its squared row lengths `v8` (a column), the global row numbers `v12` and a column
tile `v52` (512 rows of the whole array, starting at row `off`): `tileExp0` is `exp (0 - sqrt (max ((|z_r|² + |z_c|²) - 2⟨z_r, z_c⟩) 0))`
at every (row, column) of the tile pair, `tileMask0` says where the global row number differs from the global column
number `off + c`, and `tileSum0` sums the unmasked entries, first along the rows and then down the column. -/

/-- The pair term on a 512 × 512 tile pair: rows of `v4` against rows of `v52`. -/
def tileExp0 (v4 : FVec F S512x512 .bf16) (v8 : FVec F S512x1 .f32) (v52 : Vec F S512x512 .bf16) : FVec F S512x512 .f32 :=
  have v53 : FVec F S512x512 .bf16 := shapeCast S512x512 v52 shapeCasts_S512x512_S512x512
  have v54 : FVec F S512x512 .f32 := extf .f32 v53 bitsLt_bf16_f32
  have v55 : FVec F S512x512 .f32 := mulf v54 v54
  have v56 : FVec F S512 .f32 := multiReduction .add [1] S512 v55 0x00000000#32 reduces_S512x512_S512 (.inl rfl) rfl
  have v57 : FVec F S512x1 .f32 := shapeCast S512x1 v56 shapeCasts_S512_S512x1
  have v58 : FVec F S512x512 .bf16 := transpose S512x512 [1, 0] v53 transposes_S512x512_p1_0_S512x512
  have cst_17 : FVec F S512x512 .f32 := constant S512x512 .f32 0x00000000#32
  have v59 : FVec F S512x512 .f32 := matmul dot_S512x512_S512x512_S512x512_1_0_0_1_n_n none v4 v58 cst_17
  have v60 : FVec F S1x512 .f32 := transpose S1x512 [1, 0] v57 transposes_S512x1_p1_0_S1x512
  have v61 : FVec F S512x512 .f32 := broadcastTo S512x512 v8 broadcasts_S512x1_S512x512
  have v62 : FVec F S512x512 .f32 := broadcastTo S512x512 v60 broadcasts_S1x512_S512x512
  have v63 : FVec F S512x512 .f32 := addf v61 v62
  have cst_18 : F .f32 := Scalar.ofBits .f32 0x40000000#32
  have v64 : FVec F S512x512 .f32 := broadcast S512x512 cst_18
  have v65 : FVec F S512x512 .f32 := mulf v64 v59
  have v66 : FVec F S512x512 .f32 := subf v63 v65
  have cst_19 : F .f32 := Scalar.ofBits .f32 0x00000000#32
  have v67 : FVec F S512x512 .f32 := broadcast S512x512 cst_19
  have v68 : FVec F S512x512 .f32 := maximumf v66 v67
  have v69 : FVec F S512x512 .f32 := sqrt v68
  have cst_20 : F .f32 := Scalar.ofBits .f32 0x00000000#32
  have v70 : FVec F S512x512 .f32 := broadcast S512x512 cst_20
  have v71 : FVec F S512x512 .f32 := subf v70 v69
  have v72 : FVec F S512x512 .f32 := exp v71
  v72

/-- Where the global row number differs from the global column number `off + c`. -/
def tileMask0 (v12 : IVec S512x512 32) (off : BitVec 32) : IVec S512x512 1 :=
  have v73 : IVec S512x512 32 := iota .tc S512x512 32 [1] iota_S512x512_d1_w32
  have v74 : IVec S512x512 32 := broadcast S512x512 off
  have v75 : IVec S512x512 32 := addi v74 v73
  have v76 : IVec S512x512 1 := cmpi .ne v12 v75
  v76

/-- The sum of the unmasked entries of a 512 × 512 tile: along each row, then down the column. -/
def tileSum0 (v76 : IVec S512x512 1) (v72 : FVec F S512x512 .f32) : FVec F S1x1 .f32 :=
  have cst_21 : F .f32 := Scalar.ofBits .f32 0x00000000#32
  have v77 : FVec F S512x512 .f32 := broadcast S512x512 cst_21
  have v78 : FVec F S512x512 .f32 := select v76 v72 v77
  have v79 : FVec F S512 .f32 := multiReduction .add [1] S512 v78 0x00000000#32 reduces_S512x512_S512 (.inl rfl) rfl
  have v80 : FVec F S512x1 .f32 := shapeCast S512x1 v79 shapeCasts_S512_S512x1
  have v81 : FVec F S1 .f32 := multiReduction .add [0] S1 v80 0x00000000#32 reduces_S512x1_S1 (.inl rfl) rfl
  have v82 : FVec F S1x1 .f32 := shapeCast S1x1 v81 shapeCasts_S1_S1x1
  v82

/-- One column tile's contribution. -/
def tile0 (v4 : FVec F S512x512 .bf16) (v8 : FVec F S512x1 .f32) (v12 : IVec S512x512 32) (off : BitVec 32)
    (v52 : Vec F S512x512 .bf16) : FVec F S1x1 .f32 :=
  tileSum0 (tileMask0 v12 off) (tileExp0 v4 v8 v52)

/-- The running sum over the first `n` column tiles, from the zero the body starts it at. -/
def colSum0 (v4 : FVec F S512x512 .bf16) (v8 : FVec F S512x1 .f32) (v12 : IVec S512x512 32)
    (L : Fin 16 → Vec F S512x512 .bf16) : (n : ℕ) → n ≤ 16 → FVec F S1x1 .f32
  | 0, _ => k0_pay5
  | n + 1, h => addf (colSum0 v4 v8 v12 L n (Nat.le_of_succ_le h)) (tile0 v4 v8 v12 (BitVec.ofNat 32 (n * 512)) (L ⟨n, h⟩))

/-- Column tile `j` of the whole array lies inside it. -/
theorem inb0 (j : Fin 16) : ∀ a, (![512 * j.val, 0] : Fin 2 → Nat) a + S512x512.size a ≤ S8192x512.size a := by
  intro a
  have hj := j.isLt
  match a with
  | ⟨0, _⟩ => show 512 * j.val + 512 ≤ 8192; omega
  | ⟨1, _⟩ => show 0 + 512 ≤ 512; omega

/-- Column tile `j` of the whole array: its rows `512 j …`. -/
def ctile0 (x1 : Vec F S8192x512 .bf16) (j : Fin 16) : Vec F S512x512 .bf16 :=
  View.ld x1 (Rect.unit (s := S8192x512) ![512 * j.val, 0] S512x512.size (inb0 j))

theorem hz0 : (![0, 0] : Fin 2 → Nat) = fun _ => 0 := funext fun a => by fin_cases a <;> rfl

end Cert.KernelIdeal.Hand

end
-- ==== Proof.R0Pieces.lean ====
import proofs.«107562_j37151467110996_1_alg».proof.Proof.R0Tile
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! Region 0: what the body leaves in the output's staging buffer, read off the pieces its run found: the previous contents
(at the first row tile, the zero just stored) plus the running sum over the sixteen column tiles. The found payloads are
the same operations as `colSum0`'s, cut at other places. -/

set_option maxHeartbeats 4000000 in
/-- A later row tile: the previous contents plus the sum over the column tiles. -/
theorem out0_B_2_eq (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond0 i)
    (x0 : Vec F S512x512 .bf16) (x1 : Vec F S8192x512 .bf16) (xo2 : Vec F S1x1 .f32) :
    out0_B_2 c i arg1 harg1 arg2 harg2 arg3 harg3 hc0 x0 x1 xo2
      = addf (shapeCast S1x1 xo2 shapeCasts_S1x1_S1x1) (colSum0 (k0_pay2 x0) (k0_pay3 x0) (k0_pay4 i) (ctile0 x1) 16 (Nat.le_refl 16)) := by
  unfold out0_B_2
  rw [View.read_writes_junk_eq_canon]
  unfold kernelRun0_B
  dsimp only
  sl_unfold_run_names
  rw [View.canon_unit_zero hz0]
  simp only [View.readAt_eq_ld, harg1.read_unread, harg2.read_unread, harg3.read_unread, View.ld_unit_zero (S := S512x512) hz0, View.ld_unit_zero (S := S1x1) hz0]
  rfl

set_option maxHeartbeats 4000000 in
/-- The first row tile: the zero just stored plus the sum over the column tiles. -/
theorem out0_A_2_eq (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond0 i)
    (x0 : Vec F S512x512 .bf16) (x1 : Vec F S8192x512 .bf16) :
    out0_A_2 c i arg1 harg1 arg2 harg2 arg3 harg3 hc0 x0 x1
      = addf (shapeCast S1x1 (k0_pay1 (F := F)) shapeCasts_S1x1_S1x1) (colSum0 (k0_pay2 x0) (k0_pay3 x0) (k0_pay4 i) (ctile0 x1) 16 (Nat.le_refl 16)) := by
  unfold out0_A_2
  rw [View.read_writes_junk_eq_canon]
  unfold kernelRun0_A
  dsimp only
  sl_unfold_words
  rw [View.canon_cons_unit_zero (S := S1x1) hz0, View.readCov_unit_zero (S := S1x1) _ hz0]
  simp only [View.readAt_eq_ld, harg1.read_unread, harg2.read_unread, View.ld_unit_zero (S := S512x512) hz0]
  rfl

end Cert.KernelIdeal.Hand

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibRowReduce.lean ====
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.RowReduce

open Idealize.ShloMosaic Idealize.ShloMosaic.ValueIdx

variable {α : Type} {a b : Nat}

/-! ## A column kept as a unit axis -/

/-- A vector of length `a` cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value kept as a column and broadcast back over the row is, at `(p, c)`, the value of row `p`. -/
theorem keepdims_apply (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A reduction along the rows of a matrix -/

/-- The index of row `p` with the column `k` put back. -/
theorem lift_ix1 (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- Over the extended reals the sum along each row, at row `p`, is the sum of the row's entries. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- Over the extended reals the maximum along each row, at row `p`, is the fold of `max` over the row's entries from the
    value the reduction starts at. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (Finset.fold max (FloatOps.ofBits φ acc) · (Finset.univ : Finset (Fin b)))
      (funext fun k => congrArg src (lift_ix1 h p k)))

end Idealize.ShloMosaic.RowReduce

end
-- ==== Proof.LibLayoutIx.lean ====
/-
  Layout operations of small literal ranks read at an index whose coordinates are named (ValueIdx's ix1, ix2, ix3):
  a scalar broadcast anywhere, a vector as a column or a row, a column or a row repeated, a transposition of two or
  three axes, a one-column array flattened, one column sliced out, two columns set side by side, three equal bands of
  columns set side by side.  Each is the library's read-at-an-index lemma with the operand's index chosen.
-/
import Idealize.ShloMosaic.Lib.Pipeline.Value
import Idealize.ShloMosaic.Lib.ValueIdx

noncomputable section

namespace Idealize.ShloMosaic.LayoutIx

open Idealize.ShloMosaic Idealize.ShloMosaic.ValueIdx

variable {α : Type}

/-- A scalar broadcast to any shape reads the scalar everywhere. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry (n, k) is entry n. -/
theorem bcast_col {N : Nat} (dims : Fin 1 → Fin 2) (hd : dims 0 = 0)
    (h : (⟨1, ![N]⟩ : Shape).BroadcastsInDim ⟨2, ![N, 1]⟩ dims) (x : (⟨1, ![N]⟩ : Shape).Idx → α) (n : Fin N) (k : Fin 1) :
    broadcastInDim ⟨2, ![N, 1]⟩ dims h x (ix2 n k) = x (ix1 n) := by
  refine broadcastInDim_apply (s := ⟨1, ![N]⟩) (t := ⟨2, ![N, 1]⟩) dims h x (ix2 n k) (ix1 n) (fun a => ?_)
  obtain rfl : a = 0 := Subsingleton.elim _ _
  rw [hd]
  show n.val = if N = 1 then 0 else n.val
  split
  · have := n.isLt; omega
  · rfl

/-- A vector made a row: entry (k, n) is entry n. -/
theorem bcast_row {N : Nat} (dims : Fin 1 → Fin 2) (hd : dims 0 = 1)
    (h : (⟨1, ![N]⟩ : Shape).BroadcastsInDim ⟨2, ![1, N]⟩ dims) (x : (⟨1, ![N]⟩ : Shape).Idx → α) (n : Fin N) (k : Fin 1) :
    broadcastInDim ⟨2, ![1, N]⟩ dims h x (ix2 k n) = x (ix1 n) := by
  refine broadcastInDim_apply (s := ⟨1, ![N]⟩) (t := ⟨2, ![1, N]⟩) dims h x (ix2 k n) (ix1 n) (fun a => ?_)
  obtain rfl : a = 0 := Subsingleton.elim _ _
  rw [hd]
  show n.val = if N = 1 then 0 else n.val
  split
  · have := n.isLt; omega
  · rfl

/-- A row repeated down C rows: entry (c, n) is entry (0, n). -/
theorem bcast_rows {C N : Nat} (dims : Fin 2 → Fin 2) (hd0 : dims 0 = 0) (hd1 : dims 1 = 1)
    (h : (⟨2, ![1, N]⟩ : Shape).BroadcastsInDim ⟨2, ![C, N]⟩ dims) (x : (⟨2, ![1, N]⟩ : Shape).Idx → α) (c : Fin C) (n : Fin N) :
    broadcastInDim ⟨2, ![C, N]⟩ dims h x (ix2 c n) = x (ix2 (0 : Fin 1) n) := by
  refine broadcastInDim_apply (s := ⟨2, ![1, N]⟩) (t := ⟨2, ![C, N]⟩) dims h x (ix2 c n) (ix2 (0 : Fin 1) n) (fun a => ?_)
  match a with
  | ⟨0, _⟩ =>
    show (0 : Nat) = if (1 : Nat) = 1 then 0 else _
    rw [if_pos rfl]
  | ⟨1, _⟩ =>
    show n.val = if N = 1 then 0 else ((ix2 c n) (dims 1)).val
    rw [hd1]
    split
    · have := n.isLt; omega
    · rfl

/-- A column repeated across C columns: entry (n, c) is entry (n, 0). -/
theorem bcast_cols {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (n : Fin N) (c : Fin C) :
    broadcastInDim ⟨2, ![N, C]⟩ dims h x (ix2 n c) = x (ix2 n (0 : Fin 1)) := by
  refine broadcastInDim_apply (s := ⟨2, ![N, 1]⟩) (t := ⟨2, ![N, C]⟩) dims h x (ix2 n c) (ix2 n (0 : Fin 1)) (fun a => ?_)
  match a with
  | ⟨0, _⟩ =>
    show n.val = if N = 1 then 0 else ((ix2 n c) (dims 0)).val
    rw [hd0]
    split
    · have := n.isLt; omega
    · rfl
  | ⟨1, _⟩ =>
    show (0 : Nat) = if (1 : Nat) = 1 then 0 else _
    rw [if_pos rfl]

/-- Two axes exchanged: entry (n, c) of the result is entry (c, n). -/
theorem transpose_two {C N : Nat} (h : (⟨2, ![C, N]⟩ : Shape).Transposes [1, 0] ⟨2, ![N, C]⟩)
    (x : (⟨2, ![C, N]⟩ : Shape).Idx → α) (n : Fin N) (c : Fin C) :
    transpose ⟨2, ![N, C]⟩ [1, 0] x h (ix2 n c) = x (ix2 c n) := by
  refine transpose_apply [1, 0] x h _ (ix2 c n) (fun b => ?_)
  match b with
  | ⟨0, _⟩ => rfl
  | ⟨1, _⟩ => rfl

/-- The first axis moved last: entry (h, w, c) of the result is entry (c, h, w). -/
theorem transpose_first_last {C H W : Nat} (h : (⟨3, ![C, H, W]⟩ : Shape).Transposes [1, 2, 0] ⟨3, ![H, W, C]⟩)
    (x : (⟨3, ![C, H, W]⟩ : Shape).Idx → α) (a : Fin H) (b : Fin W) (c : Fin C) :
    transpose ⟨3, ![H, W, C]⟩ [1, 2, 0] x h (ix3 a b c) = x (ix3 c a b) := by
  refine transpose_apply [1, 2, 0] x h _ (ix3 c a b) (fun d => ?_)
  match d with
  | ⟨0, _⟩ => rfl
  | ⟨1, _⟩ => rfl
  | ⟨2, _⟩ => rfl

/-- The same with the permutation a variable known to be the exchange (the form a rewriting pass can use). -/
theorem transpose_two' {C N : Nat} (perm : List (Fin 2)) (hp : perm = [1, 0])
    (h : (⟨2, ![C, N]⟩ : Shape).Transposes perm ⟨2, ![N, C]⟩)
    (x : (⟨2, ![C, N]⟩ : Shape).Idx → α) (n : Fin N) (c : Fin C) :
    transpose ⟨2, ![N, C]⟩ perm x h (ix2 n c) = x (ix2 c n) := by
  subst hp; exact transpose_two h x n c

/-- The same with the permutation a variable known to be the rotation. -/
theorem transpose_first_last' {C H W : Nat} (perm : List (Fin 3)) (hp : perm = [1, 2, 0])
    (h : (⟨3, ![C, H, W]⟩ : Shape).Transposes perm ⟨3, ![H, W, C]⟩)
    (x : (⟨3, ![C, H, W]⟩ : Shape).Idx → α) (a : Fin H) (b : Fin W) (c : Fin C) :
    transpose ⟨3, ![H, W, C]⟩ perm x h (ix3 a b c) = x (ix3 c a b) := by
  subst hp; exact transpose_first_last h x a b c

/-- A one-column array flattened: entry n is entry (n, 0). -/
theorem flatten_col {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h _ (ix2 n (0 : Fin 1)) ?_
  rw [Shape.rowMajor_val_two, Shape.rowMajor_val_one]
  show n.val * 1 + 0 = n.val
  omega

/-- One column sliced out of K: entry (n, 0) of the slice at column offset o is entry (n, o). -/
theorem slice_col {N K : Nat} (off : Fin 2 → Nat) (o : Fin K) (h0 : off 0 = 0) (h1 : off 1 = o.val)
    (h : (⟨2, ![N, K]⟩ : Shape).Slices off ⟨2, ![N, 1]⟩) (x : (⟨2, ![N, K]⟩ : Shape).Idx → α) (n : Fin N) (k : Fin 1) :
    extractStridedSlice ⟨2, ![N, 1]⟩ off x h (ix2 n k) = x (ix2 n o) := by
  refine extractStridedSlice_apply off x h _ (ix2 n o) (fun a => ?_)
  match a with
  | ⟨0, _⟩ => show n.val = off 0 + n.val; omega
  | ⟨1, _⟩ => show o.val = off 1 + k.val; have := k.isLt; omega

/-- Two one-column arrays set side by side: column 0 is the first ... -/
theorem concat_cols_left {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) := by
  refine concatenate_pair_apply_left (t := ⟨2, ![N, 2]⟩) (s₁ := ⟨2, ![N, 1]⟩) (s₂ := ⟨2, ![N, 1]⟩) 1 a b h (ix2 n (0 : Fin 2)) rfl
    (ix2 n (0 : Fin 1)) (fun d => ?_)
  match d with
  | ⟨0, _⟩ => rfl
  | ⟨1, _⟩ => rfl

/-- ... and column 1 is the second. -/
theorem concat_cols_right {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) := by
  refine concatenate_pair_apply_right (t := ⟨2, ![N, 2]⟩) (s₁ := ⟨2, ![N, 1]⟩) (s₂ := ⟨2, ![N, 1]⟩) 1 a b h (ix2 n (1 : Fin 2)) rfl rfl
    (ix2 n (0 : Fin 1)) (fun d hd => ?_) rfl
  match d with
  | ⟨0, _⟩ => rfl
  | ⟨1, _⟩ => exact absurd rfl hd

/-- Three arrays of K columns set side by side: column K q + k of the result is column k of the q-th. -/
theorem concat3_apply {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (q : Fin 3) (k : Fin K)
    (hj : j.val = K * q.val + k.val) :
    concatenate ⟨2, ![N, M]⟩ 1 [⟨⟨2, ![N, K]⟩, a⟩, ⟨⟨2, ![N, K]⟩, b⟩, ⟨⟨2, ![N, K]⟩, c⟩] h (ix2 n j)
      = (match q with | 0 => a | 1 => b | 2 => c) (ix2 n k) := by
  have hi : ∀ d : Fin 2, d.cast (rfl : (2 : Nat) = 2) ≠ (1 : Fin 2) → ((ix2 n k) d).val = ((ix2 n j) (d.cast rfl)).val := by
    intro d hd
    match d with
    | ⟨0, _⟩ => rfl
    | ⟨1, _⟩ => exact absurd rfl hd
  match q with
  | 0 =>
    refine concatenate_apply_piece (t := ⟨2, ![N, M]⟩) 1 [⟨⟨2, ![N, K]⟩, a⟩, ⟨⟨2, ![N, K]⟩, b⟩, ⟨⟨2, ![N, K]⟩, c⟩] h (ix2 n j) 0 (by show (0 : Nat) < 3; omega) ⟨2, ![N, K]⟩ a rfl rfl 0 rfl (ix2 n k) hi ?_
    show 0 + k.val = j.val
    simp at hj; omega
  | 1 =>
    refine concatenate_apply_piece (t := ⟨2, ![N, M]⟩) 1 [⟨⟨2, ![N, K]⟩, a⟩, ⟨⟨2, ![N, K]⟩, b⟩, ⟨⟨2, ![N, K]⟩, c⟩] h (ix2 n j) 1 (by show (1 : Nat) < 3; omega) ⟨2, ![N, K]⟩ b rfl rfl K (by simp) (ix2 n k) hi ?_
    show K + k.val = j.val
    simp at hj; omega
  | 2 =>
    refine concatenate_apply_piece (t := ⟨2, ![N, M]⟩) 1 [⟨⟨2, ![N, K]⟩, a⟩, ⟨⟨2, ![N, K]⟩, b⟩, ⟨⟨2, ![N, K]⟩, c⟩] h (ix2 n j) 2 (by show (2 : Nat) < 3; omega) ⟨2, ![N, K]⟩ c rfl rfl (K + K) (by simp) (ix2 n k) hi ?_
    show K + K + k.val = j.val
    simp at hj; omega

/-! ## The elementwise operations on words and the host's rounding, at an index (all by definition) -/

section Pointwise
variable {F : FTy → Type} [FloatOps F] {s : Shape} {φ : FTy} {w : Nat}

theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem minsi_apply (a b : IVec s w) (i : s.Idx) : minsi a b i = IntOp.minsi (a i) (b i) := rfl
theorem fptosi_apply (v : Nat) (a : FVec F s φ) (i : s.Idx) : fptosi v a i = FloatOps.fptosi v (a i) := rfl
theorem hostFloor_apply (a : FVec F s φ) (i : s.Idx) : Host.floor a i = FloatOps.hostUnary .floor (a i) := rfl
theorem constantI_apply (b : BitVec w) (i : s.Idx) : constantI s w b i = b := rfl

end Pointwise

end Idealize.ShloMosaic.LayoutIx

end
-- ==== Proof.R0TileValue.lean ====
import proofs.«107562_j37151467110996_1_alg».proof.Proof.R0Tile
import proofs.«107562_j37151467110996_1_alg».proof.Proof.LibPlainMatmul
import proofs.«107562_j37151467110996_1_alg».proof.Proof.LibRowReduce
import proofs.«107562_j37151467110996_1_alg».proof.Proof.LibLayoutIx
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

open Idealize.ShloMosaic.ValueIdx

/-! Region 0 over the extended reals: one column tile's contribution read at its one index, as a double sum over the
rows of the row tile and the rows of the column tile. -/

/-! ## The non-pointwise operations of the tile at literal shapes -/

theorem rowSum0 (src : FVec Ideal S512x512 .f32) (p : Fin 512) :
    multiReduction .add [1] S512 src 0x00000000#32 reduces_S512x512_S512 (.inl rfl) rfl (ix1 p) = ∑ k : Fin 512, src (ix2 p k) :=
  RowReduce.rowSum_apply src _ _ _ _ p

theorem colCast0 {α : Type} (x : S512.Idx → α) (p : Fin 512) (u : Fin 1) :
    shapeCast S512x1 x shapeCasts_S512_S512x1 (ix2 p u) = x (ix1 p) :=
  RowReduce.shapeCast_a_a1_apply x _ p u

theorem trans0 {α : Type} (x : S512x512.Idx → α) (n c : Fin 512) :
    transpose S512x512 [1, 0] x transposes_S512x512_p1_0_S512x512 (ix2 n c) = x (ix2 c n) :=
  LayoutIx.transpose_two _ x n c

theorem transCol0 {α : Type} (x : S512x1.Idx → α) (u : Fin 1) (c : Fin 512) :
    transpose S1x512 [1, 0] x transposes_S512x1_p1_0_S1x512 (ix2 u c) = x (ix2 c u) :=
  LayoutIx.transpose_two _ x u c

theorem bcastCol0 {α : Type} (v : S512x1.Idx → α) (p c : Fin 512) :
    broadcastTo S512x512 v broadcasts_S512x1_S512x512 (ix2 p c) = v (ix2 p (0 : Fin 1)) :=
  RowReduce.broadcastTo_a1_ab_apply v _ p c

theorem bcastRow0 {α : Type} (v : S1x512.Idx → α) (p c : Fin 512) :
    broadcastTo S512x512 v broadcasts_S1x512_S512x512 (ix2 p c) = v (ix2 (0 : Fin 1) c) :=
  broadcastTo_1b_ab_apply v _ p c

theorem matmul0 (lhs rhs : FVec Ideal S512x512 .bf16) (p q : Fin 512) :
    matmul dot_S512x512_S512x512_S512x512_1_0_0_1_n_n none lhs rhs (constant S512x512 .f32 0x00000000#32) (ix2 p q)
      = ∑ k : Fin 512, lhs (ix2 p k) * rhs (ix2 k q) :=
  PlainMatmul.matmul_zero_apply _ none lhs rhs p q

/-- The inner products of the rows of one tile with the rows of another: the second factor is read through the transpose. -/
theorem gram0 (lhs x : FVec Ideal S512x512 .bf16) (p q : Fin 512) :
    matmul dot_S512x512_S512x512_S512x512_1_0_0_1_n_n none lhs (transpose S512x512 [1, 0] x transposes_S512x512_p1_0_S512x512)
        (constant S512x512 .f32 0x00000000#32) (ix2 p q)
      = ∑ k : Fin 512, lhs (ix2 p k) * x (ix2 q k) :=
  (matmul0 lhs _ p q).trans (Finset.sum_congr rfl fun k _ => by rw [trans0])

theorem exp_apply0 (x : FVec Ideal S512x512 .f32) (i : S512x512.Idx) : exp x i = Ideal.exp (x i) := rfl
theorem sqrt_apply0 (x : FVec Ideal S512x512 .f32) (i : S512x512.Idx) : sqrt x i = Ideal.sqrt (x i) := rfl

/-- The pair term at row `r` of the row tile and row `cc` of the column tile. -/
theorem tileExp0_apply (v4 : FVec Ideal S512x512 .bf16) (v8 : FVec Ideal S512x1 .f32) (v52 : Vec Ideal S512x512 .bf16) (r cc : Fin 512) :
    tileExp0 v4 v8 v52 (ix2 r cc)
      = Ideal.exp (Ideal.ofBits .f32 0x00000000#32 - Ideal.sqrt (max
          ((v8 (ix2 r (0 : Fin 1)) + ∑ k : Fin 512, v52 (ix2 cc k) * v52 (ix2 cc k))
            - Ideal.ofBits .f32 0x40000000#32 * ∑ k : Fin 512, v4 (ix2 r k) * v52 (ix2 cc k))
          (Ideal.ofBits .f32 0x00000000#32))) := by
  unfold tileExp0
  simp only [exp_apply0, sqrt_apply0, subf_apply, maximumf_apply, addf_apply, mulf_apply, broadcast_apply]
  rw [bcastCol0, bcastRow0, transCol0, colCast0, rowSum0, gram0]
  simp only [mulf_apply, extf_apply, shapeCast_self]
  rfl

/-! ## The mask and the sum -/

theorem iotaCol0 (r cc : Fin 512) : iota .tc S512x512 32 [1] iota_S512x512_d1_w32 (ix2 r cc) = BitVec.ofNat 32 cc.val :=
  iota_single_apply .tc S512x512 32 1 _ (ix2 r cc)
theorem iotaRow0 (r cc : Fin 512) : iota .tc S512x512 32 [0] iota_S512x512_d0_w32 (ix2 r cc) = BitVec.ofNat 32 r.val :=
  iota_single_apply .tc S512x512 32 0 _ (ix2 r cc)

/-- The mask at row `r` of the row tile and row `cc` of the column tile compares the row's global number with `off + cc`. -/
theorem tileMask0_apply (v12 : IVec S512x512 32) (off : BitVec 32) (r cc : Fin 512) :
    tileMask0 v12 off (ix2 r cc) = IntOp.cmpi .ne (v12 (ix2 r cc)) (IntOp.addi off (BitVec.ofNat 32 cc.val)) := by
  unfold tileMask0
  show IntOp.cmpi .ne (v12 (ix2 r cc)) (IntOp.addi off (iota .tc S512x512 32 [1] iota_S512x512_d1_w32 (ix2 r cc))) = _
  rw [iotaCol0]

/-- The global row numbers of row tile `i`. -/
theorem k0_pay4_apply (i : grid0.Coords) (r cc : Fin 512) :
    k0_pay4 i (ix2 r cc) = IntOp.addi (Scalar.muli (BitVec.ofNat 32 (i 0).val) 512#32) (BitVec.ofNat 32 r.val) := by
  unfold k0_pay4
  show IntOp.addi (Scalar.muli (BitVec.ofNat 32 (i 0).val) 512#32) (iota .tc S512x512 32 [0] iota_S512x512_d0_w32 (ix2 r cc)) = _
  rw [iotaRow0]

theorem colDown0 (v : FVec Ideal S512x1 .f32) :
    multiReduction .add [0] S1 v 0x00000000#32 reduces_S512x1_S1 (.inl rfl) rfl (ix1 (0 : Fin 1)) = ∑ r : Fin 512, v (ix2 r (0 : Fin 1)) :=
  (Ideal.multiReduction_add_single v _ reduces_S512x1_S1 _ _ (ix1 (0 : Fin 1))).trans
    (Finset.sum_congr rfl fun k _ => congrArg v (funext fun a => Fin.ext (by
      match a with
      | ⟨0, _⟩ => rfl
      | ⟨1, _⟩ => rfl)))

theorem cast11_0 {α : Type} (x : S1.Idx → α) (y : S1x1.Idx) : shapeCast S1x1 x shapeCasts_S1_S1x1 y = x (ix1 (0 : Fin 1)) :=
  shapeCast_apply x _ y (ix1 (0 : Fin 1)) (by
    rw [Shape.rowMajor_val_one, Shape.rowMajor_val_two]
    have h0 : (y 0).val < 1 := (y 0).isLt
    have h1 : (y 1).val < 1 := (y 1).isLt
    show 0 = (y 0).val * 1 + (y 1).val
    omega)

/-- The sum of the unmasked entries, at the result's one index. -/
theorem tileSum0_apply (m : IVec S512x512 1) (e : FVec Ideal S512x512 .f32) (y : S1x1.Idx) :
    tileSum0 m e y = ∑ r : Fin 512, ∑ cc : Fin 512, Scalar.select (m (ix2 r cc)) (e (ix2 r cc)) (Ideal.ofBits .f32 0x00000000#32) := by
  unfold tileSum0
  rw [cast11_0, colDown0]
  refine Finset.sum_congr rfl fun r _ => ?_
  rw [colCast0, rowSum0]
  rfl

/-- One column tile's contribution, at the result's one index. -/
theorem tile0_apply (v4 : FVec Ideal S512x512 .bf16) (v8 : FVec Ideal S512x1 .f32) (v12 : IVec S512x512 32) (off : BitVec 32)
    (v52 : Vec Ideal S512x512 .bf16) (y : S1x1.Idx) :
    tile0 v4 v8 v12 off v52 y
      = ∑ r : Fin 512, ∑ cc : Fin 512, Scalar.select (IntOp.cmpi .ne (v12 (ix2 r cc)) (IntOp.addi off (BitVec.ofNat 32 cc.val)))
          (Ideal.exp (Ideal.ofBits .f32 0x00000000#32 - Ideal.sqrt (max
            ((v8 (ix2 r (0 : Fin 1)) + ∑ k : Fin 512, v52 (ix2 cc k) * v52 (ix2 cc k))
              - Ideal.ofBits .f32 0x40000000#32 * ∑ k : Fin 512, v4 (ix2 r k) * v52 (ix2 cc k))
            (Ideal.ofBits .f32 0x00000000#32))))
          (Ideal.ofBits .f32 0x00000000#32) := by
  unfold tile0
  rw [tileSum0_apply]
  refine Finset.sum_congr rfl fun r _ => Finset.sum_congr rfl fun cc _ => ?_
  rw [tileMask0_apply, tileExp0_apply]

/-- The squared lengths of the rows of the row tile, kept as a column. -/
theorem k0_pay3_apply (v3 : Vec Ideal S512x512 .bf16) (r : Fin 512) (u : Fin 1) :
    k0_pay3 v3 (ix2 r u) = ∑ k : Fin 512, v3 (ix2 r k) * v3 (ix2 r k) := by
  unfold k0_pay3 k0_pay2
  rw [colCast0, rowSum0]
  simp only [mulf_apply, extf_apply, shapeCast_self]

theorem k0_pay2_eq (v3 : Vec Ideal S512x512 .bf16) : k0_pay2 v3 = v3 := by
  unfold k0_pay2
  exact shapeCast_self v3 _

end Cert.KernelIdeal.Hand

end
-- ==== Proof.LibBlockSum.lean ====
/-
  Regrouping a finite sum into consecutive blocks.

  A sum over the `a * b` indices `0 … a*b - 1` is the sum, over the `a` blocks, of the sum of the `b` consecutive
  entries of each block: entry `j` of block `k` is index `k * b + j`. Only commutativity and associativity of the
  addition are used, so the law holds in every additive commutative monoid — in particular on the extended reals,
  where no finiteness of the summands is needed.
-/
import Mathlib.Algebra.BigOperators.Fin
import Mathlib.Logic.Equiv.Fin.Basic

namespace Cert.LibBlockSum

open Finset

/-- Index `k * b + j` of entry `j` in block `k`, as an index below `a * b`. -/
def blockIx (a b : ℕ) (k : Fin a) (j : Fin b) : Fin (a * b) :=
  ⟨k.val * b + j.val, by
    have hk : k.val + 1 ≤ a := k.isLt
    have hj := j.isLt
    calc k.val * b + j.val < k.val * b + b := Nat.add_lt_add_left hj _
      _ = (k.val + 1) * b := (Nat.succ_mul _ _).symm
      _ ≤ a * b := Nat.mul_le_mul_right b hk⟩

@[simp] theorem blockIx_val (a b : ℕ) (k : Fin a) (j : Fin b) : (blockIx a b k j).val = k.val * b + j.val := rfl

/-- A sum over `a * b` consecutive indices is the sum over the `a` blocks of the `b` entries of each. -/
theorem sum_blocks {M : Type*} [AddCommMonoid M] (a b : ℕ) (f : Fin (a * b) → M) :
    ∑ i : Fin (a * b), f i = ∑ k : Fin a, ∑ j : Fin b, f (blockIx a b k j) := by
  rw [← Fintype.sum_prod_type' (f := fun k j => f (blockIx a b k j))]
  refine (Equiv.sum_comp (finProdFinEquiv (m := a) (n := b)) f).symm.trans ?_
  refine Finset.sum_congr rfl fun p _ => congrArg f (Fin.ext ?_)
  simp [finProdFinEquiv, blockIx_val, Nat.mul_comm, Nat.add_comm]

/-- The same with the blocks enumerated by a range of naturals — the form a fold over consecutive steps produces. `g` is
    the per-block summand as a function of every natural; only its values at the `a` block numbers matter. -/
theorem sum_range_blocks {M : Type*} [AddCommMonoid M] (a b : ℕ) (f : Fin (a * b) → M) (g : ℕ → M)
    (hg : ∀ k : Fin a, g k.val = ∑ j : Fin b, f (blockIx a b k j)) :
    ∑ s ∈ Finset.range a, g s = ∑ i : Fin (a * b), f i := by
  rw [Finset.sum_range, sum_blocks]
  exact Finset.sum_congr rfl fun k _ => hg k

/-- The same for an index type `Fin n` whose length is given as a number with `a * b = n` (so that a literal length such as
    16384 need not be rewritten as a product): entry `j` of block `k` is index `k * b + j`. -/
theorem sum_range_blocks_of_eq {M : Type*} [AddCommMonoid M] (a b n : ℕ) (hn : a * b = n) (f : Fin n → M) (g : ℕ → M)
    (hg : ∀ k : Fin a, g k.val = ∑ j : Fin b, f ⟨k.val * b + j.val, hn ▸ (blockIx a b k j).isLt⟩) :
    ∑ s ∈ Finset.range a, g s = ∑ i : Fin n, f i := by
  subst hn
  exact sum_range_blocks a b f g hg

end Cert.LibBlockSum
-- ==== Proof.LibTileSums.lean ====
import Idealize.ShloMosaic.PureOps.Ideal
import proofs.«107562_j37151467110996_1_alg».proof.Proof.LibBlockSum

/-!
Sums over the rows of an array cut into 16 tiles of 512 rows, and the comparison of two global row numbers held in
32-bit words.

* `rowIx t r`: row `r` of tile `t` is row `512 t + r` of the array.
* `sum_rows_eq_sum_tiles`: a sum over the 8192 rows is the sum over the 16 tiles of the sum over the tile's 512 rows, in
  every additive commutative monoid.
* `sum_lt_succ`: the sum of the first `n + 1` of sixteen terms is the sum of the first `n` plus term `n`.
* `cmpi_ne_rows`: the word comparison `t·512 + r ≠ (j·512) + c` of global row numbers below `8192` is the comparison of
  the numbers.
-/

noncomputable section

namespace Cert.LibTileSums

open Idealize.ShloMosaic

/-- Row `r` of tile `t` as a row of the whole array. -/
def rowIx (t : Fin 16) (r : Fin 512) : Fin 8192 :=
  ⟨t.val * 512 + r.val, by have := t.isLt; have := r.isLt; omega⟩

@[simp] theorem rowIx_val (t : Fin 16) (r : Fin 512) : (rowIx t r).val = t.val * 512 + r.val := rfl

/-- A sum over the rows of the array is the sum over the tiles of the sums over each tile's rows. -/
theorem sum_rows_eq_sum_tiles {M : Type*} [AddCommMonoid M] (f : Fin 8192 → M) :
    ∑ a : Fin 8192, f a = ∑ t : Fin 16, ∑ r : Fin 512, f (rowIx t r) :=
  Cert.LibBlockSum.sum_blocks 16 512 f

/-- The first `n + 1` of sixteen terms: the first `n`, and term `n`. -/
theorem sum_lt_succ {M : Type*} [AddCommMonoid M] (f : Fin 16 → M) (n : ℕ) (h : n < 16) :
    (∑ j : Fin 16, if j.val < n + 1 then f j else 0) = (∑ j : Fin 16, if j.val < n then f j else 0) + f ⟨n, h⟩ := by
  have split : ∀ j : Fin 16, (if j.val < n + 1 then f j else 0)
      = (if j.val < n then f j else 0) + (if j = ⟨n, h⟩ then f j else 0) := by
    intro j
    by_cases h1 : j.val < n
    · rw [if_pos h1, if_pos (by omega), if_neg (fun e => by rw [e] at h1; exact lt_irrefl _ h1), add_zero]
    · by_cases h2 : j = ⟨n, h⟩
      · rw [if_neg h1, if_pos h2, if_pos (by rw [h2]; exact Nat.lt_succ_self n), zero_add]
      · have h3 : j.val ≠ n := fun e => h2 (Fin.ext e)
        rw [if_neg h1, if_neg h2, if_neg (by omega), add_zero]
  simp only [split, Finset.sum_add_distrib, Finset.sum_ite_eq', Finset.mem_univ, if_true]

/-- All sixteen terms. -/
theorem sum_lt_sixteen {M : Type*} [AddCommMonoid M] (f : Fin 16 → M) :
    (∑ j : Fin 16, if j.val < 16 then f j else 0) = ∑ j : Fin 16, f j :=
  Finset.sum_congr rfl fun j _ => if_pos j.isLt

/-- The word comparison of two global row numbers is the comparison of the numbers: nothing wraps below `8192`. -/
theorem cmpi_ne_rows (t j : Fin 16) (r c : Fin 512) :
    IntOp.cmpi .ne (IntOp.addi (Scalar.muli (BitVec.ofNat 32 t.val) 512#32) (BitVec.ofNat 32 r.val))
        (IntOp.addi (BitVec.ofNat 32 (j.val * 512)) (BitVec.ofNat 32 c.val))
      = if rowIx t r ≠ rowIx j c then 1#1 else 0#1 := by
  have ht := t.isLt; have hj := j.isLt; have hr := r.isLt; have hc := c.isLt
  have e1 : IntOp.addi (Scalar.muli (BitVec.ofNat 32 t.val) 512#32) (BitVec.ofNat 32 r.val) = BitVec.ofNat 32 (t.val * 512 + r.val) := by
    show BitVec.ofNat 32 t.val * 512#32 + BitVec.ofNat 32 r.val = _
    apply BitVec.eq_of_toNat_eq
    simp only [BitVec.toNat_add, BitVec.toNat_mul, BitVec.toNat_ofNat]
    omega
  have e2 : IntOp.addi (BitVec.ofNat 32 (j.val * 512)) (BitVec.ofNat 32 c.val) = BitVec.ofNat 32 (j.val * 512 + c.val) := by
    show BitVec.ofNat 32 (j.val * 512) + BitVec.ofNat 32 c.val = _
    apply BitVec.eq_of_toNat_eq
    simp only [BitVec.toNat_add, BitVec.toNat_ofNat]
    omega
  rw [e1, e2]
  have key : (BitVec.ofNat 32 (t.val * 512 + r.val) = BitVec.ofNat 32 (j.val * 512 + c.val)) ↔ rowIx t r = rowIx j c := by
    constructor
    · intro h
      have h' := congrArg BitVec.toNat h
      simp only [BitVec.toNat_ofNat] at h'
      exact Fin.ext (by simp only [rowIx_val]; omega)
    · intro h
      have h' := congrArg Fin.val h
      simp only [rowIx_val] at h'
      rw [h']
  unfold IntOp.cmpi
  show BitVec.ofBool (BitVec.ofNat 32 (t.val * 512 + r.val) != BitVec.ofNat 32 (j.val * 512 + c.val)) = _
  by_cases h : rowIx t r = rowIx j c
  · rw [if_neg (not_not.mpr h), key.mpr h]; simp
  · rw [if_pos h]
    have hne : BitVec.ofNat 32 (t.val * 512 + r.val) ≠ BitVec.ofNat 32 (j.val * 512 + c.val) := fun e => h (key.mp e)
    rw [bne_iff_ne.mpr hne]
    rfl

end Cert.LibTileSums

end
-- ==== Proof.TileSpec.lean ====
import proofs.«107562_j37151467110996_1_alg».proof.Proof.Spec
import proofs.«107562_j37151467110996_1_alg».proof.Proof.LibTileSums

/-!
The sum of the pair terms over the ordered pairs of distinct rows, cut into 16 × 16 tiles of 512 × 512 pairs: the sum over
the row tiles of the sums over the column tiles of the tile sums is `Cert.Spec.neqSum`.
-/

noncomputable section

namespace Cert.TileSpec

open Idealize.ShloMosaic Cert.Spec Cert.LibTileSums

/-- The summand of `neqSum` at a pair of rows. -/
def pairG (z : Fin 8192 → Fin 512 → EReal) (a b : Fin 8192) : EReal := if a ≠ b then pairTerm z a b else w0

/-- The sum over the pairs of row tile `t` and column tile `j`. -/
def tileVal (z : Fin 8192 → Fin 512 → EReal) (t j : Fin 16) : EReal :=
  ∑ r : Fin 512, ∑ cc : Fin 512, pairG z (rowIx t r) (rowIx j cc)

/-- The sum over row tile `t` against every column tile. -/
def rowTileVal (z : Fin 8192 → Fin 512 → EReal) (t : Fin 16) : EReal := ∑ j : Fin 16, tileVal z t j

/-- The tile sums add up to the sum over all ordered pairs of distinct rows. -/
theorem sum_rowTileVal (z : Fin 8192 → Fin 512 → EReal) : ∑ t : Fin 16, rowTileVal z t = neqSum z := by
  unfold neqSum rowTileVal tileVal
  rw [sum_rows_eq_sum_tiles]
  refine Finset.sum_congr rfl fun t _ => ?_
  rw [Finset.sum_comm]
  refine Finset.sum_congr rfl fun r _ => ?_
  rw [sum_rows_eq_sum_tiles]
  rfl

end Cert.TileSpec

end
-- ==== Proof.R0Value.lean ====
import proofs.«107562_j37151467110996_1_alg».proof.Proof.R0Pieces
import proofs.«107562_j37151467110996_1_alg».proof.Proof.R0TileValue
import proofs.«107562_j37151467110996_1_alg».proof.Proof.TileSpec
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx Cert.LibTileSums Cert.TileSpec

variable {F : FTy → Type} [FloatOps F]

/-! Region 0: what its result array ends holding. The output's staging buffer holds, after row tile `n`, the sum over the
row tiles up to `n` of the sums over the sixteen column tiles; the one write-back, after the last row tile, writes that to
the one-element result array; and over the extended reals the sum of all the tile sums is the sum of the pair terms
over the ordered pairs of distinct rows. -/

section
variable (V : (c : Dev nD) → (b : Ref sig .tc) → Buf (Elt F) ((c : Thread nD τ).loc b))

/-- The running sum after the last row tile, as contents of the result array (its one block is the array). -/
abbrev result0 (c : Dev nD) : Buf (Elt F) ((c : Thread nD τ).loc main_v2) :=
  outsAt0 V c 15 (by rw [show cfg0.N = 16 from N_0]; decide)

/-- The one write-back, at the last point, writes it. -/
theorem flushed0_eq (c : Dev nD) (t : Fin cfg0.N) (hf : (cfg0.win 2).flush t = true) :
    (dat0 V c).flushed 2 t = ((cfg0.win 2).blk t).view.read (Elt F) (result0 V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2]
  have hz' : (fun a => win0_2.index t0_15 a * main_v2.ty.shape.size a) = fun _ => 0 := funext fun a => by fin_cases a <;> decide
  exact (Memref.read_access_unit_zero (Elt F) main_v2 hz' (fun a => by rw [congrFun hz' a]; simp) (result0 V c)).symm

/-- So the result array ends holding the running sum after the last row tile. -/
theorem final0 (c : Dev nD) : (dat0 V c).arrAt 2 cfg0.N = result0 V c :=
  (dat0 V c).arrAt_eq_of_cover 2 (result0 V c) (flushed0_eq V c) fun i =>
    ⟨t0_15, (flush0_2 t0_15).mpr rfl, by
      show i ∈ ((View.whole main_v2).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

end

/-! ## Over the extended reals -/

section
variable (V : (c : Dev nD) → (b : Ref sig .tc) → Buf (Elt Ideal) ((c : Thread nD τ).loc b))

/-- The array's entries by row and column. -/
def zrows0 (c : Dev nD) : Fin 8192 → Fin 512 → EReal := fun r k => V c main_v0 (ix2 r k)

/-- The row tile's block index is the grid point, and the whole array's is zero. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem coord0_0 : ∀ t : Fin cfg0.N, ((grid0.coords t) 0).val = t.val :=
  (by decide +kernel : ∀ t : Fin grid0.N, ((grid0.coords t) 0).val = t.val)

/-- Row `r` of the row tile at point `t` is row `512 t + r` of the array. -/
theorem iblk0_0_apply (c : Dev nD) (t : Fin cfg0.N) (t' : Fin 16) (ht : t'.val = t.val) (r k : Fin 512) :
    (iblk0 V c 0 t : Vec Ideal S512x512 .bf16) (ix2 r k) = zrows0 V c (rowIx t' r) k := by
  have hi := idx0_0 t
  unfold iblk0 zrows0
  rw [View.read_apply]
  show V c main_v0 _ = V c main_v0 _
  congr 1
  funext d
  apply Fin.ext
  match d with
  | ⟨0, _⟩ => show win0_0.index t 0 * 512 + 1 * r.val = t'.val * 512 + r.val; rw [hi.1, ht]; omega
  | ⟨1, _⟩ => show win0_0.index t 1 * 512 + 1 * k.val = k.val; rw [hi.2]; omega

/-- The second window holds the whole array at every point. -/
theorem iblk0_1_apply (c : Dev nD) (t : Fin cfg0.N) (a : Fin 8192) (k : Fin 512) :
    (iblk0 V c 1 t : Vec Ideal S8192x512 .bf16) (ix2 a k) = zrows0 V c a k := by
  have hi := idx0_1 t
  unfold iblk0 zrows0
  rw [View.read_apply]
  show V c main_v0 _ = V c main_v0 _
  congr 1
  funext d
  apply Fin.ext
  match d with
  | ⟨0, _⟩ => show win0_1.index t 0 * 8192 + 1 * a.val = a.val; rw [hi.1]; omega
  | ⟨1, _⟩ => show win0_1.index t 1 * 512 + 1 * k.val = k.val; rw [hi.2]; omega

/-- Row `cc` of column tile `j` is row `512 j + cc` of the array. -/
theorem ctile0_apply (x1 : Vec Ideal S8192x512 .bf16) (j : Fin 16) (cc k : Fin 512) :
    ctile0 x1 j (ix2 cc k) = x1 (ix2 (rowIx j cc) k) := by
  unfold ctile0
  show x1 _ = x1 _
  congr 1
  funext d
  apply Fin.ext
  match d with
  | ⟨0, _⟩ => show 512 * j.val + 1 * cc.val = j.val * 512 + cc.val; omega
  | ⟨1, _⟩ => show 0 + 1 * k.val = k.val; omega

/-- One column tile's contribution at row tile `t` is the tile sum of the pair terms. -/
theorem tile0_val (c : Dev nD) (t : Fin cfg0.N) (t' : Fin 16) (ht : t'.val = t.val) (j : Fin 16) (y : S1x1.Idx) :
    tile0 (k0_pay2 (iblk0 V c 0 t)) (k0_pay3 (iblk0 V c 0 t)) (k0_pay4 (grid0.coords t)) (BitVec.ofNat 32 (j.val * 512))
        (ctile0 (iblk0 V c 1 t) j) y
      = tileVal (zrows0 V c) t' j := by
  rw [tile0_apply]
  unfold tileVal
  refine Finset.sum_congr rfl fun r _ => Finset.sum_congr rfl fun cc _ => ?_
  rw [k0_pay4_apply, k0_pay3_apply, k0_pay2_eq, coord0_0 t, ← ht, cmpi_ne_rows t' j r cc]
  simp only [ctile0_apply, iblk0_0_apply V c t t' ht, iblk0_1_apply]
  unfold pairG
  by_cases h : rowIx t' r = rowIx j cc
  · rw [if_neg (not_not.mpr h), if_neg (not_not.mpr h), select_zero]; rfl
  · rw [if_pos h, if_pos h, select_one]; rfl

/-- The running sum over the first `n` column tiles at row tile `t`. -/
theorem colSum0_val (c : Dev nD) (t : Fin cfg0.N) (t' : Fin 16) (ht : t'.val = t.val) (y : S1x1.Idx) : ∀ (n : ℕ) (h : n ≤ 16),
    colSum0 (k0_pay2 (iblk0 V c 0 t)) (k0_pay3 (iblk0 V c 0 t)) (k0_pay4 (grid0.coords t)) (ctile0 (iblk0 V c 1 t)) n h y
      = ∑ j : Fin 16, if j.val < n then tileVal (zrows0 V c) t' j else 0
  | 0, _ => by
    show k0_pay5 (F := Ideal) y = _
    simp only [Nat.not_lt_zero, if_false, Finset.sum_const_zero]
    unfold k0_pay5
    exact Ideal.ofBits_zero_f32
  | n + 1, h => by
    show colSum0 _ _ _ _ n _ y + tile0 _ _ _ (BitVec.ofNat 32 (n * 512)) (ctile0 (iblk0 V c 1 t) ⟨n, h⟩) y = _
    rw [colSum0_val c t t' ht y n, tile0_val V c t t' ht ⟨n, h⟩ y, sum_lt_succ _ n h]

/-- The output's staging buffer after row tile `n`: the sum over the row tiles up to `n`. -/
theorem outsAt0_val (c : Dev nD) (y : S1x1.Idx) : ∀ (n : ℕ) (h : n < cfg0.N),
    outsAt0 V c n h y = ∑ t' : Fin 16, if t'.val < n + 1 then rowTileVal (zrows0 V c) t' else 0
  | 0, h => by
    rw [outsAt0_A V c ⟨0, h⟩ rfl, out0_A_2_eq]
    show shapeCast S1x1 (k0_pay1 (F := Ideal)) shapeCasts_S1x1_S1x1 y + colSum0 (F := Ideal) _ _ _ _ 16 _ y = _
    rw [colSum0_val V c ⟨0, h⟩ ⟨0, by omega⟩ rfl y 16 _, sum_lt_sixteen, sum_lt_succ _ 0 (by omega), shapeCast_self]
    simp only [Nat.not_lt_zero, if_false, Finset.sum_const_zero]
    unfold k0_pay1
    show Ideal.ofBits .f32 0x00000000#32 + _ = _
    rw [Ideal.ofBits_zero_f32]
    rfl
  | n + 1, h => by
    have hN : cfg0.N = 16 := N_0
    have hB : ¬(⟨n + 1, h⟩ : Fin cfg0.N).val % 16 = 0 := by dsimp only; omega
    rw [outsAt0_B V c ⟨n + 1, h⟩ hB, out0_B_2_eq]
    show shapeCast S1x1 (outsAt0 V c n _) shapeCasts_S1x1_S1x1 y + colSum0 (F := Ideal) _ _ _ _ 16 _ y = _
    rw [shapeCast_self, outsAt0_val c y n, colSum0_val V c ⟨n + 1, h⟩ ⟨n + 1, by omega⟩ rfl y 16 _, sum_lt_sixteen,
      sum_lt_succ _ (n + 1) (by omega)]
    rfl

end

/-- Region 0's result array ends holding the sum of the pair terms over the ordered pairs of distinct rows of its argument array. -/
theorem r0_value (V : (c : Dev nD) → (b : Ref sig .tc) → Buf (Elt Ideal) ((c : Thread nD τ).loc b)) (c : Dev nD) (y : S1x1.Idx) :
    (dat0 (F := Ideal) V c).arrAt 2 cfg0.N y = Cert.Spec.neqSum (fun r k => V c main_v0 (ValueIdx.ix2 r k)) := by
  rw [final0 V c]
  show outsAt0 V c 15 _ y = _
  rw [outsAt0_val V c y 15 _, sum_lt_sixteen, sum_rowTileVal]
  rfl

end Cert.KernelIdeal.Hand

end
-- ==== Proof.R1Tile.lean ====
import proofs.«107562_j37151467110996_1_alg».proof.Proof.R1Dat
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! Region 1: one column tile of the uniformity body as ONE function, and the body's running sum over the sixteen column tiles.

For the row tile `v4` (512 rows), its squared row lengths `v8` (a column), the global row numbers `v12` and a column
tile `v52` (512 rows of the whole array, starting at row `off`): `tileExp1` is `exp (0 - sqrt (max ((|z_r|² + |z_c|²) - 2⟨z_r, z_c⟩) 0))`
at every (row, column) of the tile pair, `tileMask1` says where the global row number differs from the global column
number `off + c`, and `tileSum1` sums the unmasked entries, first along the rows and then down the column. -/

/-- The pair term on a 512 × 512 tile pair: rows of `v4` against rows of `v52`. -/
def tileExp1 (v4 : FVec F S512x512 .bf16) (v8 : FVec F S512x1 .f32) (v52 : Vec F S512x512 .bf16) : FVec F S512x512 .f32 :=
  have v53 : FVec F S512x512 .bf16 := shapeCast S512x512 v52 shapeCasts_S512x512_S512x512
  have v54 : FVec F S512x512 .f32 := extf .f32 v53 bitsLt_bf16_f32
  have v55 : FVec F S512x512 .f32 := mulf v54 v54
  have v56 : FVec F S512 .f32 := multiReduction .add [1] S512 v55 0x00000000#32 reduces_S512x512_S512 (.inl rfl) rfl
  have v57 : FVec F S512x1 .f32 := shapeCast S512x1 v56 shapeCasts_S512_S512x1
  have v58 : FVec F S512x512 .bf16 := transpose S512x512 [1, 0] v53 transposes_S512x512_p1_0_S512x512
  have cst_17 : FVec F S512x512 .f32 := constant S512x512 .f32 0x00000000#32
  have v59 : FVec F S512x512 .f32 := matmul dot_S512x512_S512x512_S512x512_1_0_0_1_n_n none v4 v58 cst_17
  have v60 : FVec F S1x512 .f32 := transpose S1x512 [1, 0] v57 transposes_S512x1_p1_0_S1x512
  have v61 : FVec F S512x512 .f32 := broadcastTo S512x512 v8 broadcasts_S512x1_S512x512
  have v62 : FVec F S512x512 .f32 := broadcastTo S512x512 v60 broadcasts_S1x512_S512x512
  have v63 : FVec F S512x512 .f32 := addf v61 v62
  have cst_18 : F .f32 := Scalar.ofBits .f32 0x40000000#32
  have v64 : FVec F S512x512 .f32 := broadcast S512x512 cst_18
  have v65 : FVec F S512x512 .f32 := mulf v64 v59
  have v66 : FVec F S512x512 .f32 := subf v63 v65
  have cst_19 : F .f32 := Scalar.ofBits .f32 0x00000000#32
  have v67 : FVec F S512x512 .f32 := broadcast S512x512 cst_19
  have v68 : FVec F S512x512 .f32 := maximumf v66 v67
  have v69 : FVec F S512x512 .f32 := sqrt v68
  have cst_20 : F .f32 := Scalar.ofBits .f32 0x00000000#32
  have v70 : FVec F S512x512 .f32 := broadcast S512x512 cst_20
  have v71 : FVec F S512x512 .f32 := subf v70 v69
  have v72 : FVec F S512x512 .f32 := exp v71
  v72

/-- Where the global row number differs from the global column number `off + c`. -/
def tileMask1 (v12 : IVec S512x512 32) (off : BitVec 32) : IVec S512x512 1 :=
  have v73 : IVec S512x512 32 := iota .tc S512x512 32 [1] iota_S512x512_d1_w32
  have v74 : IVec S512x512 32 := broadcast S512x512 off
  have v75 : IVec S512x512 32 := addi v74 v73
  have v76 : IVec S512x512 1 := cmpi .ne v12 v75
  v76

/-- The sum of the unmasked entries of a 512 × 512 tile: along each row, then down the column. -/
def tileSum1 (v76 : IVec S512x512 1) (v72 : FVec F S512x512 .f32) : FVec F S1x1 .f32 :=
  have cst_21 : F .f32 := Scalar.ofBits .f32 0x00000000#32
  have v77 : FVec F S512x512 .f32 := broadcast S512x512 cst_21
  have v78 : FVec F S512x512 .f32 := select v76 v72 v77
  have v79 : FVec F S512 .f32 := multiReduction .add [1] S512 v78 0x00000000#32 reduces_S512x512_S512 (.inl rfl) rfl
  have v80 : FVec F S512x1 .f32 := shapeCast S512x1 v79 shapeCasts_S512_S512x1
  have v81 : FVec F S1 .f32 := multiReduction .add [0] S1 v80 0x00000000#32 reduces_S512x1_S1 (.inl rfl) rfl
  have v82 : FVec F S1x1 .f32 := shapeCast S1x1 v81 shapeCasts_S1_S1x1
  v82

/-- One column tile's contribution. -/
def tile1 (v4 : FVec F S512x512 .bf16) (v8 : FVec F S512x1 .f32) (v12 : IVec S512x512 32) (off : BitVec 32)
    (v52 : Vec F S512x512 .bf16) : FVec F S1x1 .f32 :=
  tileSum1 (tileMask1 v12 off) (tileExp1 v4 v8 v52)

/-- The running sum over the first `n` column tiles, from the zero the body starts it at. -/
def colSum1 (v4 : FVec F S512x512 .bf16) (v8 : FVec F S512x1 .f32) (v12 : IVec S512x512 32)
    (L : Fin 16 → Vec F S512x512 .bf16) : (n : ℕ) → n ≤ 16 → FVec F S1x1 .f32
  | 0, _ => k1_pay5
  | n + 1, h => addf (colSum1 v4 v8 v12 L n (Nat.le_of_succ_le h)) (tile1 v4 v8 v12 (BitVec.ofNat 32 (n * 512)) (L ⟨n, h⟩))

/-- Column tile `j` of the whole array lies inside it. -/
theorem inb1 (j : Fin 16) : ∀ a, (![512 * j.val, 0] : Fin 2 → Nat) a + S512x512.size a ≤ S8192x512.size a := by
  intro a
  have hj := j.isLt
  match a with
  | ⟨0, _⟩ => show 512 * j.val + 512 ≤ 8192; omega
  | ⟨1, _⟩ => show 0 + 512 ≤ 512; omega

/-- Column tile `j` of the whole array: its rows `512 j …`. -/
def ctile1 (x1 : Vec F S8192x512 .bf16) (j : Fin 16) : Vec F S512x512 .bf16 :=
  View.ld x1 (Rect.unit (s := S8192x512) ![512 * j.val, 0] S512x512.size (inb1 j))

theorem hz1 : (![0, 0] : Fin 2 → Nat) = fun _ => 0 := funext fun a => by fin_cases a <;> rfl

end Cert.KernelIdeal.Hand

end
-- ==== Proof.R1Pieces.lean ====
import proofs.«107562_j37151467110996_1_alg».proof.Proof.R1Tile
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! Region 1: what the body leaves in the output's staging buffer, read off the pieces its run found: the previous contents
(at the first row tile, the zero just stored) plus the running sum over the sixteen column tiles. The found payloads are
the same operations as `colSum1`'s, cut at other places. -/

set_option maxHeartbeats 4000000 in
/-- A later row tile: the previous contents plus the sum over the column tiles. -/
theorem out1_B_2_eq (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : ¬cond1 i)
    (x0 : Vec F S512x512 .bf16) (x1 : Vec F S8192x512 .bf16) (xo2 : Vec F S1x1 .f32) :
    out1_B_2 c i arg1 harg1 arg2 harg2 arg3 harg3 hc0 x0 x1 xo2
      = addf (shapeCast S1x1 xo2 shapeCasts_S1x1_S1x1) (colSum1 (k1_pay2 x0) (k1_pay3 x0) (k1_pay4 i) (ctile1 x1) 16 (Nat.le_refl 16)) := by
  unfold out1_B_2
  rw [View.read_writes_junk_eq_canon]
  unfold kernelRun1_B
  dsimp only
  sl_unfold_run_names
  rw [View.canon_unit_zero hz1]
  simp only [View.readAt_eq_ld, harg1.read_unread, harg2.read_unread, harg3.read_unread, View.ld_unit_zero (S := S512x512) hz1, View.ld_unit_zero (S := S1x1) hz1]
  rfl

set_option maxHeartbeats 4000000 in
/-- The first row tile: the zero just stored plus the sum over the column tiles. -/
theorem out1_A_2_eq (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S1x1 .f32) (harg3 : arg3.IsWhole) (hc0 : cond1 i)
    (x0 : Vec F S512x512 .bf16) (x1 : Vec F S8192x512 .bf16) :
    out1_A_2 c i arg1 harg1 arg2 harg2 arg3 harg3 hc0 x0 x1
      = addf (shapeCast S1x1 (k1_pay1 (F := F)) shapeCasts_S1x1_S1x1) (colSum1 (k1_pay2 x0) (k1_pay3 x0) (k1_pay4 i) (ctile1 x1) 16 (Nat.le_refl 16)) := by
  unfold out1_A_2
  rw [View.read_writes_junk_eq_canon]
  unfold kernelRun1_A
  dsimp only
  sl_unfold_words
  rw [View.canon_cons_unit_zero (S := S1x1) hz1, View.readCov_unit_zero (S := S1x1) _ hz1]
  simp only [View.readAt_eq_ld, harg1.read_unread, harg2.read_unread, View.ld_unit_zero (S := S512x512) hz1]
  rfl

end Cert.KernelIdeal.Hand

end
-- ==== Proof.R1TileValue.lean ====
import proofs.«107562_j37151467110996_1_alg».proof.Proof.R1Tile
import proofs.«107562_j37151467110996_1_alg».proof.Proof.LibPlainMatmul
import proofs.«107562_j37151467110996_1_alg».proof.Proof.LibRowReduce
import proofs.«107562_j37151467110996_1_alg».proof.Proof.LibLayoutIx
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

open Idealize.ShloMosaic.ValueIdx

/-! Region 1 over the extended reals: one column tile's contribution read at its one index, as a double sum over the
rows of the row tile and the rows of the column tile. -/

/-! ## The non-pointwise operations of the tile at literal shapes -/

theorem rowSum1 (src : FVec Ideal S512x512 .f32) (p : Fin 512) :
    multiReduction .add [1] S512 src 0x00000000#32 reduces_S512x512_S512 (.inl rfl) rfl (ix1 p) = ∑ k : Fin 512, src (ix2 p k) :=
  RowReduce.rowSum_apply src _ _ _ _ p

theorem colCast1 {α : Type} (x : S512.Idx → α) (p : Fin 512) (u : Fin 1) :
    shapeCast S512x1 x shapeCasts_S512_S512x1 (ix2 p u) = x (ix1 p) :=
  RowReduce.shapeCast_a_a1_apply x _ p u

theorem trans1 {α : Type} (x : S512x512.Idx → α) (n c : Fin 512) :
    transpose S512x512 [1, 0] x transposes_S512x512_p1_0_S512x512 (ix2 n c) = x (ix2 c n) :=
  LayoutIx.transpose_two _ x n c

theorem transCol1 {α : Type} (x : S512x1.Idx → α) (u : Fin 1) (c : Fin 512) :
    transpose S1x512 [1, 0] x transposes_S512x1_p1_0_S1x512 (ix2 u c) = x (ix2 c u) :=
  LayoutIx.transpose_two _ x u c

theorem bcastCol1 {α : Type} (v : S512x1.Idx → α) (p c : Fin 512) :
    broadcastTo S512x512 v broadcasts_S512x1_S512x512 (ix2 p c) = v (ix2 p (0 : Fin 1)) :=
  RowReduce.broadcastTo_a1_ab_apply v _ p c

theorem bcastRow1 {α : Type} (v : S1x512.Idx → α) (p c : Fin 512) :
    broadcastTo S512x512 v broadcasts_S1x512_S512x512 (ix2 p c) = v (ix2 (0 : Fin 1) c) :=
  broadcastTo_1b_ab_apply v _ p c

theorem matmul1 (lhs rhs : FVec Ideal S512x512 .bf16) (p q : Fin 512) :
    matmul dot_S512x512_S512x512_S512x512_1_0_0_1_n_n none lhs rhs (constant S512x512 .f32 0x00000000#32) (ix2 p q)
      = ∑ k : Fin 512, lhs (ix2 p k) * rhs (ix2 k q) :=
  PlainMatmul.matmul_zero_apply _ none lhs rhs p q

/-- The inner products of the rows of one tile with the rows of another: the second factor is read through the transpose. -/
theorem gram1 (lhs x : FVec Ideal S512x512 .bf16) (p q : Fin 512) :
    matmul dot_S512x512_S512x512_S512x512_1_0_0_1_n_n none lhs (transpose S512x512 [1, 0] x transposes_S512x512_p1_0_S512x512)
        (constant S512x512 .f32 0x00000000#32) (ix2 p q)
      = ∑ k : Fin 512, lhs (ix2 p k) * x (ix2 q k) :=
  (matmul1 lhs _ p q).trans (Finset.sum_congr rfl fun k _ => by rw [trans1])

theorem exp_apply1 (x : FVec Ideal S512x512 .f32) (i : S512x512.Idx) : exp x i = Ideal.exp (x i) := rfl
theorem sqrt_apply1 (x : FVec Ideal S512x512 .f32) (i : S512x512.Idx) : sqrt x i = Ideal.sqrt (x i) := rfl

/-- The pair term at row `r` of the row tile and row `cc` of the column tile. -/
theorem tileExp1_apply (v4 : FVec Ideal S512x512 .bf16) (v8 : FVec Ideal S512x1 .f32) (v52 : Vec Ideal S512x512 .bf16) (r cc : Fin 512) :
    tileExp1 v4 v8 v52 (ix2 r cc)
      = Ideal.exp (Ideal.ofBits .f32 0x00000000#32 - Ideal.sqrt (max
          ((v8 (ix2 r (0 : Fin 1)) + ∑ k : Fin 512, v52 (ix2 cc k) * v52 (ix2 cc k))
            - Ideal.ofBits .f32 0x40000000#32 * ∑ k : Fin 512, v4 (ix2 r k) * v52 (ix2 cc k))
          (Ideal.ofBits .f32 0x00000000#32))) := by
  unfold tileExp1
  simp only [exp_apply1, sqrt_apply1, subf_apply, maximumf_apply, addf_apply, mulf_apply, broadcast_apply]
  rw [bcastCol1, bcastRow1, transCol1, colCast1, rowSum1, gram1]
  simp only [mulf_apply, extf_apply, shapeCast_self]
  rfl

/-! ## The mask and the sum -/

theorem iotaCol1 (r cc : Fin 512) : iota .tc S512x512 32 [1] iota_S512x512_d1_w32 (ix2 r cc) = BitVec.ofNat 32 cc.val :=
  iota_single_apply .tc S512x512 32 1 _ (ix2 r cc)
theorem iotaRow1 (r cc : Fin 512) : iota .tc S512x512 32 [0] iota_S512x512_d0_w32 (ix2 r cc) = BitVec.ofNat 32 r.val :=
  iota_single_apply .tc S512x512 32 0 _ (ix2 r cc)

/-- The mask at row `r` of the row tile and row `cc` of the column tile compares the row's global number with `off + cc`. -/
theorem tileMask1_apply (v12 : IVec S512x512 32) (off : BitVec 32) (r cc : Fin 512) :
    tileMask1 v12 off (ix2 r cc) = IntOp.cmpi .ne (v12 (ix2 r cc)) (IntOp.addi off (BitVec.ofNat 32 cc.val)) := by
  unfold tileMask1
  show IntOp.cmpi .ne (v12 (ix2 r cc)) (IntOp.addi off (iota .tc S512x512 32 [1] iota_S512x512_d1_w32 (ix2 r cc))) = _
  rw [iotaCol1]

/-- The global row numbers of row tile `i`. -/
theorem k1_pay4_apply (i : grid1.Coords) (r cc : Fin 512) :
    k1_pay4 i (ix2 r cc) = IntOp.addi (Scalar.muli (BitVec.ofNat 32 (i 0).val) 512#32) (BitVec.ofNat 32 r.val) := by
  unfold k1_pay4
  show IntOp.addi (Scalar.muli (BitVec.ofNat 32 (i 0).val) 512#32) (iota .tc S512x512 32 [0] iota_S512x512_d0_w32 (ix2 r cc)) = _
  rw [iotaRow1]

theorem colDown1 (v : FVec Ideal S512x1 .f32) :
    multiReduction .add [0] S1 v 0x00000000#32 reduces_S512x1_S1 (.inl rfl) rfl (ix1 (0 : Fin 1)) = ∑ r : Fin 512, v (ix2 r (0 : Fin 1)) :=
  (Ideal.multiReduction_add_single v _ reduces_S512x1_S1 _ _ (ix1 (0 : Fin 1))).trans
    (Finset.sum_congr rfl fun k _ => congrArg v (funext fun a => Fin.ext (by
      match a with
      | ⟨0, _⟩ => rfl
      | ⟨1, _⟩ => rfl)))

theorem cast11_1 {α : Type} (x : S1.Idx → α) (y : S1x1.Idx) : shapeCast S1x1 x shapeCasts_S1_S1x1 y = x (ix1 (0 : Fin 1)) :=
  shapeCast_apply x _ y (ix1 (0 : Fin 1)) (by
    rw [Shape.rowMajor_val_one, Shape.rowMajor_val_two]
    have h0 : (y 0).val < 1 := (y 0).isLt
    have h1 : (y 1).val < 1 := (y 1).isLt
    show 0 = (y 0).val * 1 + (y 1).val
    omega)

/-- The sum of the unmasked entries, at the result's one index. -/
theorem tileSum1_apply (m : IVec S512x512 1) (e : FVec Ideal S512x512 .f32) (y : S1x1.Idx) :
    tileSum1 m e y = ∑ r : Fin 512, ∑ cc : Fin 512, Scalar.select (m (ix2 r cc)) (e (ix2 r cc)) (Ideal.ofBits .f32 0x00000000#32) := by
  unfold tileSum1
  rw [cast11_1, colDown1]
  refine Finset.sum_congr rfl fun r _ => ?_
  rw [colCast1, rowSum1]
  rfl

/-- One column tile's contribution, at the result's one index. -/
theorem tile1_apply (v4 : FVec Ideal S512x512 .bf16) (v8 : FVec Ideal S512x1 .f32) (v12 : IVec S512x512 32) (off : BitVec 32)
    (v52 : Vec Ideal S512x512 .bf16) (y : S1x1.Idx) :
    tile1 v4 v8 v12 off v52 y
      = ∑ r : Fin 512, ∑ cc : Fin 512, Scalar.select (IntOp.cmpi .ne (v12 (ix2 r cc)) (IntOp.addi off (BitVec.ofNat 32 cc.val)))
          (Ideal.exp (Ideal.ofBits .f32 0x00000000#32 - Ideal.sqrt (max
            ((v8 (ix2 r (0 : Fin 1)) + ∑ k : Fin 512, v52 (ix2 cc k) * v52 (ix2 cc k))
              - Ideal.ofBits .f32 0x40000000#32 * ∑ k : Fin 512, v4 (ix2 r k) * v52 (ix2 cc k))
            (Ideal.ofBits .f32 0x00000000#32))))
          (Ideal.ofBits .f32 0x00000000#32) := by
  unfold tile1
  rw [tileSum1_apply]
  refine Finset.sum_congr rfl fun r _ => Finset.sum_congr rfl fun cc _ => ?_
  rw [tileMask1_apply, tileExp1_apply]

/-- The squared lengths of the rows of the row tile, kept as a column. -/
theorem k1_pay3_apply (v3 : Vec Ideal S512x512 .bf16) (r : Fin 512) (u : Fin 1) :
    k1_pay3 v3 (ix2 r u) = ∑ k : Fin 512, v3 (ix2 r k) * v3 (ix2 r k) := by
  unfold k1_pay3 k1_pay2
  rw [colCast1, rowSum1]
  simp only [mulf_apply, extf_apply, shapeCast_self]

theorem k1_pay2_eq (v3 : Vec Ideal S512x512 .bf16) : k1_pay2 v3 = v3 := by
  unfold k1_pay2
  exact shapeCast_self v3 _

end Cert.KernelIdeal.Hand

end
-- ==== Proof.R1Value.lean ====
import proofs.«107562_j37151467110996_1_alg».proof.Proof.R1Pieces
import proofs.«107562_j37151467110996_1_alg».proof.Proof.R1TileValue
import proofs.«107562_j37151467110996_1_alg».proof.Proof.TileSpec
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx Cert.LibTileSums Cert.TileSpec

variable {F : FTy → Type} [FloatOps F]

/-! Region 1: what its result array ends holding. The output's staging buffer holds, after row tile `n`, the sum over the
row tiles up to `n` of the sums over the sixteen column tiles; the one write-back, after the last row tile, writes that to
the one-element result array; and over the extended reals the sum of all the tile sums is the sum of the pair terms
over the ordered pairs of distinct rows. -/

section
variable (V : (c : Dev nD) → (b : Ref sig .tc) → Buf (Elt F) ((c : Thread nD τ).loc b))

/-- The running sum after the last row tile, as contents of the result array (its one block is the array). -/
abbrev result1 (c : Dev nD) : Buf (Elt F) ((c : Thread nD τ).loc main_v4) :=
  outsAt1 V c 15 (by rw [show cfg1.N = 16 from N_1]; decide)

/-- The one write-back, at the last point, writes it. -/
theorem flushed1_eq (c : Dev nD) (t : Fin cfg1.N) (hf : (cfg1.win 2).flush t = true) :
    (dat1 V c).flushed 2 t = ((cfg1.win 2).blk t).view.read (Elt F) (result1 V c) := by
  have hN : cfg1.N = 16 := N_1
  have h15 : t.val = 15 := by have := (flush1_2 t).mp hf; have := t.isLt; omega
  obtain rfl : t = t1_15 := Fin.ext h15
  show (cfg1.win 2).cut (grid1.coords t1_15) ((dat1 V c).after 2 t1_15) = _
  rw [after1_2]
  have hz' : (fun a => win1_2.index t1_15 a * main_v4.ty.shape.size a) = fun _ => 0 := funext fun a => by fin_cases a <;> decide
  exact (Memref.read_access_unit_zero (Elt F) main_v4 hz' (fun a => by rw [congrFun hz' a]; simp) (result1 V c)).symm

/-- So the result array ends holding the running sum after the last row tile. -/
theorem final1 (c : Dev nD) : (dat1 V c).arrAt 2 cfg1.N = result1 V c :=
  (dat1 V c).arrAt_eq_of_cover 2 (result1 V c) (flushed1_eq V c) fun i =>
    ⟨t1_15, (flush1_2 t1_15).mpr rfl, by
      show i ∈ ((View.whole main_v4).slice (win1_2.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_2.index t1_15 0 * win1_2.size 0 ≤ (i 0 : Nat) ∧ (i 0 : Nat) < win1_2.index t1_15 0 * win1_2.size 0 + win1_2.xsize (grid1.coords t1_15) 0
                  rw [show win1_2.index t1_15 0 * win1_2.size 0 = 0 from by decide +kernel, show win1_2.xsize (grid1.coords t1_15) 0 = 1 from by decide +kernel]; omega
      | ⟨1, _⟩ => show win1_2.index t1_15 1 * win1_2.size 1 ≤ (i 1 : Nat) ∧ (i 1 : Nat) < win1_2.index t1_15 1 * win1_2.size 1 + win1_2.xsize (grid1.coords t1_15) 1
                  rw [show win1_2.index t1_15 1 * win1_2.size 1 = 0 from by decide +kernel, show win1_2.xsize (grid1.coords t1_15) 1 = 1 from by decide +kernel]; omega⟩

end

/-! ## Over the extended reals -/

section
variable (V : (c : Dev nD) → (b : Ref sig .tc) → Buf (Elt Ideal) ((c : Thread nD τ).loc b))

/-- The array's entries by row and column. -/
def zrows1 (c : Dev nD) : Fin 8192 → Fin 512 → EReal := fun r k => V c main_v1 (ix2 r k)

/-- The row tile's block index is the grid point, and the whole array's is zero. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = 0 ∧ win1_1.index t 1 = 0 :=
  (by decide +kernel : ∀ t : Fin grid1.N, win1_1.index t 0 = 0 ∧ win1_1.index t 1 = 0)
theorem coord1_0 : ∀ t : Fin cfg1.N, ((grid1.coords t) 0).val = t.val :=
  (by decide +kernel : ∀ t : Fin grid1.N, ((grid1.coords t) 0).val = t.val)

/-- Row `r` of the row tile at point `t` is row `512 t + r` of the array. -/
theorem iblk1_0_apply (c : Dev nD) (t : Fin cfg1.N) (t' : Fin 16) (ht : t'.val = t.val) (r k : Fin 512) :
    (iblk1 V c 0 t : Vec Ideal S512x512 .bf16) (ix2 r k) = zrows1 V c (rowIx t' r) k := by
  have hi := idx1_0 t
  unfold iblk1 zrows1
  rw [View.read_apply]
  show V c main_v1 _ = V c main_v1 _
  congr 1
  funext d
  apply Fin.ext
  match d with
  | ⟨0, _⟩ => show win1_0.index t 0 * 512 + 1 * r.val = t'.val * 512 + r.val; rw [hi.1, ht]; omega
  | ⟨1, _⟩ => show win1_0.index t 1 * 512 + 1 * k.val = k.val; rw [hi.2]; omega

/-- The second window holds the whole array at every point. -/
theorem iblk1_1_apply (c : Dev nD) (t : Fin cfg1.N) (a : Fin 8192) (k : Fin 512) :
    (iblk1 V c 1 t : Vec Ideal S8192x512 .bf16) (ix2 a k) = zrows1 V c a k := by
  have hi := idx1_1 t
  unfold iblk1 zrows1
  rw [View.read_apply]
  show V c main_v1 _ = V c main_v1 _
  congr 1
  funext d
  apply Fin.ext
  match d with
  | ⟨0, _⟩ => show win1_1.index t 0 * 8192 + 1 * a.val = a.val; rw [hi.1]; omega
  | ⟨1, _⟩ => show win1_1.index t 1 * 512 + 1 * k.val = k.val; rw [hi.2]; omega

/-- Row `cc` of column tile `j` is row `512 j + cc` of the array. -/
theorem ctile1_apply (x1 : Vec Ideal S8192x512 .bf16) (j : Fin 16) (cc k : Fin 512) :
    ctile1 x1 j (ix2 cc k) = x1 (ix2 (rowIx j cc) k) := by
  unfold ctile1
  show x1 _ = x1 _
  congr 1
  funext d
  apply Fin.ext
  match d with
  | ⟨0, _⟩ => show 512 * j.val + 1 * cc.val = j.val * 512 + cc.val; omega
  | ⟨1, _⟩ => show 0 + 1 * k.val = k.val; omega

/-- One column tile's contribution at row tile `t` is the tile sum of the pair terms. -/
theorem tile1_val (c : Dev nD) (t : Fin cfg1.N) (t' : Fin 16) (ht : t'.val = t.val) (j : Fin 16) (y : S1x1.Idx) :
    tile1 (k1_pay2 (iblk1 V c 0 t)) (k1_pay3 (iblk1 V c 0 t)) (k1_pay4 (grid1.coords t)) (BitVec.ofNat 32 (j.val * 512))
        (ctile1 (iblk1 V c 1 t) j) y
      = tileVal (zrows1 V c) t' j := by
  rw [tile1_apply]
  unfold tileVal
  refine Finset.sum_congr rfl fun r _ => Finset.sum_congr rfl fun cc _ => ?_
  rw [k1_pay4_apply, k1_pay3_apply, k1_pay2_eq, coord1_0 t, ← ht, cmpi_ne_rows t' j r cc]
  simp only [ctile1_apply, iblk1_0_apply V c t t' ht, iblk1_1_apply]
  unfold pairG
  by_cases h : rowIx t' r = rowIx j cc
  · rw [if_neg (not_not.mpr h), if_neg (not_not.mpr h), select_zero]; rfl
  · rw [if_pos h, if_pos h, select_one]; rfl

/-- The running sum over the first `n` column tiles at row tile `t`. -/
theorem colSum1_val (c : Dev nD) (t : Fin cfg1.N) (t' : Fin 16) (ht : t'.val = t.val) (y : S1x1.Idx) : ∀ (n : ℕ) (h : n ≤ 16),
    colSum1 (k1_pay2 (iblk1 V c 0 t)) (k1_pay3 (iblk1 V c 0 t)) (k1_pay4 (grid1.coords t)) (ctile1 (iblk1 V c 1 t)) n h y
      = ∑ j : Fin 16, if j.val < n then tileVal (zrows1 V c) t' j else 0
  | 0, _ => by
    show k1_pay5 (F := Ideal) y = _
    simp only [Nat.not_lt_zero, if_false, Finset.sum_const_zero]
    unfold k1_pay5
    exact Ideal.ofBits_zero_f32
  | n + 1, h => by
    show colSum1 _ _ _ _ n _ y + tile1 _ _ _ (BitVec.ofNat 32 (n * 512)) (ctile1 (iblk1 V c 1 t) ⟨n, h⟩) y = _
    rw [colSum1_val c t t' ht y n, tile1_val V c t t' ht ⟨n, h⟩ y, sum_lt_succ _ n h]

/-- The output's staging buffer after row tile `n`: the sum over the row tiles up to `n`. -/
theorem outsAt1_val (c : Dev nD) (y : S1x1.Idx) : ∀ (n : ℕ) (h : n < cfg1.N),
    outsAt1 V c n h y = ∑ t' : Fin 16, if t'.val < n + 1 then rowTileVal (zrows1 V c) t' else 0
  | 0, h => by
    rw [outsAt1_A V c ⟨0, h⟩ rfl, out1_A_2_eq]
    show shapeCast S1x1 (k1_pay1 (F := Ideal)) shapeCasts_S1x1_S1x1 y + colSum1 (F := Ideal) _ _ _ _ 16 _ y = _
    rw [colSum1_val V c ⟨0, h⟩ ⟨0, by omega⟩ rfl y 16 _, sum_lt_sixteen, sum_lt_succ _ 0 (by omega), shapeCast_self]
    simp only [Nat.not_lt_zero, if_false, Finset.sum_const_zero]
    unfold k1_pay1
    show Ideal.ofBits .f32 0x00000000#32 + _ = _
    rw [Ideal.ofBits_zero_f32]
    rfl
  | n + 1, h => by
    have hN : cfg1.N = 16 := N_1
    have hB : ¬(⟨n + 1, h⟩ : Fin cfg1.N).val % 16 = 0 := by dsimp only; omega
    rw [outsAt1_B V c ⟨n + 1, h⟩ hB, out1_B_2_eq]
    show shapeCast S1x1 (outsAt1 V c n _) shapeCasts_S1x1_S1x1 y + colSum1 (F := Ideal) _ _ _ _ 16 _ y = _
    rw [shapeCast_self, outsAt1_val c y n, colSum1_val V c ⟨n + 1, h⟩ ⟨n + 1, by omega⟩ rfl y 16 _, sum_lt_sixteen,
      sum_lt_succ _ (n + 1) (by omega)]
    rfl

end

/-- Region 1's result array ends holding the sum of the pair terms over the ordered pairs of distinct rows of its argument array. -/
theorem r1_value (V : (c : Dev nD) → (b : Ref sig .tc) → Buf (Elt Ideal) ((c : Thread nD τ).loc b)) (c : Dev nD) (y : S1x1.Idx) :
    (dat1 (F := Ideal) V c).arrAt 2 cfg1.N y = Cert.Spec.neqSum (fun r k => V c main_v1 (ValueIdx.ix2 r k)) := by
  rw [final1 V c]
  show outsAt1 V c 15 _ y = _
  rw [outsAt1_val V c y 15 _, sum_lt_sixteen, sum_rowTileVal]
  rfl

end Cert.KernelIdeal.Hand

end
-- ==== Proof.R2Pay.lean ====
import proofs.«107562_j37151467110996_1_alg».proof.Proof.R2Dat
import proofs.«107562_j37151467110996_1_alg».proof.Proof.LibRowReduce
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window BodyObligation cellOf)

variable {F : FTy → Type} [FloatOps F]

/-! Region 2, the values: what the body leaves in the output's staging buffer is its last store's payload (the running sum read
back plus the tile's sum of row distances), the payload over the extended reals at its one index, and an input window's block
read off its array. -/

theorem hz2 : (![0, 0] : Fin 2 → Nat) = fun _ => 0 := funext fun a => by fin_cases a <;> rfl

/-- At a later row tile the body leaves its one covering store's payload, whose loads read the whole buffers. -/
theorem out2_B_val (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond2 i)
    (x0 : Vec F S1024x512 .f32) (x1 : Vec F S1024x512 .f32) (xo2 : Vec F S1x1 .f32) :
    out2_B_2 c i arg1 harg1 arg2 harg2 arg3 harg3 hc0 x0 x1 xo2 = k2_pay2 x0 x1 xo2 := by
  unfold out2_B_2
  rw [View.read_writes_junk_eq_canon]
  unfold kernelRun2_B
  dsimp only
  rw [View.canon_unit_zero hz2]
  simp only [View.readAt_eq_ld, harg1.read_unread, harg2.read_unread, harg3.read_unread, View.ld_unit_zero (S := S1024x512) hz2,
    View.ld_unit_zero (S := S1x1) hz2]

/-- At the first row tile the body stores the zero, reads it back, and leaves the last store's payload over it. -/
theorem out2_A_val (c : Dev nD) (i : grid2.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond2 i)
    (x0 : Vec F S1024x512 .f32) (x1 : Vec F S1024x512 .f32) :
    out2_A_2 c i arg1 harg1 arg2 harg2 arg3 harg3 hc0 x0 x1 = k2_pay2 x0 x1 k2_pay1 := by
  unfold out2_A_2
  rw [View.read_writes_junk_eq_canon]
  unfold kernelRun2_A
  dsimp only
  sl_unfold_run_names
  rw [View.canon_cons_unit_zero (S := S1x1) hz2, View.readCov_unit_zero (S := S1x1) _ hz2]
  simp only [View.readAt_eq_ld, harg1.read_unread, harg2.read_unread, View.ld_unit_zero (S := S1024x512) hz2]

/-! ### The last store's payload over the extended reals -/

/-- A square root at an index is the square root of the element. -/
theorem r2_sqrt_apply {s : Shape} {φ : FTy} (a : FVec Ideal s φ) (i : s.Idx) : (sqrt a : FVec Ideal s φ) i = Ideal.sqrt (a i) := rfl

/-- The index of column `q` with the row `r` put back. -/
theorem r2_lift_col {a b : Nat} (h : (⟨2, ![a, b]⟩ : Shape).Reduces [0] ⟨1, ![b]⟩) (q : Fin b) (r : Fin a) :
    h.lift (ix1 q) r = ix2 r q :=
  funext fun c => Fin.ext (by
    match c with
    | ⟨0, _⟩ => rfl
    | ⟨1, _⟩ => rfl)

/-- Over the extended reals the sum down each column, at column `q`, is the sum of the column's entries. -/
theorem r2_colSum_apply {a b : Nat} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (r2_lift_col h q r))

/-- The sum over a tile's rows of the distance between the corresponding rows of the two tiles. -/
def r2_tileSum (x0 x1 : Vec Ideal S1024x512 .f32) : EReal :=
  ∑ r : Fin 1024, Ideal.sqrt (∑ k : Fin 512, (x0 (ix2 r k) - x1 (ix2 r k)) * (x0 (ix2 r k) - x1 (ix2 r k)))

/-- The last store's payload at its one index: what was read back plus the tile's sum of row distances. -/
theorem k2_pay2_apply (x0 x1 : Vec Ideal S1024x512 .f32) (xo : Vec Ideal S1x1 .f32) (y : S1x1.Idx) :
    k2_pay2 (F := Ideal) x0 x1 xo y = xo y + r2_tileSum x0 x1 := by
  obtain ⟨p, q, rfl⟩ : ∃ (p : Fin 1) (q : Fin 1), y = ix2 p q := ⟨y 0, y 1, eq_ix2 y⟩
  unfold k2_pay2 r2_tileSum
  refine (addf_apply _ _ _).trans ?_
  refine congrArg₂ (· + ·) (congrFun (shapeCast_self xo _) _) ?_
  refine (RowReduce.shapeCast_a_a1_apply _ _ p q).trans ?_
  refine (r2_colSum_apply _ _ _ _ _ p).trans ?_
  refine Finset.sum_congr rfl fun r _ => ?_
  refine (r2_sqrt_apply _ _).trans (congrArg Ideal.sqrt ?_)
  refine (RowReduce.shapeCast_a_a1_apply _ _ r p).trans ?_
  refine (RowReduce.rowSum_apply _ _ _ _ _ r).trans ?_
  rfl

/-- The zero splat at its one index. -/
theorem k2_pay1_apply (y : S1x1.Idx) : k2_pay1 (F := Ideal) y = 0 := by
  unfold k2_pay1
  exact Ideal.ofBits_zero_f32

/-! ### An input window's block, read off its array -/

section
variable (V : (c : Dev nD) → (b : Ref sig .tc) → Buf (Elt F) ((c : Thread nD τ).loc b))

/-- Both input windows' block at point `t` is row tile `t`, all columns. -/
theorem idx_facts2 : ∀ t : Fin cfg2.N, (win2_0.index t 0 = t.val ∧ win2_0.index t 1 = 0) ∧ (win2_1.index t 0 = t.val ∧ win2_1.index t 1 = 0) :=
  (by decide +kernel : ∀ t : Fin grid2.N, (win2_0.index t 0 = t.val ∧ win2_0.index t 1 = 0) ∧ (win2_1.index t 0 = t.val ∧ win2_1.index t 1 = 0))

/-- Row `r`, column `k` of the first window's block at point `t` is the first array at row `1024 t + r`, column `k`. -/
theorem iblk2_0_apply (c : Dev nD) (t : Fin cfg2.N) (r : Fin 1024) (k : Fin 512) (i : Fin 8192) (hi : i.val = t.val * 1024 + r.val) :
    (iblk2 V c 0 t : Vec F S1024x512 .f32) (ix2 r k) = V c main_arg0 (ix2 i k) := by
  have hf := (idx_facts2 t).1
  unfold iblk2
  rw [View.read_apply]
  show V c main_arg0 _ = V c main_arg0 _
  congr 1
  funext a
  apply Fin.ext
  match a with
  | ⟨0, _⟩ => show win2_0.index t 0 * 1024 + 1 * r.val = i.val; rw [hf.1]; omega
  | ⟨1, _⟩ => show win2_0.index t 1 * 512 + 1 * k.val = k.val; rw [hf.2]; omega

/-- Likewise the second window's block and the second array. -/
theorem iblk2_1_apply (c : Dev nD) (t : Fin cfg2.N) (r : Fin 1024) (k : Fin 512) (i : Fin 8192) (hi : i.val = t.val * 1024 + r.val) :
    (iblk2 V c 1 t : Vec F S1024x512 .f32) (ix2 r k) = V c main_arg1 (ix2 i k) := by
  have hf := (idx_facts2 t).2
  unfold iblk2
  rw [View.read_apply]
  show V c main_arg1 _ = V c main_arg1 _
  congr 1
  funext a
  apply Fin.ext
  match a with
  | ⟨0, _⟩ => show win2_1.index t 0 * 1024 + 1 * r.val = i.val; rw [hf.1]; omega
  | ⟨1, _⟩ => show win2_1.index t 1 * 512 + 1 * k.val = k.val; rw [hf.2]; omega

end

end Cert.KernelIdeal.Hand

end
-- ==== Proof.R2Value.lean ====
import proofs.«107562_j37151467110996_1_alg».proof.Proof.R2Pay
import proofs.«107562_j37151467110996_1_alg».proof.Proof.LibBlockSum
import proofs.«107562_j37151467110996_1_alg».proof.Proof.Spec
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window BodyObligation cellOf)

/-! Region 2, the result: the running sum after point `n` is the sum of the tiles' sums up to `n`; the result array is the output's
block at the last point, where it is written back; and the tiles' sums regroup into the sum over all rows. -/

section
variable (V : (c : Dev nD) → (b : Ref sig .tc) → Buf (Elt Ideal) ((c : Thread nD τ).loc b))

/-- Row tile `n`'s sum of row distances, as a function of every natural (zero past the grid). -/
def r2_tileAt (c : Dev nD) (n : ℕ) : EReal :=
  if h : n < cfg2.N then r2_tileSum (iblk2 V c 0 ⟨n, h⟩) (iblk2 V c 1 ⟨n, h⟩) else 0

/-- The running sum after point `n` is the sum of the tiles' sums up to `n`: by induction on the point. -/
theorem outsAt2_eq (c : Dev nD) : ∀ (n : ℕ) (hn : n < cfg2.N) (y : S1x1.Idx),
    outsAt2 V c n hn y = ∑ s ∈ Finset.range (n + 1), r2_tileAt V c s
  | 0, hn, y => by
    rw [outsAt2_A V c ⟨0, hn⟩ rfl, out2_A_val, k2_pay2_apply, k2_pay1_apply, zero_add, Finset.sum_range_one, r2_tileAt, dif_pos hn]
  | n + 1, hn, y => by
    have hN : cfg2.N = 8 := N_2
    have hB : ¬(⟨n + 1, hn⟩ : Fin cfg2.N).val % 8 = 0 := by dsimp only; omega
    rw [outsAt2_B V c ⟨n + 1, hn⟩ hB, out2_B_val, k2_pay2_apply, Finset.sum_range_succ _ (n + 1), r2_tileAt, dif_pos hn]
    refine congrArg₂ (· + ·) ?_ rfl
    exact outsAt2_eq c n _ y

/-- The running sum after the last point, as contents of the result array (the output's one block is the array). -/
abbrev result2 (c : Dev nD) : Buf (Elt Ideal) ((c : Thread nD τ).loc main_v6) :=
  outsAt2 V c 7 (by rw [show cfg2.N = 8 from N_2]; decide)

/-- The one write-back, at the last point, writes it. -/
theorem flushed2_eq (c : Dev nD) (t : Fin cfg2.N) (hf : (cfg2.win 2).flush t = true) :
    (dat2 V c).flushed 2 t = ((cfg2.win 2).blk t).view.read (Elt Ideal) (result2 V c) := by
  have hN : cfg2.N = 8 := N_2
  have h7 : t.val = 7 := by have := (flush2_2 t).mp hf; have := t.isLt; omega
  obtain rfl : t = t2_7 := Fin.ext h7
  show (cfg2.win 2).cut (grid2.coords t2_7) ((dat2 V c).after 2 t2_7) = _
  rw [after2_2]
  have hz' : (fun a => win2_2.index t2_7 a * main_v6.ty.shape.size a) = fun _ => 0 := funext fun a => by fin_cases a <;> decide
  exact (Memref.read_access_unit_zero (Elt Ideal) main_v6 hz' (fun a => by rw [congrFun hz' a]; simp) (result2 V c)).symm

/-- So the result array ends holding the running sum after the last point. -/
theorem final2 (c : Dev nD) : (dat2 V c).arrAt 2 cfg2.N = result2 V c :=
  (dat2 V c).arrAt_eq_of_cover 2 (result2 V c) (flushed2_eq V c) fun i =>
    ⟨t2_7, (flush2_2 t2_7).mpr rfl, by
      show i ∈ ((View.whole main_v6).slice (win2_2.rect t2_7)).set
      rw [View.set_slice_whole, Rect.mem_set_unit]
      intro a
      have h0 : (i 0 : Nat) < 1 := (i 0).isLt
      have h1 : (i 1 : Nat) < 1 := (i 1).isLt
      match a with
      | ⟨0, _⟩ => show win2_2.index t2_7 0 * win2_2.size 0 ≤ (i 0 : Nat) ∧ (i 0 : Nat) < win2_2.index t2_7 0 * win2_2.size 0 + win2_2.xsize (grid2.coords t2_7) 0
                  rw [show win2_2.index t2_7 0 * win2_2.size 0 = 0 from by decide +kernel, show win2_2.xsize (grid2.coords t2_7) 0 = 1 from by decide +kernel]; omega
      | ⟨1, _⟩ => show win2_2.index t2_7 1 * win2_2.size 1 ≤ (i 1 : Nat) ∧ (i 1 : Nat) < win2_2.index t2_7 1 * win2_2.size 1 + win2_2.xsize (grid2.coords t2_7) 1
                  rw [show win2_2.index t2_7 1 * win2_2.size 1 = 0 from by decide +kernel, show win2_2.xsize (grid2.coords t2_7) 1 = 1 from by decide +kernel]; omega⟩

/-- The two arrays' entries by row and column, as extended reals. -/
abbrev r2_arr0 (c : Dev nD) : Fin 8192 → Fin 512 → EReal := fun r k => V c main_arg0 (ix2 r k)
abbrev r2_arr1 (c : Dev nD) : Fin 8192 → Fin 512 → EReal := fun r k => V c main_arg1 (ix2 r k)

/-- The distance between row `i` of the first array and row `i` of the second. -/
def r2_rowDist (c : Dev nD) (i : Fin 8192) : EReal :=
  Ideal.sqrt (∑ k : Fin 512, (r2_arr0 V c i k - r2_arr1 V c i k) * (r2_arr0 V c i k - r2_arr1 V c i k))

/-- Row tile `t`'s sum is the sum over its 1024 rows of the distance between the two arrays' rows. -/
theorem r2_tileAt_eq (c : Dev nD) (t : Fin 8) :
    r2_tileAt V c t.val = ∑ j : Fin 1024, r2_rowDist V c ⟨t.val * 1024 + j.val, by have := t.isLt; have := j.isLt; omega⟩ := by
  have ht : t.val < cfg2.N := lt_of_lt_of_eq t.isLt N_2.symm
  rw [r2_tileAt, dif_pos ht, r2_tileSum]
  refine Finset.sum_congr rfl fun j _ => ?_
  unfold r2_rowDist
  refine congrArg Ideal.sqrt (Finset.sum_congr rfl fun k _ => ?_)
  have e0 : (iblk2 V c 0 ⟨t.val, ht⟩ : Vec Ideal S1024x512 .f32) (ix2 j k)
      = r2_arr0 V c ⟨t.val * 1024 + j.val, by have := t.isLt; have := j.isLt; omega⟩ k :=
    iblk2_0_apply V c ⟨t.val, ht⟩ j k _ rfl
  have e1 : (iblk2 V c 1 ⟨t.val, ht⟩ : Vec Ideal S1024x512 .f32) (ix2 j k)
      = r2_arr1 V c ⟨t.val * 1024 + j.val, by have := t.isLt; have := j.isLt; omega⟩ k :=
    iblk2_1_apply V c ⟨t.val, ht⟩ j k _ rfl
  rw [e0, e1]

/-- The value of region 2: the result array holds the sum over all rows of the distance between the two arrays' rows. -/
theorem r2_value (c : Dev nD) (y : S1x1.Idx) :
    (dat2 (F := Ideal) V c).arrAt 2 cfg2.N y
      = Cert.Spec.alignSum (fun r k => V c main_arg0 (ix2 r k)) (fun r k => V c main_arg1 (ix2 r k)) := by
  rw [final2 V c]
  show outsAt2 V c 7 _ y = ∑ i : Fin 8192, r2_rowDist V c i
  rw [outsAt2_eq]
  exact Cert.LibBlockSum.sum_range_blocks_of_eq 8 1024 8192 rfl (r2_rowDist V c) (r2_tileAt V c) (r2_tileAt_eq V c)

end

end Cert.KernelIdeal.Hand

end
-- ==== Proof.lean ====
/- The kernel program — three pipelined regions (the pair sums of the bf16 copies of the two argument arrays, each over row tiles against
   the whole array, and the sum of row distances over row tiles of both arrays) among four stretches of host operations — against the
   reference, over the extended reals.
   The frames: each region's body is run once per case of its one conditional (the output is zeroed at the first grid point and added to
   at every later one); the running sum is carried from point to point in the output's staging buffer, which is written back at the last
   point only; the array that the two input windows of a pair-sum region share is held half and half by them; the regions and the host
   stretches are composed over "every unscoped buffer at the boundary's contents", and no stretch or region writes an argument.
   The value: at the extended reals a format change is the identity, so each pair-sum region leaves the sum over all ordered pairs of
   distinct rows of exp(-distance) of its argument, and the third region the sum of the distances of corresponding rows; the last host
   stretch divides by the literal words and takes logarithms. The reference sums over the pairs in order and divides by half as much:
   the summand is symmetric, so the sum over ordered pairs is twice the sum over pairs in order, and on every extended real
   (T + T) / (2n) = T / n. No step needs the inputs finite.
   The ideal pass rewrote nothing, so the idealization is the program's own text read at the extended reals. -/
import proofs.«107562_j37151467110996_1_alg».proof.Defs
import proofs.«107562_j37151467110996_1_alg».proof.Proof.Gen.Kernel
import proofs.«107562_j37151467110996_1_alg».proof.Proof.Gen.KernelIdeal
import proofs.«107562_j37151467110996_1_alg».proof.Proof.Gen.ReferenceIdeal
import proofs.«107562_j37151467110996_1_alg».proof.Proof.Gen.Pre_finite_inputs
import proofs.«107562_j37151467110996_1_alg».proof.Proof.Gen.ReferenceIdeal.Run
import proofs.«107562_j37151467110996_1_alg».proof.Proof.FramesK
import proofs.«107562_j37151467110996_1_alg».proof.Proof.Frames
import proofs.«107562_j37151467110996_1_alg».proof.Proof.Algebraic
import proofs.«107562_j37151467110996_1_alg».proof.Proof.R0Value
import proofs.«107562_j37151467110996_1_alg».proof.Proof.R1Value
import proofs.«107562_j37151467110996_1_alg».proof.Proof.R2Value
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  algebraic_of Cert.KernelIdeal.Hand.r0_value Cert.KernelIdeal.Hand.r1_value Cert.KernelIdeal.Hand.r2_value⟩

end Cert.Proof

end
